-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn {F : FTy → Type} [FloatOps F] (main_arg0 : FVec F S4096x512 .f32) (main_arg1 : FVec F S4096x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  main_v8
-- ==== Kernel.lean ====
abbrev S4096x512 : Shape := ⟨2, ![4096, 512]⟩
abbrev S_ : Shape := ⟨0, ![]⟩
abbrev S4096 : Shape := ⟨1, ![4096]⟩
abbrev S4096x1 : Shape := ⟨2, ![4096, 1]⟩
abbrev S8192x512 : Shape := ⟨2, ![8192, 512]⟩
abbrev S8192x1 : Shape := ⟨2, ![8192, 1]⟩
abbrev S1024x512 : Shape := ⟨2, ![1024, 512]⟩
abbrev S1024x1 : Shape := ⟨2, ![1024, 1]⟩
abbrev S1024x1024 : Shape := ⟨2, ![1024, 1024]⟩
abbrev S1024 : Shape := ⟨1, ![1024]⟩
abbrev S8192 : Shape := ⟨1, ![8192]⟩
abbrev S6144x512 : Shape := ⟨2, ![6144, 512]⟩
abbrev S6144 : Shape := ⟨1, ![6144]⟩
abbrev S2048x512 : Shape := ⟨2, ![2048, 512]⟩
abbrev S2048 : Shape := ⟨1, ![2048]⟩

abbrev nBuf : Space → Nat
  | .hbm => 79
  | .vmem => 7
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x512, .f32⟩
  | .hbm, ⟨11, _⟩ => ⟨S4096x512, .f32⟩
  | .hbm, ⟨12, _⟩ => ⟨S4096x512, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x512, .f32⟩
  | .hbm, ⟨21, _⟩ => ⟨S4096x512, .f32⟩
  | .hbm, ⟨22, _⟩ => ⟨S8192x512, .f32⟩
  | .hbm, ⟨23, _⟩ => ⟨S8192x1, .f32⟩
  | .hbm, ⟨24, _⟩ => ⟨S_, .f32⟩
  | .hbm, ⟨25, _⟩ => ⟨S_, .f32⟩
  | .hbm, ⟨26, _⟩ => ⟨S8192x512, .f32⟩
  | .hbm, ⟨27, _⟩ => ⟨S_, .f32⟩
  | .hbm, ⟨28, _⟩ => ⟨S8192, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S6144x512, .f32⟩
  | .hbm, ⟨36, _⟩ => ⟨S6144x512, .f32⟩
  | .hbm, ⟨37, _⟩ => ⟨S6144x512, .f32⟩
  | .hbm, ⟨38, _⟩ => ⟨S_, .f32⟩
  | .hbm, ⟨39, _⟩ => ⟨S6144, .f32⟩
  | .hbm, ⟨40, _⟩ => ⟨S4096x512, .f32⟩
  | .hbm, ⟨41, _⟩ => ⟨S4096x512, .f32⟩
  | .hbm, ⟨42, _⟩ => ⟨S4096x512, .f32⟩
  | .hbm, ⟨43, _⟩ => ⟨S_, .f32⟩
  | .hbm, ⟨44, _⟩ => ⟨S4096, .f32⟩
  | .hbm, ⟨45, _⟩ => ⟨S2048x512, .f32⟩
  | .hbm, ⟨46, _⟩ => ⟨S2048x512, .f32⟩
  | .hbm, ⟨47, _⟩ => ⟨S2048x512, .f32⟩
  | .hbm, ⟨48, _⟩ => ⟨S_, .f32⟩
  | .hbm, ⟨49, _⟩ => ⟨S2048, .f32⟩
  | .hbm, ⟨50, _⟩ => ⟨S_, .f32⟩
  | .hbm, ⟨51, _⟩ => ⟨S6144, .f32⟩
  | .hbm, ⟨52, _⟩ => ⟨S6144, .f32⟩
  | .hbm, ⟨53, _⟩ => ⟨S6144, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S4096, .f32⟩
  | .hbm, ⟨58, _⟩ => ⟨S4096, .f32⟩
  | .hbm, ⟨59, _⟩ => ⟨S4096, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S2048, .f32⟩
  | .hbm, ⟨65, _⟩ => ⟨S2048, .f32⟩
  | .hbm, ⟨66, _⟩ => ⟨S2048, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_cst_8 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_9 : Ref sig .tc := ⟨.hbm, 54, rfl⟩
abbrev main_v34 : Ref sig .tc := ⟨.hbm, 55, rfl⟩
abbrev main_cst_10 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_11 : Ref sig .tc := ⟨.hbm, 60, rfl⟩
abbrev main_v38 : Ref sig .tc := ⟨.hbm, 61, rfl⟩
abbrev main_v39 : Ref sig .tc := ⟨.hbm, 62, rfl⟩
abbrev main_cst_12 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_13 : Ref sig .tc := ⟨.hbm, 67, rfl⟩
abbrev main_v43 : Ref sig .tc := ⟨.hbm, 68, rfl⟩
abbrev main_v44 : Ref sig .tc := ⟨.hbm, 69, rfl⟩
abbrev main_cst_14 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_15 : Ref sig .tc := ⟨.hbm, 77, rfl⟩
abbrev main_v51 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v18 : BitVec 1 := Scalar.cmpi .eq arg1 c7_i32
  let v19 : BitVec 32 := Scalar.extui v18
  let c0_i32_10 : BitVec 32 := 0#32
  let v20 : BitVec 1 := Scalar.cmpi .ne v19 c0_i32_10
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x512_0_1 : S4096x1.BroadcastsInDim S4096x512 (![0, 1] : Fin 2 → Fin S4096x512.rank)
  concatenates_S4096x512_S4096x512_S8192x512_d0 : Shape.Concatenates [S4096x512, S4096x512] S8192x512 0
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  reduces_S1024x1024_S1024 : S1024x1024.Reduces [1] S1024
  shapeCasts_S1024_S1024x1 : S1024.ShapeCasts S1024x1
  reducesTo_S8192x1_S_d0_1 : S8192x1.ReducesTo [0, 1] S_
  reducesTo_S8192x512_S8192_d1 : S8192x512.ReducesTo [1] S8192
  bcast_S_S8192 : S_.BroadcastsInDim S8192 (![] : Fin 0 → Fin S8192.rank)
  reducesTo_S8192_S_d0 : S8192.ReducesTo [0] S_
  slices_S8192x512_S6144x512_0_0 : S8192x512.Slices ![0, 0] S6144x512
  slices_S8192x512_S6144x512_2048_0 : S8192x512.Slices ![2048, 0] S6144x512
  reducesTo_S6144x512_S6144_d1 : S6144x512.ReducesTo [1] S6144
  slices_S8192x512_S4096x512_0_0 : S8192x512.Slices ![0, 0] S4096x512
  slices_S8192x512_S4096x512_4096_0 : S8192x512.Slices ![4096, 0] S4096x512
  slices_S8192x512_S2048x512_0_0 : S8192x512.Slices ![0, 0] S2048x512
  slices_S8192x512_S2048x512_6144_0 : S8192x512.Slices ![6144, 0] S2048x512
  reducesTo_S2048x512_S2048_d1 : S2048x512.ReducesTo [1] S2048
  bcast_S_S6144 : S_.BroadcastsInDim S6144 (![] : Fin 0 → Fin S6144.rank)
  reducesTo_S6144_S_d0 : S6144.ReducesTo [0] S_
  bcast_S_S4096 : S_.BroadcastsInDim S4096 (![] : Fin 0 → Fin S4096.rank)
  reducesTo_S4096_S_d0 : S4096.ReducesTo [0] S_
  bcast_S_S2048 : S_.BroadcastsInDim S2048 (![] : Fin 0 → Fin S2048.rank)
  reducesTo_S2048_S_d0 : S2048.ReducesTo [0] S_
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .f32 = 32 ∨ (Rect.block (s := S8192x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_v10) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x512 : Shape := ⟨2, ![4096, 512]⟩
abbrev S_ : Shape := ⟨0, ![]⟩
abbrev S4096 : Shape := ⟨1, ![4096]⟩
abbrev S4096x1 : Shape := ⟨2, ![4096, 1]⟩
abbrev S8192x512 : Shape := ⟨2, ![8192, 512]⟩
abbrev S512x8192 : Shape := ⟨2, ![512, 8192]⟩
abbrev S8192x8192 : Shape := ⟨2, ![8192, 8192]⟩
abbrev S6144 : Shape := ⟨1, ![6144]⟩
abbrev S6144x1 : Shape := ⟨2, ![6144, 1]⟩
abbrev S6144x2 : Shape := ⟨2, ![6144, 2]⟩
abbrev S12288 : Shape := ⟨1, ![12288]⟩
abbrev S4096x2 : Shape := ⟨2, ![4096, 2]⟩
abbrev S8192 : Shape := ⟨1, ![8192]⟩
abbrev S2048 : Shape := ⟨1, ![2048]⟩
abbrev S2048x1 : Shape := ⟨2, ![2048, 1]⟩
abbrev S2048x2 : Shape := ⟨2, ![2048, 2]⟩

abbrev nBuf : Space → Nat
  | .hbm => 209
  | .vmem => 0
  | .smem => 0
  | _ => 0

abbrev hbmTy0_0 (i : Nat) : BufTy := match i % 128 with
  | 0 => ⟨S4096x512, .f32⟩
  | 1 => ⟨S4096x512, .f32⟩
  | 2 => ⟨S4096x512, .f32⟩
  | 3 => ⟨S_, .f32⟩
  | 4 => ⟨S4096, .f32⟩
  | 5 => ⟨S4096x1, .f32⟩
  | 6 => ⟨S4096x1, .f32⟩
  | 7 => ⟨S_, .f32⟩
  | 8 => ⟨S4096x1, .f32⟩
  | 9 => ⟨S4096x1, .f32⟩
  | 10 => ⟨S4096x512, .f32⟩
  | 11 => ⟨S4096x512, .f32⟩
  | 12 => ⟨S4096x512, .f32⟩
  | 13 => ⟨S_, .f32⟩
  | 14 => ⟨S4096, .f32⟩
  | 15 => ⟨S4096x1, .f32⟩
  | 16 => ⟨S4096x1, .f32⟩
  | 17 => ⟨S_, .f32⟩
  | 18 => ⟨S4096x1, .f32⟩
  | 19 => ⟨S4096x1, .f32⟩
  | 20 => ⟨S4096x512, .f32⟩
  | 21 => ⟨S4096x512, .f32⟩
  | 22 => ⟨S8192x512, .f32⟩
  | 23 => ⟨S512x8192, .f32⟩
  | 24 => ⟨S8192x8192, .f32⟩
  | 25 => ⟨S6144, .i32⟩
  | 26 => ⟨S6144, .i32⟩
  | 27 => ⟨S_, .i32⟩
  | 28 => ⟨S6144, .i32⟩
  | 29 => ⟨S6144, .i32⟩
  | 30 => ⟨S_, .i32⟩
  | 31 => ⟨S6144, .i32⟩
  | 32 => ⟨S6144, .i1⟩
  | 33 => ⟨S_, .i32⟩
  | 34 => ⟨S6144, .i32⟩
  | 35 => ⟨S6144, .i32⟩
  | 36 => ⟨S6144, .i32⟩
  | 37 => ⟨S_, .i32⟩
  | 38 => ⟨S6144, .i32⟩
  | 39 => ⟨S6144, .i1⟩
  | 40 => ⟨S_, .i32⟩
  | 41 => ⟨S6144, .i32⟩
  | 42 => ⟨S6144, .i32⟩
  | 43 => ⟨S6144, .i32⟩
  | 44 => ⟨S6144x1, .i32⟩
  | 45 => ⟨S6144x1, .i32⟩
  | 46 => ⟨S6144x2, .i32⟩
  | 47 => ⟨S6144, .f32⟩
  | 48 => ⟨S6144, .i32⟩
  | 49 => ⟨S6144, .i32⟩
  | 50 => ⟨S_, .i32⟩
  | 51 => ⟨S6144, .i32⟩
  | 52 => ⟨S6144, .i32⟩
  | 53 => ⟨S_, .i32⟩
  | 54 => ⟨S6144, .i32⟩
  | 55 => ⟨S6144, .i1⟩
  | 56 => ⟨S_, .i32⟩
  | 57 => ⟨S6144, .i32⟩
  | 58 => ⟨S6144, .i32⟩
  | 59 => ⟨S6144, .i32⟩
  | 60 => ⟨S_, .i32⟩
  | 61 => ⟨S6144, .i32⟩
  | 62 => ⟨S6144, .i1⟩
  | 63 => ⟨S_, .i32⟩
  | 64 => ⟨S6144, .i32⟩
  | 65 => ⟨S6144, .i32⟩
  | 66 => ⟨S6144, .i32⟩
  | 67 => ⟨S6144x1, .i32⟩
  | 68 => ⟨S6144x1, .i32⟩
  | 69 => ⟨S6144x2, .i32⟩
  | 70 => ⟨S6144, .f32⟩
  | 71 => ⟨S12288, .f32⟩
  | 72 => ⟨S4096, .i32⟩
  | 73 => ⟨S4096, .i32⟩
  | 74 => ⟨S_, .i32⟩
  | 75 => ⟨S4096, .i32⟩
  | 76 => ⟨S4096, .i32⟩
  | 77 => ⟨S_, .i32⟩
  | 78 => ⟨S4096, .i32⟩
  | 79 => ⟨S4096, .i1⟩
  | 80 => ⟨S_, .i32⟩
  | 81 => ⟨S4096, .i32⟩
  | 82 => ⟨S4096, .i32⟩
  | 83 => ⟨S4096, .i32⟩
  | 84 => ⟨S_, .i32⟩
  | 85 => ⟨S4096, .i32⟩
  | 86 => ⟨S4096, .i1⟩
  | 87 => ⟨S_, .i32⟩
  | 88 => ⟨S4096, .i32⟩
  | 89 => ⟨S4096, .i32⟩
  | 90 => ⟨S4096, .i32⟩
  | 91 => ⟨S4096x1, .i32⟩
  | 92 => ⟨S4096x1, .i32⟩
  | 93 => ⟨S4096x2, .i32⟩
  | 94 => ⟨S4096, .f32⟩
  | 95 => ⟨S4096, .i32⟩
  | 96 => ⟨S4096, .i32⟩
  | 97 => ⟨S_, .i32⟩
  | 98 => ⟨S4096, .i32⟩
  | 99 => ⟨S4096, .i32⟩
  | 100 => ⟨S_, .i32⟩
  | 101 => ⟨S4096, .i32⟩
  | 102 => ⟨S4096, .i1⟩
  | 103 => ⟨S_, .i32⟩
  | 104 => ⟨S4096, .i32⟩
  | 105 => ⟨S4096, .i32⟩
  | 106 => ⟨S4096, .i32⟩
  | 107 => ⟨S_, .i32⟩
  | 108 => ⟨S4096, .i32⟩
  | 109 => ⟨S4096, .i1⟩
  | 110 => ⟨S_, .i32⟩
  | 111 => ⟨S4096, .i32⟩
  | 112 => ⟨S4096, .i32⟩
  | 113 => ⟨S4096, .i32⟩
  | 114 => ⟨S4096x1, .i32⟩
  | 115 => ⟨S4096x1, .i32⟩
  | 116 => ⟨S4096x2, .i32⟩
  | 117 => ⟨S4096, .f32⟩
  | 118 => ⟨S8192, .f32⟩
  | 119 => ⟨S2048, .i32⟩
  | 120 => ⟨S2048, .i32⟩
  | 121 => ⟨S_, .i32⟩
  | 122 => ⟨S2048, .i32⟩
  | 123 => ⟨S2048, .i32⟩
  | 124 => ⟨S_, .i32⟩
  | 125 => ⟨S2048, .i32⟩
  | 126 => ⟨S2048, .i1⟩
  | 127 => ⟨S_, .i32⟩
  | _ => ⟨S4096x512, .f32⟩

abbrev hbmTy0_1 (i : Nat) : BufTy := match i % 128 with
  | 0 => ⟨S2048, .i32⟩
  | 1 => ⟨S2048, .i32⟩
  | 2 => ⟨S2048, .i32⟩
  | 3 => ⟨S_, .i32⟩
  | 4 => ⟨S2048, .i32⟩
  | 5 => ⟨S2048, .i1⟩
  | 6 => ⟨S_, .i32⟩
  | 7 => ⟨S2048, .i32⟩
  | 8 => ⟨S2048, .i32⟩
  | 9 => ⟨S2048, .i32⟩
  | 10 => ⟨S2048x1, .i32⟩
  | 11 => ⟨S2048x1, .i32⟩
  | 12 => ⟨S2048x2, .i32⟩
  | 13 => ⟨S2048, .f32⟩
  | 14 => ⟨S2048, .i32⟩
  | 15 => ⟨S2048, .i32⟩
  | 16 => ⟨S_, .i32⟩
  | 17 => ⟨S2048, .i32⟩
  | 18 => ⟨S2048, .i32⟩
  | 19 => ⟨S_, .i32⟩
  | 20 => ⟨S2048, .i32⟩
  | 21 => ⟨S2048, .i1⟩
  | 22 => ⟨S_, .i32⟩
  | 23 => ⟨S2048, .i32⟩
  | 24 => ⟨S2048, .i32⟩
  | 25 => ⟨S2048, .i32⟩
  | 26 => ⟨S_, .i32⟩
  | 27 => ⟨S2048, .i32⟩
  | 28 => ⟨S2048, .i1⟩
  | 29 => ⟨S_, .i32⟩
  | 30 => ⟨S2048, .i32⟩
  | 31 => ⟨S2048, .i32⟩
  | 32 => ⟨S2048, .i32⟩
  | 33 => ⟨S2048x1, .i32⟩
  | 34 => ⟨S2048x1, .i32⟩
  | 35 => ⟨S2048x2, .i32⟩
  | 36 => ⟨S2048, .f32⟩
  | 37 => ⟨S4096, .f32⟩
  | 38 => ⟨S_, .f32⟩
  | 39 => ⟨S12288, .f32⟩
  | 40 => ⟨S12288, .f32⟩
  | 41 => ⟨S12288, .f32⟩
  | 42 => ⟨S_, .f32⟩
  | 43 => ⟨S_, .f32⟩
  | 44 => ⟨S_, .f32⟩
  | 45 => ⟨S8192, .f32⟩
  | 46 => ⟨S8192, .f32⟩
  | 47 => ⟨S8192, .f32⟩
  | 48 => ⟨S_, .f32⟩
  | 49 => ⟨S_, .f32⟩
  | 50 => ⟨S_, .f32⟩
  | 51 => ⟨S_, .f32⟩
  | 52 => ⟨S4096, .f32⟩
  | 53 => ⟨S4096, .f32⟩
  | 54 => ⟨S4096, .f32⟩
  | 55 => ⟨S_, .f32⟩
  | 56 => ⟨S_, .f32⟩
  | 57 => ⟨S_, .f32⟩
  | 58 => ⟨S8192x8192, .i32⟩
  | 59 => ⟨S8192x8192, .i32⟩
  | 60 => ⟨S_, .i32⟩
  | 61 => ⟨S8192x8192, .i32⟩
  | 62 => ⟨S8192x8192, .i32⟩
  | 63 => ⟨S8192x8192, .i1⟩
  | 64 => ⟨S8192x8192, .f32⟩
  | 65 => ⟨S_, .f32⟩
  | 66 => ⟨S8192x8192, .f32⟩
  | 67 => ⟨S8192x8192, .f32⟩
  | 68 => ⟨S_, .f32⟩
  | 69 => ⟨S8192x8192, .f32⟩
  | 70 => ⟨S8192x8192, .f32⟩
  | 71 => ⟨S8192x8192, .f32⟩
  | 72 => ⟨S8192x8192, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_call2_v0 : Ref sig .tc := ⟨.hbm, 25, rfl⟩
abbrev main_call2_v1 : Ref sig .tc := ⟨.hbm, 26, rfl⟩
abbrev main_call2_c : Ref sig .tc := ⟨.hbm, 27, rfl⟩
abbrev main_call2_v2 : Ref sig .tc := ⟨.hbm, 28, rfl⟩
abbrev main_call2_v3 : Ref sig .tc := ⟨.hbm, 29, rfl⟩
abbrev main_call2_c_0 : Ref sig .tc := ⟨.hbm, 30, rfl⟩
abbrev main_call2_v4 : Ref sig .tc := ⟨.hbm, 31, rfl⟩
abbrev main_call2_v5 : Ref sig .tc := ⟨.hbm, 32, rfl⟩
abbrev main_call2_c_1 : Ref sig .tc := ⟨.hbm, 33, rfl⟩
abbrev main_call2_v6 : Ref sig .tc := ⟨.hbm, 34, rfl⟩
abbrev main_call2_v7 : Ref sig .tc := ⟨.hbm, 35, rfl⟩
abbrev main_call2_v8 : Ref sig .tc := ⟨.hbm, 36, rfl⟩
abbrev main_call2_c_2 : Ref sig .tc := ⟨.hbm, 37, rfl⟩
abbrev main_call2_v9 : Ref sig .tc := ⟨.hbm, 38, rfl⟩
abbrev main_call2_v10 : Ref sig .tc := ⟨.hbm, 39, rfl⟩
abbrev main_call2_c_3 : Ref sig .tc := ⟨.hbm, 40, rfl⟩
abbrev main_call2_v11 : Ref sig .tc := ⟨.hbm, 41, rfl⟩
abbrev main_call2_v12 : Ref sig .tc := ⟨.hbm, 42, rfl⟩
abbrev main_call2_v13 : Ref sig .tc := ⟨.hbm, 43, rfl⟩
abbrev main_call2_v14 : Ref sig .tc := ⟨.hbm, 44, rfl⟩
abbrev main_call2_v15 : Ref sig .tc := ⟨.hbm, 45, rfl⟩
abbrev main_call2_v16 : Ref sig .tc := ⟨.hbm, 46, rfl⟩
abbrev main_v13 : Ref sig .tc := ⟨.hbm, 47, rfl⟩
abbrev main_call3_v0 : Ref sig .tc := ⟨.hbm, 48, rfl⟩
abbrev main_call3_v1 : Ref sig .tc := ⟨.hbm, 49, rfl⟩
abbrev main_call3_c : Ref sig .tc := ⟨.hbm, 50, rfl⟩
abbrev main_call3_v2 : Ref sig .tc := ⟨.hbm, 51, rfl⟩
abbrev main_call3_v3 : Ref sig .tc := ⟨.hbm, 52, rfl⟩
abbrev main_call3_c_0 : Ref sig .tc := ⟨.hbm, 53, rfl⟩
abbrev main_call3_v4 : Ref sig .tc := ⟨.hbm, 54, rfl⟩
abbrev main_call3_v5 : Ref sig .tc := ⟨.hbm, 55, rfl⟩
abbrev main_call3_c_1 : Ref sig .tc := ⟨.hbm, 56, rfl⟩
abbrev main_call3_v6 : Ref sig .tc := ⟨.hbm, 57, rfl⟩
abbrev main_call3_v7 : Ref sig .tc := ⟨.hbm, 58, rfl⟩
abbrev main_call3_v8 : Ref sig .tc := ⟨.hbm, 59, rfl⟩
abbrev main_call3_c_2 : Ref sig .tc := ⟨.hbm, 60, rfl⟩
abbrev main_call3_v9 : Ref sig .tc := ⟨.hbm, 61, rfl⟩
abbrev main_call3_v10 : Ref sig .tc := ⟨.hbm, 62, rfl⟩
abbrev main_call3_c_3 : Ref sig .tc := ⟨.hbm, 63, rfl⟩
abbrev main_call3_v11 : Ref sig .tc := ⟨.hbm, 64, rfl⟩
abbrev main_call3_v12 : Ref sig .tc := ⟨.hbm, 65, rfl⟩
abbrev main_call3_v13 : Ref sig .tc := ⟨.hbm, 66, rfl⟩
abbrev main_call3_v14 : Ref sig .tc := ⟨.hbm, 67, rfl⟩
abbrev main_call3_v15 : Ref sig .tc := ⟨.hbm, 68, rfl⟩
abbrev main_call3_v16 : Ref sig .tc := ⟨.hbm, 69, rfl⟩
abbrev main_v14 : Ref sig .tc := ⟨.hbm, 70, rfl⟩
abbrev main_v15 : Ref sig .tc := ⟨.hbm, 71, rfl⟩
abbrev main_call4_v0 : Ref sig .tc := ⟨.hbm, 72, rfl⟩
abbrev main_call4_v1 : Ref sig .tc := ⟨.hbm, 73, rfl⟩
abbrev main_call4_c : Ref sig .tc := ⟨.hbm, 74, rfl⟩
abbrev main_call4_v2 : Ref sig .tc := ⟨.hbm, 75, rfl⟩
abbrev main_call4_v3 : Ref sig .tc := ⟨.hbm, 76, rfl⟩
abbrev main_call4_c_0 : Ref sig .tc := ⟨.hbm, 77, rfl⟩
abbrev main_call4_v4 : Ref sig .tc := ⟨.hbm, 78, rfl⟩
abbrev main_call4_v5 : Ref sig .tc := ⟨.hbm, 79, rfl⟩
abbrev main_call4_c_1 : Ref sig .tc := ⟨.hbm, 80, rfl⟩
abbrev main_call4_v6 : Ref sig .tc := ⟨.hbm, 81, rfl⟩
abbrev main_call4_v7 : Ref sig .tc := ⟨.hbm, 82, rfl⟩
abbrev main_call4_v8 : Ref sig .tc := ⟨.hbm, 83, rfl⟩
abbrev main_call4_c_2 : Ref sig .tc := ⟨.hbm, 84, rfl⟩
abbrev main_call4_v9 : Ref sig .tc := ⟨.hbm, 85, rfl⟩
abbrev main_call4_v10 : Ref sig .tc := ⟨.hbm, 86, rfl⟩
abbrev main_call4_c_3 : Ref sig .tc := ⟨.hbm, 87, rfl⟩
abbrev main_call4_v11 : Ref sig .tc := ⟨.hbm, 88, rfl⟩
abbrev main_call4_v12 : Ref sig .tc := ⟨.hbm, 89, rfl⟩
abbrev main_call4_v13 : Ref sig .tc := ⟨.hbm, 90, rfl⟩
abbrev main_call4_v14 : Ref sig .tc := ⟨.hbm, 91, rfl⟩
abbrev main_call4_v15 : Ref sig .tc := ⟨.hbm, 92, rfl⟩
abbrev main_call4_v16 : Ref sig .tc := ⟨.hbm, 93, rfl⟩
abbrev main_v16 : Ref sig .tc := ⟨.hbm, 94, rfl⟩
abbrev main_call5_v0 : Ref sig .tc := ⟨.hbm, 95, rfl⟩
abbrev main_call5_v1 : Ref sig .tc := ⟨.hbm, 96, rfl⟩
abbrev main_call5_c : Ref sig .tc := ⟨.hbm, 97, rfl⟩
abbrev main_call5_v2 : Ref sig .tc := ⟨.hbm, 98, rfl⟩
abbrev main_call5_v3 : Ref sig .tc := ⟨.hbm, 99, rfl⟩
abbrev main_call5_c_0 : Ref sig .tc := ⟨.hbm, 100, rfl⟩
abbrev main_call5_v4 : Ref sig .tc := ⟨.hbm, 101, rfl⟩
abbrev main_call5_v5 : Ref sig .tc := ⟨.hbm, 102, rfl⟩
abbrev main_call5_c_1 : Ref sig .tc := ⟨.hbm, 103, rfl⟩
abbrev main_call5_v6 : Ref sig .tc := ⟨.hbm, 104, rfl⟩
abbrev main_call5_v7 : Ref sig .tc := ⟨.hbm, 105, rfl⟩
abbrev main_call5_v8 : Ref sig .tc := ⟨.hbm, 106, rfl⟩
abbrev main_call5_c_2 : Ref sig .tc := ⟨.hbm, 107, rfl⟩
abbrev main_call5_v9 : Ref sig .tc := ⟨.hbm, 108, rfl⟩
abbrev main_call5_v10 : Ref sig .tc := ⟨.hbm, 109, rfl⟩
abbrev main_call5_c_3 : Ref sig .tc := ⟨.hbm, 110, rfl⟩
abbrev main_call5_v11 : Ref sig .tc := ⟨.hbm, 111, rfl⟩
abbrev main_call5_v12 : Ref sig .tc := ⟨.hbm, 112, rfl⟩
abbrev main_call5_v13 : Ref sig .tc := ⟨.hbm, 113, rfl⟩
abbrev main_call5_v14 : Ref sig .tc := ⟨.hbm, 114, rfl⟩
abbrev main_call5_v15 : Ref sig .tc := ⟨.hbm, 115, rfl⟩
abbrev main_call5_v16 : Ref sig .tc := ⟨.hbm, 116, rfl⟩
abbrev main_v17 : Ref sig .tc := ⟨.hbm, 117, rfl⟩
abbrev main_v18 : Ref sig .tc := ⟨.hbm, 118, rfl⟩
abbrev main_call6_v0 : Ref sig .tc := ⟨.hbm, 119, rfl⟩
abbrev main_call6_v1 : Ref sig .tc := ⟨.hbm, 120, rfl⟩
abbrev main_call6_c : Ref sig .tc := ⟨.hbm, 121, rfl⟩
abbrev main_call6_v2 : Ref sig .tc := ⟨.hbm, 122, rfl⟩
abbrev main_call6_v3 : Ref sig .tc := ⟨.hbm, 123, rfl⟩
abbrev main_call6_c_0 : Ref sig .tc := ⟨.hbm, 124, rfl⟩
abbrev main_call6_v4 : Ref sig .tc := ⟨.hbm, 125, rfl⟩
abbrev main_call6_v5 : Ref sig .tc := ⟨.hbm, 126, rfl⟩
abbrev main_call6_c_1 : Ref sig .tc := ⟨.hbm, 127, rfl⟩
abbrev main_call6_v6 : Ref sig .tc := ⟨.hbm, 128, rfl⟩
abbrev main_call6_v7 : Ref sig .tc := ⟨.hbm, 129, rfl⟩
abbrev main_call6_v8 : Ref sig .tc := ⟨.hbm, 130, rfl⟩
abbrev main_call6_c_2 : Ref sig .tc := ⟨.hbm, 131, rfl⟩
abbrev main_call6_v9 : Ref sig .tc := ⟨.hbm, 132, rfl⟩
abbrev main_call6_v10 : Ref sig .tc := ⟨.hbm, 133, rfl⟩
abbrev main_call6_c_3 : Ref sig .tc := ⟨.hbm, 134, rfl⟩
abbrev main_call6_v11 : Ref sig .tc := ⟨.hbm, 135, rfl⟩
abbrev main_call6_v12 : Ref sig .tc := ⟨.hbm, 136, rfl⟩
abbrev main_call6_v13 : Ref sig .tc := ⟨.hbm, 137, rfl⟩
abbrev main_call6_v14 : Ref sig .tc := ⟨.hbm, 138, rfl⟩
abbrev main_call6_v15 : Ref sig .tc := ⟨.hbm, 139, rfl⟩
abbrev main_call6_v16 : Ref sig .tc := ⟨.hbm, 140, rfl⟩
abbrev main_v19 : Ref sig .tc := ⟨.hbm, 141, rfl⟩
abbrev main_call7_v0 : Ref sig .tc := ⟨.hbm, 142, rfl⟩
abbrev main_call7_v1 : Ref sig .tc := ⟨.hbm, 143, rfl⟩
abbrev main_call7_c : Ref sig .tc := ⟨.hbm, 144, rfl⟩
abbrev main_call7_v2 : Ref sig .tc := ⟨.hbm, 145, rfl⟩
abbrev main_call7_v3 : Ref sig .tc := ⟨.hbm, 146, rfl⟩
abbrev main_call7_c_0 : Ref sig .tc := ⟨.hbm, 147, rfl⟩
abbrev main_call7_v4 : Ref sig .tc := ⟨.hbm, 148, rfl⟩
abbrev main_call7_v5 : Ref sig .tc := ⟨.hbm, 149, rfl⟩
abbrev main_call7_c_1 : Ref sig .tc := ⟨.hbm, 150, rfl⟩
abbrev main_call7_v6 : Ref sig .tc := ⟨.hbm, 151, rfl⟩
abbrev main_call7_v7 : Ref sig .tc := ⟨.hbm, 152, rfl⟩
abbrev main_call7_v8 : Ref sig .tc := ⟨.hbm, 153, rfl⟩
abbrev main_call7_c_2 : Ref sig .tc := ⟨.hbm, 154, rfl⟩
abbrev main_call7_v9 : Ref sig .tc := ⟨.hbm, 155, rfl⟩
abbrev main_call7_v10 : Ref sig .tc := ⟨.hbm, 156, rfl⟩
abbrev main_call7_c_3 : Ref sig .tc := ⟨.hbm, 157, rfl⟩
abbrev main_call7_v11 : Ref sig .tc := ⟨.hbm, 158, rfl⟩
abbrev main_call7_v12 : Ref sig .tc := ⟨.hbm, 159, rfl⟩
abbrev main_call7_v13 : Ref sig .tc := ⟨.hbm, 160, rfl⟩
abbrev main_call7_v14 : Ref sig .tc := ⟨.hbm, 161, rfl⟩
abbrev main_call7_v15 : Ref sig .tc := ⟨.hbm, 162, rfl⟩
abbrev main_call7_v16 : Ref sig .tc := ⟨.hbm, 163, rfl⟩
abbrev main_v20 : Ref sig .tc := ⟨.hbm, 164, rfl⟩
abbrev main_v21 : Ref sig .tc := ⟨.hbm, 165, rfl⟩
abbrev main_cst_1 : Ref sig .tc := ⟨.hbm, 166, rfl⟩
abbrev main_v22 : Ref sig .tc := ⟨.hbm, 167, rfl⟩
abbrev main_v23 : Ref sig .tc := ⟨.hbm, 168, rfl⟩
abbrev main_v24 : Ref sig .tc := ⟨.hbm, 169, rfl⟩
abbrev main_cst_2 : Ref sig .tc := ⟨.hbm, 170, rfl⟩
abbrev main_v25 : Ref sig .tc := ⟨.hbm, 171, rfl⟩
abbrev main_cst_3 : Ref sig .tc := ⟨.hbm, 172, rfl⟩
abbrev main_v26 : Ref sig .tc := ⟨.hbm, 173, rfl⟩
abbrev main_v27 : Ref sig .tc := ⟨.hbm, 174, rfl⟩
abbrev main_v28 : Ref sig .tc := ⟨.hbm, 175, rfl⟩
abbrev main_cst_4 : Ref sig .tc := ⟨.hbm, 176, rfl⟩
abbrev main_v29 : Ref sig .tc := ⟨.hbm, 177, rfl⟩
abbrev main_v30 : Ref sig .tc := ⟨.hbm, 178, rfl⟩
abbrev main_cst_5 : Ref sig .tc := ⟨.hbm, 179, rfl⟩
abbrev main_v31 : Ref sig .tc := ⟨.hbm, 180, rfl⟩
abbrev main_v32 : Ref sig .tc := ⟨.hbm, 181, rfl⟩
abbrev main_v33 : Ref sig .tc := ⟨.hbm, 182, rfl⟩
abbrev main_cst_6 : Ref sig .tc := ⟨.hbm, 183, rfl⟩
abbrev main_v34 : Ref sig .tc := ⟨.hbm, 184, rfl⟩
abbrev main_v35 : Ref sig .tc := ⟨.hbm, 185, rfl⟩
abbrev main_v36 : Ref sig .tc := ⟨.hbm, 186, rfl⟩
abbrev main_v37 : Ref sig .tc := ⟨.hbm, 187, rfl⟩
abbrev main_c : Ref sig .tc := ⟨.hbm, 188, rfl⟩
abbrev main_v38 : Ref sig .tc := ⟨.hbm, 189, rfl⟩
abbrev main_v39 : Ref sig .tc := ⟨.hbm, 190, rfl⟩
abbrev main_v40 : Ref sig .tc := ⟨.hbm, 191, rfl⟩
abbrev main_v41 : Ref sig .tc := ⟨.hbm, 192, rfl⟩
abbrev main_cst_7 : Ref sig .tc := ⟨.hbm, 193, rfl⟩
abbrev main_v42 : Ref sig .tc := ⟨.hbm, 194, rfl⟩
abbrev main_v43 : Ref sig .tc := ⟨.hbm, 195, rfl⟩
abbrev main_cst_8 : Ref sig .tc := ⟨.hbm, 196, rfl⟩
abbrev main_v44 : Ref sig .tc := ⟨.hbm, 197, rfl⟩
abbrev main_v45 : Ref sig .tc := ⟨.hbm, 198, rfl⟩
abbrev main_v46 : Ref sig .tc := ⟨.hbm, 199, rfl⟩
abbrev main_v47 : Ref sig .tc := ⟨.hbm, 200, rfl⟩
abbrev main_cst_9 : Ref sig .tc := ⟨.hbm, 201, rfl⟩
abbrev main_v48 : Ref sig .tc := ⟨.hbm, 202, rfl⟩
abbrev main_v49 : Ref sig .tc := ⟨.hbm, 203, rfl⟩
abbrev main_v50 : Ref sig .tc := ⟨.hbm, 204, rfl⟩
abbrev main_v51 : Ref sig .tc := ⟨.hbm, 205, rfl⟩
abbrev main_v52 : Ref sig .tc := ⟨.hbm, 206, rfl⟩
abbrev main_cst_10 : Ref sig .tc := ⟨.hbm, 207, rfl⟩
abbrev main_v53 : Ref sig .tc := ⟨.hbm, 208, rfl⟩

abbrev nD : Nat := 1
abbrev τ : Topo := Topo.v7x

variable {F : FTy → Type} [FloatOps F]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x512_0_1 : S4096x1.BroadcastsInDim S4096x512 (![0, 1] : Fin 2 → Fin S4096x512.rank)
  concatenates_S4096x512_S4096x512_S8192x512_d0 : Shape.Concatenates [S4096x512, S4096x512] S8192x512 0
  transposes_S8192x512_S512x8192_1_0 : S8192x512.Transposes [1, 0] S512x8192
  bcast_S_S6144 : S_.BroadcastsInDim S6144 (![] : Fin 0 → Fin S6144.rank)
  bcast_S6144_S6144x1_0 : S6144.BroadcastsInDim S6144x1 (![0] : Fin 1 → Fin S6144x1.rank)
  concatenates_S6144x1_S6144x1_S6144x2_d1 : Shape.Concatenates [S6144x1, S6144x1] S6144x2 1
  concatenates_S6144_S6144_S12288_d0 : Shape.Concatenates [S6144, S6144] S12288 0
  bcast_S_S4096 : S_.BroadcastsInDim S4096 (![] : Fin 0 → Fin S4096.rank)
  concatenates_S4096x1_S4096x1_S4096x2_d1 : Shape.Concatenates [S4096x1, S4096x1] S4096x2 1
  concatenates_S4096_S4096_S8192_d0 : Shape.Concatenates [S4096, S4096] S8192 0
  bcast_S_S2048 : S_.BroadcastsInDim S2048 (![] : Fin 0 → Fin S2048.rank)
  bcast_S2048_S2048x1_0 : S2048.BroadcastsInDim S2048x1 (![0] : Fin 1 → Fin S2048x1.rank)
  concatenates_S2048x1_S2048x1_S2048x2_d1 : Shape.Concatenates [S2048x1, S2048x1] S2048x2 1
  concatenates_S2048_S2048_S4096_d0 : Shape.Concatenates [S2048, S2048] S4096 0
  bcast_S_S12288 : S_.BroadcastsInDim S12288 (![] : Fin 0 → Fin S12288.rank)
  reducesTo_S12288_S_d0 : S12288.ReducesTo [0] S_
  bcast_S_S8192 : S_.BroadcastsInDim S8192 (![] : Fin 0 → Fin S8192.rank)
  reducesTo_S8192_S_d0 : S8192.ReducesTo [0] S_
  reducesTo_S4096_S_d0 : S4096.ReducesTo [0] S_
  bcast_S_S8192x8192 : S_.BroadcastsInDim S8192x8192 (![] : Fin 0 → Fin S8192x8192.rank)
  reducesTo_S8192x8192_S_d0_1 : S8192x8192.ReducesTo [0, 1] S_
  dot_S8192x512_S512x8192_S8192x8192_1_0_0_1_n_n_wf : DotDims.WF S8192x512 S512x8192 S8192x8192 [1] [0] [0] [1] [] []
  gather_S8192x8192_S6144x2_S6144_n_01_n_n_01_1_11_wf : GatherDims.WF S8192x8192 S6144x2 S6144 [] [0, 1] [] [0, 1] [] 1 ![1, 1]
  gather_S8192x8192_S4096x2_S4096_n_01_n_n_01_1_11_wf : GatherDims.WF S8192x8192 S4096x2 S4096 [] [0, 1] [] [0, 1] [] 1 ![1, 1]
  gather_S8192x8192_S2048x2_S2048_n_01_n_n_01_1_11_wf : GatherDims.WF S8192x8192 S2048x2 S2048 [] [0, 1] [] [0, 1] [] 1 ![1, 1]

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf
def gather_S8192x8192_S6144x2_S6144_n_01_n_n_01_1_11 : GatherDims S8192x8192 S6144x2 S6144 where
  offsetDims := []
  collapsedSliceDims := [0, 1]
  operandBatchingDims := []
  startIndicesBatchingDims := []
  startIndexMap := [0, 1]
  indexVectorDim := 1
  sliceSizes := ![1, 1]
  wf := gather_S8192x8192_S6144x2_S6144_n_01_n_n_01_1_11_wf
def gather_S8192x8192_S4096x2_S4096_n_01_n_n_01_1_11 : GatherDims S8192x8192 S4096x2 S4096 where
  offsetDims := []
  collapsedSliceDims := [0, 1]
  operandBatchingDims := []
  startIndicesBatchingDims := []
  startIndexMap := [0, 1]
  indexVectorDim := 1
  sliceSizes := ![1, 1]
  wf := gather_S8192x8192_S4096x2_S4096_n_01_n_n_01_1_11_wf
def gather_S8192x8192_S2048x2_S2048_n_01_n_n_01_1_11 : GatherDims S8192x8192 S2048x2 S2048 where
  offsetDims := []
  collapsedSliceDims := [0, 1]
  operandBatchingDims := []
  startIndicesBatchingDims := []
  startIndexMap := [0, 1]
  indexVectorDim := 1
  sliceSizes := ![1, 1]
  wf := gather_S8192x8192_S2048x2_S2048_n_01_n_n_01_1_11_wf

class Facts : Prop extends Facts₀ where

variable [Facts]
-- ==== Proof.KerRuns.lean ====
/-
  What the three cases of the row-sum kernel's body share.  The kernel walks an 8 × 8 grid: at point (i, j) it
  holds rows 1024·i … of the stacked unit rows (window 0) and rows 1024·j … (window 1), adds to a scratch column
  the row sums of exp (2 · A Bᵀ) of the two blocks, having zeroed the scratch when j = 0, and when j = 7 copies
  the scratch into the output block i.  Here: the contents of the buffers when the region is entered, the two
  branch conditions in closed form over the grid, where the output window is idle, and the names of the staging
  and scratch buffers.
-/
import proofs.«150978_j66494683676972_1_alg».proof.Proof.Gen.KernelIdeal.Launch
import proofs.«150978_j66494683676972_1_alg».proof.Proof.Gen.KernelIdeal.Skeleton
import proofs.«150978_j66494683676972_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the region -/

/-- The buffers of core `c` when the region is entered: after the twenty-one host operations before it. -/
abbrev V0 (c : Dev nD) : Valuation τ sig (Elt F) :=
  StableHlo.after (List.flatten [hostOps0, hostOps0_1, hostOps0_2, hostOps0_3]) (fun b => m (c, b))
/-- The same read at a TensorCore reference. -/
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor

/-- @main is the host operations before the region, the region, the host operations after it: it reduces to the
    region continued by the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3] [hostOps1]
    ⟨hostOps0_sub, hostOps0_1_sub, hostOps0_2_sub, hostOps0_3_sub⟩
    (by simp only [List.Forall]; repeat' constructor) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not: unfetched, the block
    index has not moved. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- "j = 0", as the body computes it from the grid coordinates. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "j = 7". -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from j = 7 the body stores nothing into the output block and the block is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The staging and scratch buffers -/

/-- One staging buffer of the output window, through which its contents are stated. -/
abbrev VO0_2 : View sig .tc .vmem S1024x1 .f32 := (Memref.whole cc0_stg2_0 : Memref sig .tc .vmem S1024x1 .f32).view
abbrev ms0_0 (t : Fin cfg0.N) : Memref sig .tc .vmem S1024x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
/-- The scratch column the running row sums live in. -/
abbrev scM0_0 : Memref sig .tc .vmem S1024x1 .f32 := Memref.whole cc0_scratch0
abbrev VS0_0 : View sig .tc .vmem S1024x1 .f32 := scM0_0.view

/-- What the region hands the body besides the windows: the scratch at some contents and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Acc

end
-- ==== Proof.KerRunA.lean ====
/-
  The body at a point with j = 0 (and j ≠ 7): it zeroes the scratch column, adds the tile's row sums to it, and
  leaves the output block untouched.  The pieces the scratch ends with are found by running the body.
-/
import proofs.«150978_j66494683676972_1_alg».proof.Proof.KerRuns

-- membership in a rectangle of these extents recurses once per coordinate of the long axes
set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole buffers — the two input blocks at `x0`, `x1`, the output block at `xi2` (handed back untouched), the
    scratch at anything — the body runs, and leaves the scratch with the pieces `LS0` written. -/
noncomputable def kernelRun0_A (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i)
    (x0 : Vec F S1024x512 .f32) (x1 : Vec F S1024x512 .f32) :
    Σ' (L2 : List (View.Piece (Elt F) S1024x1 .f32)), { LS0 : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__rowsum_exp_kernel i arg2 harg2 arg3 harg3 arg4 harg4 arg5 harg5) K } := by
  refine ⟨[], ?_, fun xi2 E K => ?run⟩
  case run =>
    simp only [cc0__rowsum_exp_kernel_eq_skeleton]; unfold cc0__rowsum_exp_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Acc

end
-- ==== Proof.KerRunB.lean ====
/-
  The body at a point with 0 < j < 7: it adds the tile's row sums to the scratch column, which holds what the
  point before left, and leaves the output block untouched.
-/
import proofs.«150978_j66494683676972_1_alg».proof.Proof.KerRunA

-- membership in a rectangle of these extents recurses once per coordinate of the long axes
set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole buffers — the input blocks at `x0`, `x1`, the output block at `xi2` (handed back untouched), the
    scratch at `xs0` — the body runs, and leaves the scratch with the pieces `LS0` written. -/
noncomputable def kernelRun0_B (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i)
    (x0 : Vec F S1024x512 .f32) (x1 : Vec F S1024x512 .f32) (xs0 : Vec F S1024x1 .f32) :
    Σ' (L2 : List (View.Piece (Elt F) S1024x1 .f32)), { LS0 : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__rowsum_exp_kernel i arg2 harg2 arg3 harg3 arg4 harg4 arg5 harg5) K } := by
  refine ⟨[], ?_, fun xi2 E K => ?run⟩
  case run =>
    simp only [cc0__rowsum_exp_kernel_eq_skeleton]; unfold cc0__rowsum_exp_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Acc

end
-- ==== Proof.KerRunC.lean ====
/-
  The body at a point with j = 7: it adds the tile's row sums to the scratch column, which holds what the point
  before left, and stores the finished column into the output block.
-/
import proofs.«150978_j66494683676972_1_alg».proof.Proof.KerRunB

-- membership in a rectangle of these extents recurses once per coordinate of the long axes
set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole buffers — the input blocks at `x0`, `x1`, the output block at anything, the scratch at `xs0` — the
    body runs, and leaves the output block with the pieces `L2` and the scratch with the pieces `LS0` written. -/
noncomputable def kernelRun0_C (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 : Vec F S1024x512 .f32) (x1 : Vec F S1024x512 .f32) (xs0 : Vec F S1024x1 .f32) :
    Σ' (L2 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__rowsum_exp_kernel i arg2 harg2 arg3 harg3 arg4 harg4 arg5 harg5) K } := by
  refine ⟨?_, ?_, fun E K => ?run⟩
  case run =>
    simp only [cc0__rowsum_exp_kernel_eq_skeleton]; unfold cc0__rowsum_exp_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Acc

end
-- ==== Proof.KerFrame.lean ====
/-
  The row-sum kernel point by point: what the scratch column and the output block hold after each grid point, the
  region's proof data, and the body's obligation at every point.  At point t = 8·i + j the scratch holds the sum
  over the tiles 0 … j of the tile's row sums of exp (2 · A Bᵀ); the output block i is stored at j = 7.
-/
import proofs.«150978_j66494683676972_1_alg».proof.Proof.KerRunC

-- membership in a rectangle of these extents recurses once per coordinate of the long axes
set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

theorem scoverA (c : Dev nD) (t : Fin cfg0.N) (hc0 : cond0_0 (grid0.coords t)) (hc1 : ¬cond0_1 (grid0.coords t))
    (x0 x1 : Vec F S1024x512 .f32) (y : S1024x1.Idx) : ∃ pc ∈ (kernelRun0_A c (grid0.coords t) (ms0_0 t) (hs0_0 t) (ms0_1 t) (hs0_1 t) (ms0_2 t) (hs0_2 t) scM0_0 (Memref.isWhole_whole _) hc0 hc1 x0 x1).2.1, y ∈ pc.1.set :=
  View.cover_of_tiledL (kernelRun0_A c (grid0.coords t) (ms0_0 t) (hs0_0 t) (ms0_1 t) (hs0_1 t) (ms0_2 t) (hs0_2 t) scM0_0 (Memref.isWhole_whole _) hc0 hc1 x0 x1).2.1 S1024x1.size (by sl_kernel_rfl) y

/-- The scratch after a point with j = 0: its pieces read back. -/
def soutA (c : Dev nD) (t : Fin cfg0.N) (hc0 : cond0_0 (grid0.coords t)) (hc1 : ¬cond0_1 (grid0.coords t))
    (x0 x1 : Vec F S1024x512 .f32) : Vec F S1024x1 .f32 :=
  VS0_0.read (Elt F) (VS0_0.writes (Elt F) VS0_0.junk (kernelRun0_A c (grid0.coords t) (ms0_0 t) (hs0_0 t) (ms0_1 t) (hs0_1 t) (ms0_2 t) (hs0_2 t) scM0_0 (Memref.isWhole_whole _) hc0 hc1 x0 x1).2.1)

theorem scoverB (c : Dev nD) (t : Fin cfg0.N) (hc0 : ¬cond0_0 (grid0.coords t)) (hc1 : ¬cond0_1 (grid0.coords t))
    (x0 x1 : Vec F S1024x512 .f32) (xs0 : Vec F S1024x1 .f32) (y : S1024x1.Idx) : ∃ pc ∈ (kernelRun0_B c (grid0.coords t) (ms0_0 t) (hs0_0 t) (ms0_1 t) (hs0_1 t) (ms0_2 t) (hs0_2 t) scM0_0 (Memref.isWhole_whole _) hc0 hc1 x0 x1 xs0).2.1, y ∈ pc.1.set :=
  View.cover_of_tiledL (kernelRun0_B c (grid0.coords t) (ms0_0 t) (hs0_0 t) (ms0_1 t) (hs0_1 t) (ms0_2 t) (hs0_2 t) scM0_0 (Memref.isWhole_whole _) hc0 hc1 x0 x1 xs0).2.1 S1024x1.size (by sl_kernel_rfl) y

/-- The scratch after a point with 0 < j < 7. -/
def soutB (c : Dev nD) (t : Fin cfg0.N) (hc0 : ¬cond0_0 (grid0.coords t)) (hc1 : ¬cond0_1 (grid0.coords t))
    (x0 x1 : Vec F S1024x512 .f32) (xs0 : Vec F S1024x1 .f32) : Vec F S1024x1 .f32 :=
  VS0_0.read (Elt F) (VS0_0.writes (Elt F) VS0_0.junk (kernelRun0_B c (grid0.coords t) (ms0_0 t) (hs0_0 t) (ms0_1 t) (hs0_1 t) (ms0_2 t) (hs0_2 t) scM0_0 (Memref.isWhole_whole _) hc0 hc1 x0 x1 xs0).2.1)

theorem scoverC (c : Dev nD) (t : Fin cfg0.N) (hc0 : ¬cond0_0 (grid0.coords t)) (hc1 : cond0_1 (grid0.coords t))
    (x0 x1 : Vec F S1024x512 .f32) (xs0 : Vec F S1024x1 .f32) (y : S1024x1.Idx) : ∃ pc ∈ (kernelRun0_C c (grid0.coords t) (ms0_0 t) (hs0_0 t) (ms0_1 t) (hs0_1 t) (ms0_2 t) (hs0_2 t) scM0_0 (Memref.isWhole_whole _) hc0 hc1 x0 x1 xs0).2.1, y ∈ pc.1.set :=
  View.cover_of_tiledL (kernelRun0_C c (grid0.coords t) (ms0_0 t) (hs0_0 t) (ms0_1 t) (hs0_1 t) (ms0_2 t) (hs0_2 t) scM0_0 (Memref.isWhole_whole _) hc0 hc1 x0 x1 xs0).2.1 S1024x1.size (by sl_kernel_rfl) y

/-- The scratch after a point with j = 7. -/
def soutC (c : Dev nD) (t : Fin cfg0.N) (hc0 : ¬cond0_0 (grid0.coords t)) (hc1 : cond0_1 (grid0.coords t))
    (x0 x1 : Vec F S1024x512 .f32) (xs0 : Vec F S1024x1 .f32) : Vec F S1024x1 .f32 :=
  VS0_0.read (Elt F) (VS0_0.writes (Elt F) VS0_0.junk (kernelRun0_C c (grid0.coords t) (ms0_0 t) (hs0_0 t) (ms0_1 t) (hs0_1 t) (ms0_2 t) (hs0_2 t) scM0_0 (Memref.isWhole_whole _) hc0 hc1 x0 x1 xs0).2.1)

theorem coverC (c : Dev nD) (t : Fin cfg0.N) (hc0 : ¬cond0_0 (grid0.coords t)) (hc1 : cond0_1 (grid0.coords t))
    (x0 x1 : Vec F S1024x512 .f32) (xs0 : Vec F S1024x1 .f32) (y : S1024x1.Idx) : ∃ pc ∈ (kernelRun0_C c (grid0.coords t) (ms0_0 t) (hs0_0 t) (ms0_1 t) (hs0_1 t) (ms0_2 t) (hs0_2 t) scM0_0 (Memref.isWhole_whole _) hc0 hc1 x0 x1 xs0).1, y ∈ pc.1.set :=
  View.cover_of_tiledL (kernelRun0_C c (grid0.coords t) (ms0_0 t) (hs0_0 t) (ms0_1 t) (hs0_1 t) (ms0_2 t) (hs0_2 t) scM0_0 (Memref.isWhole_whole _) hc0 hc1 x0 x1 xs0).1 S1024x1.size (by sl_kernel_rfl) y

/-- The output block after a point with j = 7. -/
def outC (c : Dev nD) (t : Fin cfg0.N) (hc0 : ¬cond0_0 (grid0.coords t)) (hc1 : cond0_1 (grid0.coords t))
    (x0 x1 : Vec F S1024x512 .f32) (xs0 : Vec F S1024x1 .f32) : Vec F S1024x1 .f32 :=
  VO0_2.read (Elt F) (VO0_2.writes (Elt F) VO0_2.junk (kernelRun0_C c (grid0.coords t) (ms0_0 t) (hs0_0 t) (ms0_1 t) (hs0_1 t) (ms0_2 t) (hs0_2 t) scM0_0 (Memref.isWhole_whole _) hc0 hc1 x0 x1 xs0).1)

/-! ## Point by point -/

/-- What the output block's staging buffer and the scratch hold after the body at position `n` (a pair; away from
    j = 7 the first component is a placeholder nothing consults: the window is idle there). -/
def outsAt0 (c : Dev nD) : (n : ℕ) → n < cfg0.N → Vec F S1024x1 .f32 × Vec F S1024x1 .f32
  | 0, hn =>
    (soutA c ⟨0, hn⟩ ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩),
     soutA c ⟨0, hn⟩ ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 8 = 0 then
      if h1 : (n + 1) % 8 = 7 then False.elim (by omega)
      else
        (soutA c ⟨n + 1, hn⟩ ((hcond0_0 ⟨n + 1, hn⟩).mpr h0) (fun h => h1 ((hcond0_1 ⟨n + 1, hn⟩).mp h)) (iblk m c 0 ⟨n + 1, hn⟩) (iblk m c 1 ⟨n + 1, hn⟩),
         soutA c ⟨n + 1, hn⟩ ((hcond0_0 ⟨n + 1, hn⟩).mpr h0) (fun h => h1 ((hcond0_1 ⟨n + 1, hn⟩).mp h)) (iblk m c 0 ⟨n + 1, hn⟩) (iblk m c 1 ⟨n + 1, hn⟩))
    else
      if h1 : (n + 1) % 8 = 7 then
        (outC c ⟨n + 1, hn⟩ (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2,
         soutC c ⟨n + 1, hn⟩ (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2)
      else
        (soutB c ⟨n + 1, hn⟩ (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2,
         soutB c ⟨n + 1, hn⟩ (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2)

theorem outsAt0_A (c : Dev nD) (t : Fin cfg0.N) (h0 : t.val % 8 = 0) (h1 : ¬t.val % 8 = 7) :
    outsAt0 m c t.val t.isLt =
      (soutA c t ((hcond0_0 t).mpr h0) (fun h => h1 ((hcond0_1 t).mp h)) (iblk m c 0 t) (iblk m c 1 t),
       soutA c t ((hcond0_0 t).mpr h0) (fun h => h1 ((hcond0_1 t).mp h)) (iblk m c 0 t) (iblk m c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 m c t.val t.isLt =
      (soutB c t (fun h => h0 ((hcond0_0 t).mp h)) (fun h => h1 ((hcond0_1 t).mp h)) (iblk m c 0 t) (iblk m c 1 t) (outsAt0 m c (t.val - 1) (Nat.lt_of_le_of_lt (Nat.sub_le _ _) t.isLt)).2,
       soutB c t (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt =
      (outC c t (fun h => h0 ((hcond0_0 t).mp h)) ((hcond0_1 t).mpr h1) (iblk m c 0 t) (iblk m c 1 t) (outsAt0 m c (t.val - 1) (Nat.lt_of_le_of_lt (Nat.sub_le _ _) t.isLt)).2,
       soutC c t (fun h => h0 ((hcond0_0 t).mp h)) ((hcond0_1 t).mpr h1) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the scratch at anything; afterwards the
    scratch at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The proof data -/

/-- The two windows on the stacked rows hold half of that array each; the output array is held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the inputs' buffers hold their blocks; the closed forms say which case the point is in;
    the invariant hands the body the scratch at what the point before left (at anything at the first point) and
    takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h0 : t.val % 8 = 0
  · have h1 : ¬t.val % 8 = 7 := by omega
    have hc1 : ¬cond0_1 (grid0.coords t) := fun h => h1 ((hcond0_1 t).mp h)
    rw [Dat.leavesExact_idle (dats m 0 c) 2 t (idleAt0_2 t hc1) (noFlush0_2 t hc1)]
    rw [outsAt0_A m c t h0 h1]
    unfold soutA; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩⟩
      iapply ((kernelRun0_A c (grid0.coords t) _ _ _ _ _ _ _ _ ((hcond0_0 t).mpr h0) hc1 (iblk m c 0 t) (iblk m c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scoverA c t _ _ _ _)
        iexact Hg
      isplitl [Ho]; · iexact Ho
      isplitl [H0]; · iexact H0
      isplitl [H1]; · iexact H1
      iexists _; iexact H2
    · rw [PhiS_castSucc m c t, PhiS_pos m c _ _ hz]
      iintro ⟨⟨HS0, Hg⟩, Ho, ⟨%d0, H0⟩, ⟨%d1, H1⟩, ⟨%d2, H2⟩⟩
      iapply ((kernelRun0_A c (grid0.coords t) _ _ _ _ _ _ _ _ ((hcond0_0 t).mpr h0) hc1 (iblk m c 0 t) (iblk m c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scoverA c t _ _ _ _)
        iexact Hg
      isplitl [Ho]; · iexact Ho
      isplitl [H0]; · iexact H0
      isplitl [H1]; · iexact H1
      iexists _; iexact H2
  · have hc0 : ¬cond0_0 (grid0.coords t) := fun h => h0 ((hcond0_0 t).mp h)
    have hz : t.val ≠ 0 := fun e => h0 (by rw [e])
    by_cases h1 : t.val % 8 = 7
    · rw [show (dats m 0 c).leavesExact 2 t = owns (c : Thread nD τ) (ms0_2 t) fullShare ((dats m 0 c).after 2 t) from by
        unfold Dat.leavesExact; rw [liveAt0_2 t ((hcond0_1 t).mpr h1)], after0_2]
      rw [outsAt0_C m c t h0 h1]
      unfold outC soutC; (try dsimp only)
      rw [PhiS_castSucc m c t, PhiS_pos m c _ _ hz]
      iintro ⟨⟨HS0, Hg⟩, Ho, ⟨%d0, H0⟩, ⟨%d1, H1⟩, ⟨%d2, H2⟩⟩
      iapply ((kernelRun0_C c (grid0.coords t) _ _ _ _ _ _ _ _ hc0 ((hcond0_1 t).mpr h1) (iblk m c 0 t) (iblk m c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg]
      · isplitl [HS0]
        · unfold owns; iexists _; isplitr
          swap; · iexact HS0
          ipureintro; exact View.read_writes_of_cover _ _ _ _ _ (scoverC c t _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (coverC c t _ _ _ _ _)
    · have hc1 : ¬cond0_1 (grid0.coords t) := fun h => h1 ((hcond0_1 t).mp h)
      rw [Dat.leavesExact_idle (dats m 0 c) 2 t (idleAt0_2 t hc1) (noFlush0_2 t hc1)]
      rw [outsAt0_B m c t h0 h1]
      unfold soutB; (try dsimp only)
      rw [PhiS_castSucc m c t, PhiS_pos m c _ _ hz]
      iintro ⟨⟨HS0, Hg⟩, Ho, ⟨%d0, H0⟩, ⟨%d1, H1⟩, ⟨%d2, H2⟩⟩
      iapply ((kernelRun0_B c (grid0.coords t) _ _ _ _ _ _ _ _ hc0 hc1 (iblk m c 0 t) (iblk m c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scoverB c t _ _ _ _ _)
        iexact Hg
      isplitl [Ho]; · iexact Ho
      isplitl [H0]; · iexact H0
      isplitl [H1]; · iexact H1
      iexists _; iexact H2

/-- The body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 64 := N_0; omega)

end Cert.KernelIdeal.Acc

end
-- ==== Proof.KerLaunch.lean ====
/-
  The launch of the row-sum region inside @main.  The two input windows read ONE array, the stacked unit rows:
  each is given half of it for the region's duration, and the halves are put together again for the host
  operations that follow.  The output array comes back holding, block by block, what the body stored at the
  points with j = 7; every other buffer is what the host operations after the region make of it.
-/
import proofs.«150978_j66494683676972_1_alg».proof.Proof.KerFrame

-- membership in a rectangle of these extents recurses once per coordinate of the long axes
set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays behind the windows -/

theorem arrImg : Finset.univ.image (Pipeline.arrRef spec0) = [main_v10, main_v11].toFinset := by decide

/-- The two distinct buffers behind the three windows. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v10) ↦{fullShare} W main_v10) ∗ (((c : Thread nD τ).loc main_v11) ↦{fullShare} W main_v11)) := by
  unfold Pipeline.arrBufs
  exact bigSep_eq_bigSepL_of_eq [main_v10, main_v11] arrImg (by decide) _

theorem share0 (c : Dev nD) : (dats m 0 c).share 0 = fullShare.left := by unfold Dat.share; dsimp only [dats]; rfl
theorem share1 (c : Dev nD) : (dats m 0 c).share 1 = fullShare.right := by unfold Dat.share; dsimp only [dats]; rfl
theorem share2 (c : Dev nD) : (dats m 0 c).share 2 = fullShare := by unfold Dat.share; rfl

/-- The windows' arrays at contents `G`, one by one: the stacked rows in two halves, the output array whole. -/
theorem arrays_eq3 (c : Dev nD) (G : (w : Fin cfg0.W) → Buf (Elt F) ((cfg0.win w).arr.view.loc (c : Thread nD τ))) :
    ((dats m 0 c).arrays G : sProp 𝕄)
      = iprop((((c : Thread nD τ).loc main_v10) ↦{fullShare.left} G 0) ∗ (((c : Thread nD τ).loc main_v10) ↦{fullShare.right} G 1)
          ∗ (((c : Thread nD τ).loc main_v11) ↦{fullShare} G 2)) := by
  unfold Dat.arrays
  rw [bigSep_W0, share0, share1, share2, (arr_whole0 0).set_eq_univ, (arr_whole0 2).set_eq_univ]

/-- At entry: each half of the stacked rows to its window. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq, arrays_eq3]
  iintro ⟨H10, H11⟩
  ihave H := (pointsTo_share (PosShare.mem_left_op_right fullShare)).1 $$ H10
  icases H with ⟨Hl, Hr⟩
  isplitl [Hl]; · iexact Hl
  isplitl [Hr]; · iexact Hr
  iexact H11

/-! ## The buffers after the region -/

open Classical in
/-- The buffers when the region is left: as entered, but the output array at what the region stored. -/
def Wexit (c : Dev nD) : Valuation τ sig (Elt F) :=
  Function.update (V0 m c) (Proc.devRef .tc main_v11) ((dats m 0 c).arrAt 2 cfg0.N)

/-- The buffers at the end: after the host operations that follow the region. -/
def Wfin (c : Dev nD) : Valuation τ sig (Elt F) := StableHlo.after hostOps1 (Wexit m c)

theorem Wexit_v11 (c : Dev nD) : Wexit m c (Proc.devRef .tc main_v11) = (dats m 0 c).arrAt 2 cfg0.N := by
  unfold Wexit; exact Function.update_self ..

theorem Wexit_of_ne (c : Dev nD) (b : Ref sig .tc) (h : b ≠ main_v11) : Wexit m c (Proc.devRef .tc b) = V m c b := by
  unfold Wexit; exact Function.update_of_ne (StableHlo.devRef_ne_of_ne h) ..

/-- The later host operations write neither array of the region. -/
theorem hostOps1_keeps (b : Ref sig .tc) (hb : b = main_v10 ∨ b = main_v11) :
    ∀ op ∈ (hostOps1 : List (HloOp τ sig (Elt F))), Proc.devRef .tc b ∉ op.writes := by
  intro op hop
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals
    rcases hb with rfl | rfl <;>
    simp only [StableHlo.nullary_writes, StableHlo.unary_writes, StableHlo.binary_writes, Finset.mem_singleton] <;>
    exact StableHlo.devRef_ne_of_ne (by decide)

theorem Wfin_v10 (c : Dev nD) : Wfin m c (Proc.devRef .tc main_v10) = V m c main_v10 := by
  unfold Wfin
  rw [StableHlo.after_of_forall_not_mem hostOps1 _ (hostOps1_keeps main_v10 (.inl rfl)), Wexit_of_ne m c main_v10 (by decide)]

theorem Wfin_v11 (c : Dev nD) : Wfin m c (Proc.devRef .tc main_v11) = (dats m 0 c).arrAt 2 cfg0.N := by
  unfold Wfin
  rw [StableHlo.after_of_forall_not_mem hostOps1 _ (hostOps1_keeps main_v11 (.inr rfl)), Wexit_v11]

/-- The unscoped buffers held at a valuation: the two arrays of the region and the rest. -/
theorem held_out (c : Dev nD) (W : Valuation τ sig (Elt F)) :
    (StableHlo.held (c : Thread nD τ) (Pipeline.ucRefs τ sig) W : sProp 𝕄)
      ⊢ iprop((((c : Thread nD τ).loc main_v10) ↦{fullShare} W (Proc.devRef .tc main_v10)) ∗ (((c : Thread nD τ).loc main_v11) ↦{fullShare} W (Proc.devRef .tc main_v11))
          ∗ Pipeline.unscopedRestP (Ix := Unit) (Name := ℕ) (U := UR sig nD τ) (Lvl := ℕ) Pipeline.Prefetch.none spec0 c (fun b => W (Proc.devRef .tc b))) := by
  rw [← Pipeline.unscopedBufs_held (Ix := Unit) (Name := ℕ) (U := UR sig nD τ) (Lvl := ℕ) c W,
    Pipeline.unscopedBufs_split₀ cfgs 0 winFacts₀0.arr_unscoped c _, arrBufs_eq, Pipeline.unscopedRestP_none]
  iintro ⟨⟨Ha, Hb⟩, Hr⟩
  isplitl [Ha]; · iexact Ha
  isplitl [Hb]; · iexact Hb
  iexact Hr

theorem held_in (c : Dev nD) (W : Valuation τ sig (Elt F)) :
    iprop((((c : Thread nD τ).loc main_v10) ↦{fullShare} W (Proc.devRef .tc main_v10)) ∗ (((c : Thread nD τ).loc main_v11) ↦{fullShare} W (Proc.devRef .tc main_v11))
          ∗ Pipeline.unscopedRestP (Ix := Unit) (Name := ℕ) (U := UR sig nD τ) (Lvl := ℕ) Pipeline.Prefetch.none spec0 c (fun b => W (Proc.devRef .tc b)))
      ⊢ (StableHlo.held (c : Thread nD τ) (Pipeline.ucRefs τ sig) W : sProp 𝕄) := by
  rw [← Pipeline.unscopedBufs_held (Ix := Unit) (Name := ℕ) (U := UR sig nD τ) (Lvl := ℕ) c W,
    Pipeline.unscopedBufs_split₀ cfgs 0 winFacts₀0.arr_unscoped c _, arrBufs_eq, Pipeline.unscopedRestP_none]
  iintro ⟨Ha, Hb, Hr⟩
  isplitr [Hr]
  · isplitl [Ha]; · iexact Ha
    iexact Hb
  iexact Hr

/-- Away from the output array the exit valuation is the entry one. -/
theorem rest_exit (c : Dev nD) :
    (Pipeline.unscopedRestP (Ix := Unit) (Name := ℕ) (U := UR sig nD τ) (Lvl := ℕ) Pipeline.Prefetch.none spec0 c (fun b => Wexit m c (Proc.devRef .tc b)) : sProp 𝕄)
      = Pipeline.unscopedRestP Pipeline.Prefetch.none spec0 c (V m c) := by
  unfold Pipeline.unscopedRestP
  refine bigSep_congr fun b hb => ?_
  dsimp only
  rw [Wexit_of_ne m c b fun e => ?_]
  subst e
  exact (Finset.mem_sdiff.mp (Finset.mem_sdiff.mp hb).1).2 (Finset.mem_image.mpr ⟨2, Finset.mem_univ _, rfl⟩)

theorem sfx_sub : ∀ ops ∈ ([hostOps1] : List (List (HloOp τ sig (Elt F)))), ∀ op ∈ ops, op.bufs ⊆ Pipeline.ucRefs τ sig := by
  intro ops hops op hop
  simp only [List.mem_cons, List.mem_nil_iff, or_false] at hops
  rcases hops with rfl
  exact Pipeline.sub_ucRefs op ((List.forall_iff_forall_mem.mp hostOps1_sub) op hop)

theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

theorem arrAt0_N (c : Dev nD) : (dats m 0 c).arrAt 0 cfg0.N = V m c main_v10 :=
  ((dats m 0 c).arrAt_in 0 rfl _).trans (A_eq m c 0)
theorem arrAt1_N (c : Dev nD) : (dats m 0 c).arrAt 1 cfg0.N = V m c main_v10 :=
  ((dats m 0 c).arrAt_in 1 rfl _).trans (A_eq m c 1)

-- a rule stated for any thread, applied at the TensorCore thread, unifies only when unification may unfold plain
-- definitions in a metavariable's type
set_option maxHeartbeats 8000000 in
set_option backward.isDefEq.respectTransparency.types false in
/-- The host operations after the region: the halves of the stacked rows put together, the operations run over all
    the unscoped buffers, the halves dealt out again. -/
theorem htail (c : Dev nD) (Q' : PUnit → sProp 𝕄) :
    iprop((iprop((dats m 0 c).arrays ((dats m 0 c).arrAt · cfg0.N)
              ∗ Pipeline.unscopedRestP (Ix := Unit) (Name := ℕ) (U := UR sig nD τ) (Lvl := ℕ) Pipeline.Prefetch.none spec0 c (fun b => Wfin m c (Proc.devRef .tc b))) -∗ Q' ⟨⟩)
        ∗ boundary (c : Thread nD τ) ∗ (dats m 0 c).arrays ((dats m 0 c).arrAt · cfg0.N)
        ∗ Pipeline.unscopedRestP (Ix := Unit) (Name := ℕ) (U := UR sig nD τ) (Lvl := ℕ) Pipeline.Prefetch.none spec0 c (V m c))
      ⊢ wp frame (wpE (defs (F := F)) (Variants.lift Variants.none) (c : Thread nD τ) none) Set.univ (Pipeline.chain [StableHlo.seq hostOps1]) Q' := by
  rw [arrays_eq3, arrAt0_N, arrAt1_N, ← rest_exit m c, ← Wexit_v11 m c]
  iintro ⟨Hk, Hb, ⟨Hl, Hr, H11⟩, HZ⟩
  ihave H10 := (pointsTo_share (PosShare.mem_left_op_right fullShare)).2 $$ [Hl Hr]
  · isplitl [Hl] <;> iassumption
  ihave Hheld := (held_in c (Wexit m c)) $$ [H10 H11 HZ]
  · isplitl [H10]; · rw [Wexit_of_ne m c main_v10 (by decide)]; iexact H10
    isplitl [H11] <;> iassumption
  rw [show (Pipeline.chain [StableHlo.seq (hostOps1 (F := F))] : Prog _ PUnit) = Pipeline.chain (([hostOps1].map StableHlo.seq) ++ []) from rfl]
  iapply (Pipeline.wp_seqs_then (fun q => (cfgs q).toPCfg (Val := Elt F)) defs₀ Variants.none c (Pipeline.ucRefs τ sig) [] [hostOps1] sfx_sub sfx_fresh (Wexit m c)) $$ [Hb Hheld]
  · isplitl [Hb] <;> iassumption
  iintro ⟨Hb, Hheld⟩
  rw [Pipeline.chain_nil, wp_pure]
  imodintro
  iapply Hk
  rw [List.flatten_singleton]
  ihave Hp := (held_out c (StableHlo.after hostOps1 (Wexit m c))) $$ Hheld
  icases Hp with ⟨H10, H11, HZ⟩
  rw [show StableHlo.after hostOps1 (Wexit m c) = Wfin m c from rfl, Wfin_v10, Wfin_v11, Wexit_v11]
  ihave H := (pointsTo_share (PosShare.mem_left_op_right fullShare)).1 $$ H10
  icases H with ⟨Hl, Hr⟩
  isplitr [HZ]
  · isplitl [Hl]; · iexact Hl
    isplitl [Hr]; · iexact Hr
    iexact H11
  iexact HZ

/-! ## The run -/

/-- What every final memory satisfies: the region's arrays at what the proof data computes, every other unscoped
    buffer at what the later host operations make of it. -/
def Post (r : PUnit × MemSt nD τ sig (Elt F)) : Prop :=
  ∀ c : Dev nD, (∀ w, r.2.mem (((cfgs 0).spec w).arr.view.loc (c : Thread nD τ)) = (dats m 0 c).arrAt w cfg0.N)
    ∧ ∀ b ∈ Pipeline.restRefsP sig Pipeline.Prefetch.none spec0, r.2.mem ((c : Thread nD τ).loc b) = Wfin m c (Proc.devRef .tc b)

set_option maxHeartbeats 8000000 in
set_option backward.isDefEq.respectTransparency.types false in
/-- From any memory with zero counters every weakly fair execution of @main terminates, nothing faulting, in a
    memory satisfying `Post`. -/
theorem run_main : θ_run defs (onTc (τ := τ) (main (F := F))) (s₀ m ρ) (Post m) := by
  classical
  exact Pipeline.θ_run_region_pf_tail (fun q => (cfgs q).toPCfg (Val := Elt F)) (fun q => (cfgs q).toPCfg_adm) (dats m) () cellOf_inj 0
    winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none) (hsplit := hsplit m) (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (fun b => Wfin m c (Proc.devRef .tc b)))
    (hX := fun c => by
      iintro ⟨HU, -, -, -, Hp, -⟩; imodintro
      isplitl [Hp]; · iexists _; iexact Hp
      iexact HU)
    (hin := fun c => (show _ ⊢ Pipeline.ΦA spec0 c from by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := fun c Q' => htail m c Q')
    (QY := fun c s => ∀ b ∈ Pipeline.restRefsP sig Pipeline.Prefetch.none spec0, s.mem ((c : Thread nD τ).loc b) = Wfin m c (Proc.devRef .tc b))
    (hY := fun c s' => by
      iintro ⟨-, HU, HSI⟩
      unfold Pipeline.unscopedRestP
      imodintro
      iapply (pointsTo_read_all (Pipeline.restRefsP sig Pipeline.Prefetch.none spec0) (fun b => (c : Thread nD τ).loc b) (fun b => Wfin m c (Proc.devRef .tc b)) s')
      isplitl [HU] <;> iassumption)
    (hQ := fun s h c => ⟨(h c).1, (h c).2.2⟩)

end Cert.KernelIdeal.Acc

end
-- ==== Proof.KerRep.lean ====
/-
  The stacked unit rows as the first program computes them, as one term of the two argument arrays: each row of
  an input divided by the larger of its Euclidean norm and a tiny constant, the two results stacked.
-/
import proofs.«150978_j66494683676972_1_alg».proof.Proof.Gen.KernelIdeal

noncomputable section

namespace Cert.KernelIdeal.Rep

open Cert.KernelIdeal Cert.KernelIdeal.Gen Idealize.ShloMosaic

variable {F : FTy → Type} [FloatOps F]

/-- The Euclidean norm of every row, as a column. -/
def norm (a : (⟨S4096x512, .f32⟩ : BufTy).Contents (Elt F)) : (⟨S4096x1, .f32⟩ : BufTy).Contents (Elt F) :=
  Host.sqrt (broadcastInDim S4096x1 ![0] bcast_S4096_S4096x1_0
    (Host.reduceAdd (mulf a a) (constant S_ .f32 0x00000000#32) reducesTo_S4096x512_S4096_d1 h_S_))

/-- Every row divided by the larger of its norm and the constant. -/
def unit (a : (⟨S4096x512, .f32⟩ : BufTy).Contents (Elt F)) : (⟨S4096x512, .f32⟩ : BufTy).Contents (Elt F) :=
  Host.divf a (broadcastInDim S4096x512 ![0, 1] bcast_S4096x1_S4096x512_0_1
    (maximumf (norm a) (broadcastInDim S4096x1 ![] bcast_S_S4096x1 (constant S_ .f32 0x2B8CBCCC#32))))

/-- The two sets of unit rows, stacked. -/
def rep (a0 a1 : (⟨S4096x512, .f32⟩ : BufTy).Contents (Elt F)) : (⟨S8192x512, .f32⟩ : BufTy).Contents (Elt F) :=
  concatenate S8192x512 0 [⟨S4096x512, unit a0⟩, ⟨S4096x512, unit a1⟩] concatenates_S4096x512_S4096x512_S8192x512_d0

end Cert.KernelIdeal.Rep

end
-- ==== Proof.KerEntry.lean ====
/-
  The first program around its kernel region: what the host operations before the region leave, and that the two
  inputs come through the whole program unchanged.

  Before the region the program divides every row of each input by the larger of its Euclidean norm and a tiny
  constant and stacks the two results: the buffer the region's input windows read holds the stacked unit rows of
  the two inputs.  No host operation, before or after the region, writes an input, and the region writes only its
  output array, so both inputs end as they began.
-/
import proofs.«150978_j66494683676972_1_alg».proof.Proof.KerLaunch
import proofs.«150978_j66494683676972_1_alg».proof.Proof.KerRep

-- membership in a rectangle of these extents recurses once per coordinate of the long axes
set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- The array the input windows read holds the stacked unit rows of the two inputs. -/
theorem V_v10 (c : Dev nD) :
    V m c main_v10 = Cert.KernelIdeal.Rep.rep (m ((c : Thread nD τ).loc main_arg0)) (m ((c : Thread nD τ).loc main_arg1)) := by
  dsimp only [V, V0]
  simp only [hostOps0, hostOps0_1, hostOps0_2, hostOps0_3, List.flatten_cons, List.flatten_nil, List.append_nil,
    List.cons_append, List.nil_append]
  after_results_simp
  unfold Rep.rep Rep.unit Rep.norm
  rfl

/-- No host operation before the region writes the first input. -/
theorem V_arg0 (c : Dev nD) : V m c main_arg0 = m ((c : Thread nD τ).loc main_arg0) := by
  dsimp only [V, V0]
  simp only [hostOps0, hostOps0_1, hostOps0_2, hostOps0_3, List.flatten_cons, List.flatten_nil, List.append_nil,
    List.cons_append, List.nil_append]
  after_results_simp

/-- Nor the second. -/
theorem V_arg1 (c : Dev nD) : V m c main_arg1 = m ((c : Thread nD τ).loc main_arg1) := by
  dsimp only [V, V0]
  simp only [hostOps0, hostOps0_1, hostOps0_2, hostOps0_3, List.flatten_cons, List.flatten_nil, List.append_nil,
    List.cons_append, List.nil_append]
  after_results_simp

/-! ## The inputs at the end -/

/-- The host operations after the region write neither input. -/
theorem hostOps1_keeps_args (b : Ref sig .tc) (hb : b = main_arg0 ∨ b = main_arg1) :
    ∀ op ∈ (hostOps1 : List (HloOp τ sig (Elt F))), Proc.devRef .tc b ∉ op.writes := by
  intro op hop
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals
    rcases hb with rfl | rfl <;>
    simp only [StableHlo.nullary_writes, StableHlo.unary_writes, StableHlo.binary_writes, Finset.mem_singleton] <;>
    exact StableHlo.devRef_ne_of_ne (by decide)

theorem Wfin_arg0 (c : Dev nD) : Wfin m c (Proc.devRef .tc main_arg0) = m ((c : Thread nD τ).loc main_arg0) := by
  unfold Wfin
  rw [StableHlo.after_of_forall_not_mem hostOps1 _ (hostOps1_keeps_args main_arg0 (.inl rfl)),
    Wexit_of_ne m c main_arg0 (by decide), V_arg0]

theorem Wfin_arg1 (c : Dev nD) : Wfin m c (Proc.devRef .tc main_arg1) = m ((c : Thread nD τ).loc main_arg1) := by
  unfold Wfin
  rw [StableHlo.after_of_forall_not_mem hostOps1 _ (hostOps1_keeps_args main_arg1 (.inr rfl)),
    Wexit_of_ne m c main_arg1 (by decide), V_arg1]

/-- An input is unscoped and is no window's array: it bypasses the region. -/
theorem arg0_rest : main_arg0 ∈ Pipeline.restRefsP sig Pipeline.Prefetch.none spec0 := by decide
theorem arg1_rest : main_arg1 ∈ Pipeline.restRefsP sig Pipeline.Prefetch.none spec0 := by decide

/-! ## The frame -/

/-- From any memory with zero counters every weakly fair execution of @main terminates, nothing faulting, and both
    inputs end as they began. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono
    (fun _ h c => ⟨((h c).2 main_arg0 arg0_rest).trans (Wfin_arg0 m c), ((h c).2 main_arg1 arg1_rest).trans (Wfin_arg1 m c)⟩)
    (run_main m ρ)

end Cert.KernelIdeal.Acc

end
-- ==== Proof.Spec.lean ====
/-
  The two loss formulas over the reals.  Both programs first divide every row of the two inputs by its
  Euclidean norm (floored at a tiny constant) and stack the results into one matrix of 8192 rows of length 512;
  `Rows` is that matrix once its entries are known to be real numbers.  Every later quantity is a finite sum of
  exponentials of inner products of rows.
-/
import Mathlib.Analysis.SpecialFunctions.Exp
import Mathlib.Algebra.BigOperators.Fin

noncomputable section

namespace Cert.Spec

open Finset

/-- The stacked unit rows, as reals. -/
abbrev Rows := Fin 8192 → Fin 512 → ℝ

/-- The inner product of rows `i` and `j`. -/
def dot (r : Rows) (i j : Fin 8192) : ℝ := ∑ d : Fin 512, r i d * r j d

/-- Row `i` of the first `n` rows, as a row of the whole matrix. -/
def lo (n : ℕ) (h : n ≤ 8192) (i : Fin n) : Fin 8192 := ⟨i.val, lt_of_lt_of_le i.isLt h⟩

/-- Row `i + k`, for `i` among the first `n` rows with `n + k ≤ 8192`. -/
def up (n k : ℕ) (h : n + k ≤ 8192) (i : Fin n) : Fin 8192 := ⟨i.val + k, by have := i.isLt; omega⟩

/-! ## The first program: row sums of the whole exponential matrix, its diagonal, three bands counted twice -/

/-- `∑ j, exp (2 · ⟨r i, r j⟩)`: what the tiled accumulation leaves for row `i`. -/
def rowSum (r : Rows) (i : Fin 8192) : ℝ := ∑ j : Fin 8192, Real.exp (dot r i j * 2)

/-- The sum over all pairs. -/
def total (r : Rows) : ℝ := ∑ i : Fin 8192, rowSum r i

/-- The diagonal's share of it. -/
def diagSum (r : Rows) : ℝ := ∑ i : Fin 8192, Real.exp (dot r i i / (1 / 2))

/-- One side of the band at distance `k`: `∑ i < n, exp (⟨r i, r (i + k)⟩ / ½)`. -/
def bandK (r : Rows) (n k : ℕ) (h : n + k ≤ 8192) : ℝ :=
  ∑ i : Fin n, Real.exp (dot r (lo n (by omega) i) (up n k h i) / (1 / 2))

/-- The numerator of the first program: twice the three one-sided bands. -/
def nomK (r : Rows) : ℝ :=
  2 * ((bandK r 6144 2048 (by norm_num) + bandK r 4096 4096 (by norm_num)) + bandK r 2048 6144 (by norm_num))

/-- Its denominator: all pairs, less the diagonal, less the numerator. -/
def denK (r : Rows) : ℝ := (total r - diagSum r) - nomK r

/-! ## The second program: both sides of each band laid end to end, and the identity matrix masked out -/

/-- Entry `i` of the two diagonals at distance `k` laid end to end: the upper one `⟨r i, r (i + k)⟩` for
    `i < n`, then the lower one `⟨r (i - n + k), r (i - n)⟩`. -/
def diagPair (r : Rows) (n k n2 : ℕ) (h : n + k ≤ 8192) (h2 : n2 = n + n) (i : Fin n2) : ℝ :=
  if hi : i.val < n then dot r ⟨i.val, by omega⟩ ⟨i.val + k, by omega⟩
  else dot r ⟨i.val - n + k, by have := i.isLt; omega⟩ ⟨i.val - n, by have := i.isLt; omega⟩

/-- Both sides of the band at distance `k`. -/
def bandR (r : Rows) (n k n2 : ℕ) (h : n + k ≤ 8192) (h2 : n2 = n + n) : ℝ :=
  ∑ i : Fin n2, Real.exp (diagPair r n k n2 h h2 i / (1 / 2))

/-- The numerator of the second program. -/
def nomR (r : Rows) : ℝ :=
  (bandR r 6144 2048 12288 (by norm_num) (by norm_num) + bandR r 4096 4096 8192 (by norm_num) (by norm_num))
    + bandR r 2048 6144 4096 (by norm_num) (by norm_num)

/-- Its denominator: the exponential matrix with the diagonal masked out, summed, less the numerator. -/
def denR (r : Rows) : ℝ :=
  (∑ i : Fin 8192, ∑ j : Fin 8192, (1 - (if i = j then (1 : ℝ) else 0)) * Real.exp (dot r i j / (1 / 2))) - nomR r

end Cert.Spec

end
-- ==== Proof.RowsReal.lean ====
/-
  Arrays of extended reals whose entries are all real numbers, and the operations that keep them so.

  An entry of an array over the extended reals is either a real number or one of the two infinities.  A row
  of real numbers has a real, nonnegative sum of squares; its square root is a real, nonnegative number; the
  larger of that and a positive constant is a positive real; and a real number divided by a positive real is
  a real number.  Broadcasting repeats entries and stacking two arrays lays their entries side by side, so
  both keep every property that holds entry by entry.
-/
import Idealize.ShloMosaic.Lib.Pipeline.Value
import Idealize.ShloMosaic.Lib.IdealHost

noncomputable section

namespace Cert.RowsReal

open Idealize.ShloMosaic Idealize.ShloMosaic.ValueIdx

/-- Every entry is a real number. -/
def AllReal {s : Shape} (x : s.Idx → EReal) : Prop := ∀ i, ∃ r : ℝ, x i = (r : EReal)

/-- Every entry is a real number that is not negative. -/
def AllNonneg {s : Shape} (x : s.Idx → EReal) : Prop := ∀ i, ∃ r : ℝ, 0 ≤ r ∧ x i = (r : EReal)

/-- Every entry is a positive real number. -/
def AllPos {s : Shape} (x : s.Idx → EReal) : Prop := ∀ i, ∃ r : ℝ, 0 < r ∧ x i = (r : EReal)

theorem AllNonneg.allReal {s : Shape} {x : s.Idx → EReal} (h : AllNonneg x) : AllReal x :=
  fun i => let ⟨r, _, e⟩ := h i; ⟨r, e⟩

theorem AllPos.allReal {s : Shape} {x : s.Idx → EReal} (h : AllPos x) : AllReal x :=
  fun i => let ⟨r, _, e⟩ := h i; ⟨r, e⟩

/-- A finite sum of real numbers, taken in the extended reals, is the real sum. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- An extended real whose absolute value is below plus infinity is a real number. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) :
    ∃ r : ℝ, x = (r : EReal) := by
  have htop : Ideal.ofBits .f32 0x7F800000#32 = ⊤ := by simp [Ideal.ofBits, Ideal.ieee]
  change Ideal.cmp .olt (max x (-x)) (Ideal.ofBits .f32 0x7F800000#32) = 1#1 at h
  rw [htop] at h
  unfold Ideal.cmp at h
  induction x using EReal.rec with
  | bot => simp at h
  | coe r => exact ⟨r, rfl⟩
  | top => simp at h

/-- A broadcast repeats entries of its operand: what holds of every entry of the operand holds of every entry of
    the result. -/
theorem broadcastInDim_all {α : Type} {s t : Shape} (dims : Fin s.rank → Fin t.rank) (h : s.BroadcastsInDim t dims)
    (x : s.Idx → α) (P : α → Prop) (hx : ∀ k, P (x k)) (j : t.Idx) : P (broadcastInDim t dims h x j) := by
  unfold broadcastInDim
  exact hx _

theorem allReal_broadcastInDim {s t : Shape} (dims : Fin s.rank → Fin t.rank) (h : s.BroadcastsInDim t dims)
    {x : s.Idx → EReal} (hx : AllReal x) : AllReal (broadcastInDim t dims h x) :=
  fun j => broadcastInDim_all dims h x (fun v => ∃ r : ℝ, v = (r : EReal)) hx j

theorem allNonneg_broadcastInDim {s t : Shape} (dims : Fin s.rank → Fin t.rank) (h : s.BroadcastsInDim t dims)
    {x : s.Idx → EReal} (hx : AllNonneg x) : AllNonneg (broadcastInDim t dims h x) :=
  fun j => broadcastInDim_all dims h x (fun v => ∃ r : ℝ, 0 ≤ r ∧ v = (r : EReal)) hx j

theorem allPos_broadcastInDim {s t : Shape} (dims : Fin s.rank → Fin t.rank) (h : s.BroadcastsInDim t dims)
    {x : s.Idx → EReal} (hx : AllPos x) : AllPos (broadcastInDim t dims h x) :=
  fun j => broadcastInDim_all dims h x (fun v => ∃ r : ℝ, 0 < r ∧ v = (r : EReal)) hx j

/-- The square of a real entry is a real number that is not negative. -/
theorem allNonneg_mulf_self {s : Shape} {a : FVec Ideal s .f32} (ha : AllReal a) :
    AllNonneg (mulf a a : FVec Ideal s .f32) := by
  intro i
  obtain ⟨r, hr⟩ := ha i
  refine ⟨r * r, mul_self_nonneg r, ?_⟩
  rw [mulf_apply, hr, EReal.coe_mul]

/-- A sum, from zero, of real entries that are not negative is a real number that is not negative, whichever
    entries each result index collects. -/
theorem allNonneg_hostReduceAdd {s t u : Shape} {axes : List (Fin s.rank)} {x : FVec Ideal s .f32}
    (hx : AllNonneg x) (init : u.Idx → Ideal .f32) (h : s.ReducesTo axes t) (hu : 0 < u.numel)
    (hinit : init (Shape.Idx.first hu) = 0) : AllNonneg (Host.reduceAdd x init h hu : FVec Ideal t .f32) := by
  intro j
  choose f hf0 hf using hx
  rw [hostReduceAdd_apply, hinit]
  unfold Ideal.hostReduceAdd
  rw [zero_add, show (fun i => x i) = fun i => ((f i : ℝ) : EReal) from funext hf]
  exact ⟨_, Finset.sum_nonneg (fun i _ => hf0 i), coe_sum _ _⟩

/-- The square root of a real number that is not negative is one too. -/
theorem allNonneg_hostSqrt {s : Shape} {x : FVec Ideal s .f32} (hx : AllNonneg x) :
    AllNonneg (Host.sqrt x : FVec Ideal s .f32) := by
  intro i
  obtain ⟨r, hr0, hr⟩ := hx i
  refine ⟨Real.sqrt r, Real.sqrt_nonneg r, ?_⟩
  show Ideal.sqrt (x i) = _
  rw [hr, Ideal.sqrt_coe, if_neg (not_lt.2 hr0)]

/-- The larger of a real number and a positive real number is a positive real number. -/
theorem allPos_maximumf {s : Shape} {x c : FVec Ideal s .f32} (hx : AllReal x) (hc : AllPos c) :
    AllPos (maximumf x c : FVec Ideal s .f32) := by
  intro i
  obtain ⟨r, hr⟩ := hx i
  obtain ⟨e, he0, he⟩ := hc i
  refine ⟨max r e, lt_of_lt_of_le he0 (le_max_right r e), ?_⟩
  rw [maximumf_apply, hr, he]
  exact (EReal.coe_strictMono.monotone.map_max).symm

/-- A real number divided by a positive real number is a real number. -/
theorem allReal_hostDivf {s : Shape} {a d : FVec Ideal s .f32} (ha : AllReal a) (hd : AllPos d) :
    AllReal (Host.divf a d : FVec Ideal s .f32) := by
  intro i
  obtain ⟨r, hr⟩ := ha i
  obtain ⟨e, he0, he⟩ := hd i
  refine ⟨r * (1 / e), ?_⟩
  rw [hostDivf_apply, hr, he, Ideal.div_coe (ne_of_gt he0), EReal.coe_mul]

/-- A splat constant whose word denotes a positive real number has only positive real entries. -/
theorem allPos_constant {s : Shape} (b : BitVec FTy.f32.bits) (hb : ∃ c : ℝ, 0 < c ∧ Ideal.ofBits .f32 b = (c : EReal)) :
    AllPos (constant (F := Ideal) s .f32 b) :=
  fun _ => hb

/-- The single-precision word `0x2B8CBCCC` (the floor under a norm, about 1e-12) denotes a positive real number:
    `9223372 · 2⁻⁶³`. -/
theorem ofBits_tiny_pos : ∃ c : ℝ, 0 < c ∧ Ideal.ofBits .f32 0x2B8CBCCC#32 = (c : EReal) := by
  refine ⟨(9223372 : ℝ) * (2 : ℝ) ^ (-63 : ℤ), by positivity, ?_⟩
  simp [Ideal.ofBits, Ideal.ieee, -EReal.coe_mul]

/-- Two matrices of rows of one length stacked: what holds of every entry of both holds of every entry of the
    stack (row `p` of the stack is row `p` of the first matrix while `p` is below its height, and row `p` less
    that height of the second from there on). -/
theorem concatenate_rows_all {α : Type} {n₁ n₂ n d : Nat} (x₁ : (⟨2, ![n₁, d]⟩ : Shape).Idx → α)
    (x₂ : (⟨2, ![n₂, d]⟩ : Shape).Idx → α)
    (h : Shape.Concatenates [(⟨2, ![n₁, d]⟩ : Shape), (⟨2, ![n₂, d]⟩ : Shape)] ⟨2, ![n, d]⟩ 0) (hn : n = n₁ + n₂)
    (P : α → Prop) (h₁ : ∀ i, P (x₁ i)) (h₂ : ∀ i, P (x₂ i)) (p : Fin n) (q : Fin d) :
    P (concatenate ⟨2, ![n, d]⟩ 0 [⟨⟨2, ![n₁, d]⟩, x₁⟩, ⟨⟨2, ![n₂, d]⟩, x₂⟩] h (ix2 p q)) := by
  by_cases hp : p.val < n₁
  · rw [concatenate_pair_apply_left 0 x₁ x₂ h (ix2 p q) rfl (ix2 ⟨p.val, hp⟩ q) (fun b => by
      match b with
      | ⟨0, _⟩ => rfl
      | ⟨1, _⟩ => rfl)]
    exact h₁ _
  · have hp2 : p.val - n₁ < n₂ := by have := p.isLt; omega
    rw [concatenate_pair_apply_right 0 x₁ x₂ h (ix2 p q) rfl rfl (ix2 ⟨p.val - n₁, hp2⟩ q)
      (fun b hb => by
        match b with
        | ⟨0, _⟩ => exact absurd rfl hb
        | ⟨1, _⟩ => rfl)
      (by show p.val - n₁ + n₁ = p.val; omega)]
    exact h₂ _

end Cert.RowsReal

end
-- ==== Proof.TailOps.lean ====
/-
  Host operations read at the extended reals, on arrays whose entries are real numbers.

  The inner product of two rows of real numbers, computed as a sum from zero of entrywise products, is the real
  inner product.  Dividing a real number by the word for one half and taking the exponential gives the real
  exponential of the number divided by one half.  A sum from zero over every entry of an array of real numbers is
  the real sum.  A slice of consecutive rows of a matrix reads the matrix a fixed number of rows further down.
-/
import Idealize.ShloMosaic.Lib.Pipeline.Value
import Idealize.ShloMosaic.Lib.IdealHost
import proofs.«150978_j66494683676972_1_alg».proof.Proof.RowsReal

noncomputable section

namespace Cert.TailOps

open Idealize.ShloMosaic Idealize.ShloMosaic.ValueIdx Cert.RowsReal

/-- The scalar shape. -/
abbrev S0 : Shape := ⟨0, ![]⟩

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The single-precision word `0x3F000000` denotes one half. -/
theorem ofBits_half : Ideal.ofBits .f32 0x3F000000#32 = (((1 : ℝ) / 2 : ℝ) : EReal) := by
  simp [Ideal.ofBits, Ideal.ieee, -EReal.coe_mul]
  norm_num

/-- The single-precision word `0x40000000` denotes two. -/
theorem ofBits_two : Ideal.ofBits .f32 0x40000000#32 = ((2 : ℝ) : EReal) := by
  simp [Ideal.ofBits, Ideal.ieee, -EReal.coe_mul]
  norm_num

/-- Rows `o`, `o + 1`, … of a matrix, sliced out: row `p` of the slice is row `o + p` of the matrix. -/
theorem sliceRows_apply {α : Type} {n d m : Nat} (o : Nat) (x : (⟨2, ![n, d]⟩ : Shape).Idx → α)
    (h : (⟨2, ![n, d]⟩ : Shape).Slices ![o, 0] ⟨2, ![m, d]⟩) (p : Fin m) (q : Fin d) (p' : Fin n)
    (hp : p'.val = o + p.val) :
    extractStridedSlice ⟨2, ![m, d]⟩ ![o, 0] x h (ix2 p q) = x (ix2 p' q) :=
  extractStridedSlice_apply ![o, 0] x h (ix2 p q) (ix2 p' q) (fun a => by
    match a with
    | ⟨0, _⟩ => exact hp
    | ⟨1, _⟩ => exact (Nat.zero_add _).symm)

/-- The inner product of row `p` of two real matrices, as the sum from zero of the entrywise products. -/
theorem rowDot_apply {m d : Nat} (y z : FVec Ideal ⟨2, ![m, d]⟩ .f32) (Y Z : Fin m → Fin d → ℝ)
    (hy : ∀ p q, y (ix2 p q) = ((Y p q : ℝ) : EReal)) (hz : ∀ p q, z (ix2 p q) = ((Z p q : ℝ) : EReal))
    (init : S0.Idx → Ideal .f32) (hu : 0 < S0.numel) (hinit : init (Shape.Idx.first hu) = 0)
    (h' : (⟨2, ![m, d]⟩ : Shape).ReducesTo [1] ⟨1, ![m]⟩) (h : (⟨2, ![m, d]⟩ : Shape).Reduces [1] ⟨1, ![m]⟩) (p : Fin m) :
    Host.reduceAdd (mulf y z) init h' hu (ix1 p) = ((∑ k : Fin d, Y p k * Z p k : ℝ) : EReal) := by
  rw [hostReduceAdd_apply, hinit, Ideal.hostReduceAdd_single h' h, zero_add]
  show ∑ k : Fin d, mulf y z (h.lift (ix1 p) k) = _
  refine Eq.trans (Finset.sum_congr rfl fun k _ => ?_) (coe_sum _ _)
  have e : h.lift (ix1 p) k = ix2 p k := funext fun a => Fin.ext (by
    match a with
    | ⟨0, _⟩ => rfl
    | ⟨1, _⟩ => rfl)
  rw [e, mulf_apply, hy, hz, EReal.coe_mul]

/-- A real number divided by one half, then the exponential. -/
theorem expHalf_apply {s : Shape} (v c : FVec Ideal s .f32) (i : s.Idx) (a : ℝ) (hv : v i = ((a : ℝ) : EReal))
    (hc : c i = Ideal.ofBits .f32 0x3F000000#32) :
    Host.exp (Host.divf v c) i = ((Real.exp (a / (1 / 2)) : ℝ) : EReal) := by
  show Ideal.exp (Ideal.div (v i) (c i)) = _
  rw [hv, hc, ofBits_half, Ideal.div_coe (by norm_num), ← EReal.coe_mul, Ideal.exp_coe, mul_one_div]

/-- The sum, over the rows, of the exponential of twice the inner product of row `i` of two real matrices. -/
theorem expDotSum_apply {m d : Nat} (y z : FVec Ideal ⟨2, ![m, d]⟩ .f32) (Y Z : Fin m → Fin d → ℝ)
    (hy : ∀ p q, y (ix2 p q) = ((Y p q : ℝ) : EReal)) (hz : ∀ p q, z (ix2 p q) = ((Z p q : ℝ) : EReal))
    (init0 init1 : S0.Idx → Ideal .f32) (hu : 0 < S0.numel) (h0 : init0 (Shape.Idx.first hu) = 0)
    (h1 : init1 (Shape.Idx.first hu) = 0) (c : FVec Ideal ⟨1, ![m]⟩ .f32)
    (hc : ∀ i, c i = Ideal.ofBits .f32 0x3F000000#32)
    (h' : (⟨2, ![m, d]⟩ : Shape).ReducesTo [1] ⟨1, ![m]⟩) (h : (⟨2, ![m, d]⟩ : Shape).Reduces [1] ⟨1, ![m]⟩)
    (ht : (⟨1, ![m]⟩ : Shape).ReducesTo [0] S0) (j : S0.Idx) :
    Host.reduceAdd (Host.exp (Host.divf (Host.reduceAdd (mulf y z) init0 h' hu) c)) init1 ht hu j
      = ((∑ i : Fin m, Real.exp ((∑ k : Fin d, Y i k * Z i k) / (1 / 2)) : ℝ) : EReal) := by
  rw [hostReduceAdd_apply, h1, Ideal.hostReduceAdd_total ht (fun b => b.elim0), zero_add, sum_idx1]
  refine Eq.trans (Finset.sum_congr rfl fun i _ => ?_) (coe_sum _ _)
  exact expHalf_apply _ _ _ _ (rowDot_apply y z Y Z hy hz init0 hu h0 h' h i) (hc _)

/-- The sum from zero over a one-column matrix of real numbers. -/
theorem colSum_apply {n : Nat} (rs : FVec Ideal ⟨2, ![n, 1]⟩ .f32) (R : Fin n → ℝ)
    (hrs : ∀ p, rs (ix2 p (0 : Fin 1)) = ((R p : ℝ) : EReal)) (init : S0.Idx → Ideal .f32) (hu : 0 < S0.numel)
    (h0 : init (Shape.Idx.first hu) = 0) (ht : (⟨2, ![n, 1]⟩ : Shape).ReducesTo [0, 1] S0) (j : S0.Idx) :
    Host.reduceAdd rs init ht hu j = ((∑ p : Fin n, R p : ℝ) : EReal) := by
  rw [hostReduceAdd_apply, h0, Ideal.hostReduceAdd_total ht (fun b => b.elim0), zero_add, sum_idx2]
  refine Eq.trans (Finset.sum_congr rfl fun p _ => ?_) (coe_sum _ _)
  rw [Fin.sum_univ_one]
  exact hrs p

end Cert.TailOps

end
-- ==== Proof.KerTail.lean ====
/-
  The first program's host operations after its kernel region, read at the extended reals.

  After the region the program holds the stacked unit rows and, for every row, the sum over all rows of the
  exponential of twice the inner product.  From these it computes: the sum of the row sums (the sum over all pairs);
  the diagonal's share (the inner product of every row with itself, divided by one half, exponentiated, summed);
  the three one-sided bands at distances 2048, 4096 and 6144 (rows sliced from the top against rows sliced from
  that distance down, their inner products divided by one half, exponentiated, summed); twice the sum of the bands;
  and all pairs less the diagonal less that.  When the stacked rows are real these are the real numerator and
  denominator of the first loss formula; the last four operations (divide, logarithm, negate, divide by the row
  count) are left as they stand.
-/
import proofs.«150978_j66494683676972_1_alg».proof.Proof.Gen.KernelIdeal.Launch
import proofs.«150978_j66494683676972_1_alg».proof.Proof.Spec
import proofs.«150978_j66494683676972_1_alg».proof.Proof.TailOps
import Idealize.ShloMosaic.Lib.StableHlo.Run

noncomputable section

namespace Cert.KernelIdeal.Tail

open Idealize.ShloMosaic Idealize.ShloMosaic.ValueIdx Cert.KernelIdeal Cert.KernelIdeal.Gen
open Idealize.ShloMosaic.StableHlo Cert.TailOps Cert.Spec

/-- The zero word, as the initial value of a sum. -/
theorem zero_first : (constant (F := Ideal) S_ .f32 0x00000000#32) (Shape.Idx.first h_S_) = 0 :=
  Ideal.ofBits_zero_f32

/-- The sum of the row sums. -/
def totT (rs : FVec Ideal S8192x1 .f32) : FVec Ideal S_ .f32 :=
  Host.reduceAdd rs (constant S_ .f32 0x00000000#32) reducesTo_S8192x1_S_d0_1 h_S_

/-- The diagonal's share. -/
def diagT (x : FVec Ideal S8192x512 .f32) : FVec Ideal S_ .f32 :=
  Host.reduceAdd
    (Host.exp
      (Host.divf
        (Host.reduceAdd (mulf x x) (constant S_ .f32 0x00000000#32) reducesTo_S8192x512_S8192_d1 h_S_)
        (broadcastInDim S8192 ![] bcast_S_S8192 (constant S_ .f32 0x3F000000#32))))
    (constant S_ .f32 0x00000000#32) reducesTo_S8192_S_d0 h_S_

/-- The one-sided band at distance 2048. -/
def band1 (x : FVec Ideal S8192x512 .f32) : FVec Ideal S_ .f32 :=
  Host.reduceAdd
    (Host.exp
      (Host.divf
        (Host.reduceAdd
          (mulf (extractStridedSlice S6144x512 ![0, 0] x slices_S8192x512_S6144x512_0_0)
            (extractStridedSlice S6144x512 ![2048, 0] x slices_S8192x512_S6144x512_2048_0))
          (constant S_ .f32 0x00000000#32) reducesTo_S6144x512_S6144_d1 h_S_)
        (broadcastInDim S6144 ![] bcast_S_S6144 (constant S_ .f32 0x3F000000#32))))
    (constant S_ .f32 0x00000000#32) reducesTo_S6144_S_d0 h_S_

/-- The one-sided band at distance 4096. -/
def band2 (x : FVec Ideal S8192x512 .f32) : FVec Ideal S_ .f32 :=
  Host.reduceAdd
    (Host.exp
      (Host.divf
        (Host.reduceAdd
          (mulf (extractStridedSlice S4096x512 ![0, 0] x slices_S8192x512_S4096x512_0_0)
            (extractStridedSlice S4096x512 ![4096, 0] x slices_S8192x512_S4096x512_4096_0))
          (constant S_ .f32 0x00000000#32) reducesTo_S4096x512_S4096_d1 h_S_)
        (broadcastInDim S4096 ![] bcast_S_S4096 (constant S_ .f32 0x3F000000#32))))
    (constant S_ .f32 0x00000000#32) reducesTo_S4096_S_d0 h_S_

/-- The one-sided band at distance 6144. -/
def band3 (x : FVec Ideal S8192x512 .f32) : FVec Ideal S_ .f32 :=
  Host.reduceAdd
    (Host.exp
      (Host.divf
        (Host.reduceAdd
          (mulf (extractStridedSlice S2048x512 ![0, 0] x slices_S8192x512_S2048x512_0_0)
            (extractStridedSlice S2048x512 ![6144, 0] x slices_S8192x512_S2048x512_6144_0))
          (constant S_ .f32 0x00000000#32) reducesTo_S2048x512_S2048_d1 h_S_)
        (broadcastInDim S2048 ![] bcast_S_S2048 (constant S_ .f32 0x3F000000#32))))
    (constant S_ .f32 0x00000000#32) reducesTo_S2048_S_d0 h_S_

/-- Twice the three bands. -/
def nomT (x : FVec Ideal S8192x512 .f32) : FVec Ideal S_ .f32 :=
  mulf (constant S_ .f32 0x40000000#32) (addf (addf (band1 x) (band2 x)) (band3 x))

/-- All pairs, less the diagonal, less twice the bands. -/
def denT (x : FVec Ideal S8192x512 .f32) (rs : FVec Ideal S8192x1 .f32) : FVec Ideal S_ .f32 :=
  subf (subf (totT rs) (diagT x)) (nomT x)

theorem totT_eq (rs : FVec Ideal S8192x1 .f32) (r : Rows)
    (hrs : ∀ p : Fin 8192, rs (ix2 p (0 : Fin 1)) = ((rowSum r p : ℝ) : EReal)) (j : S_.Idx) :
    totT rs j = ((total r : ℝ) : EReal) := by
  unfold totT
  exact colSum_apply rs (rowSum r) hrs _ h_S_ zero_first reducesTo_S8192x1_S_d0_1 j

theorem diagT_eq (x : FVec Ideal S8192x512 .f32) (r : Rows)
    (hx : ∀ (p : Fin 8192) (q : Fin 512), x (ix2 p q) = ((r p q : ℝ) : EReal)) (j : S_.Idx) :
    diagT x j = ((diagSum r : ℝ) : EReal) := by
  unfold diagT
  exact expDotSum_apply x x r r hx hx _ _ h_S_ zero_first zero_first _ (fun _ => rfl)
    reducesTo_S8192x512_S8192_d1 (by decide) reducesTo_S8192_S_d0 j

theorem band1_eq (x : FVec Ideal S8192x512 .f32) (r : Rows)
    (hx : ∀ (p : Fin 8192) (q : Fin 512), x (ix2 p q) = ((r p q : ℝ) : EReal)) (j : S_.Idx) :
    band1 x j = ((bandK r 6144 2048 (by norm_num) : ℝ) : EReal) := by
  unfold band1
  exact expDotSum_apply _ _ (fun p q => r (lo 6144 (by norm_num) p) q) (fun p q => r (up 6144 2048 (by norm_num) p) q)
    (fun p q => (sliceRows_apply 0 x _ p q (lo 6144 (by norm_num) p) (Nat.zero_add _).symm).trans (hx _ _))
    (fun p q => (sliceRows_apply 2048 x _ p q (up 6144 2048 (by norm_num) p) (Nat.add_comm _ _)).trans (hx _ _))
    _ _ h_S_ zero_first zero_first _ (fun _ => rfl) reducesTo_S6144x512_S6144_d1 (by decide) reducesTo_S6144_S_d0 j

theorem band2_eq (x : FVec Ideal S8192x512 .f32) (r : Rows)
    (hx : ∀ (p : Fin 8192) (q : Fin 512), x (ix2 p q) = ((r p q : ℝ) : EReal)) (j : S_.Idx) :
    band2 x j = ((bandK r 4096 4096 (by norm_num) : ℝ) : EReal) := by
  unfold band2
  exact expDotSum_apply _ _ (fun p q => r (lo 4096 (by norm_num) p) q) (fun p q => r (up 4096 4096 (by norm_num) p) q)
    (fun p q => (sliceRows_apply 0 x _ p q (lo 4096 (by norm_num) p) (Nat.zero_add _).symm).trans (hx _ _))
    (fun p q => (sliceRows_apply 4096 x _ p q (up 4096 4096 (by norm_num) p) (Nat.add_comm _ _)).trans (hx _ _))
    _ _ h_S_ zero_first zero_first _ (fun _ => rfl) reducesTo_S4096x512_S4096_d1 (by decide) reducesTo_S4096_S_d0 j

theorem band3_eq (x : FVec Ideal S8192x512 .f32) (r : Rows)
    (hx : ∀ (p : Fin 8192) (q : Fin 512), x (ix2 p q) = ((r p q : ℝ) : EReal)) (j : S_.Idx) :
    band3 x j = ((bandK r 2048 6144 (by norm_num) : ℝ) : EReal) := by
  unfold band3
  exact expDotSum_apply _ _ (fun p q => r (lo 2048 (by norm_num) p) q) (fun p q => r (up 2048 6144 (by norm_num) p) q)
    (fun p q => (sliceRows_apply 0 x _ p q (lo 2048 (by norm_num) p) (Nat.zero_add _).symm).trans (hx _ _))
    (fun p q => (sliceRows_apply 6144 x _ p q (up 2048 6144 (by norm_num) p) (Nat.add_comm _ _)).trans (hx _ _))
    _ _ h_S_ zero_first zero_first _ (fun _ => rfl) reducesTo_S2048x512_S2048_d1 (by decide) reducesTo_S2048_S_d0 j

/-- Twice the three bands is the first program's numerator. -/
theorem nomT_eq (x : FVec Ideal S8192x512 .f32) (r : Rows)
    (hx : ∀ (p : Fin 8192) (q : Fin 512), x (ix2 p q) = ((r p q : ℝ) : EReal)) :
    nomT x = fun _ => ((nomK r : ℝ) : EReal) := by
  funext j
  show Ideal.ofBits .f32 0x40000000#32 * ((band1 x j + band2 x j) + band3 x j) = _
  rw [band1_eq x r hx, band2_eq x r hx, band3_eq x r hx, ofBits_two]
  unfold nomK
  rw [EReal.coe_mul, EReal.coe_add, EReal.coe_add]

/-- All pairs less the diagonal less the numerator is the first program's denominator. -/
theorem denT_eq (x : FVec Ideal S8192x512 .f32) (rs : FVec Ideal S8192x1 .f32) (r : Rows)
    (hx : ∀ (p : Fin 8192) (q : Fin 512), x (ix2 p q) = ((r p q : ℝ) : EReal))
    (hrs : ∀ p : Fin 8192, rs (ix2 p (0 : Fin 1)) = ((rowSum r p : ℝ) : EReal)) :
    denT x rs = fun _ => ((denK r : ℝ) : EReal) := by
  funext j
  show (totT rs j - diagT x j) - nomT x j = _
  rw [totT_eq rs r hrs, diagT_eq x r hx, nomT_eq x r hx]
  unfold denK
  rw [EReal.coe_sub, EReal.coe_sub]

/-- The result of the host operations after the region: the last four operations applied to the real numerator
    and denominator. -/
theorem tail_eq (W : Valuation Cert.KernelIdeal.τ Cert.KernelIdeal.sig (Elt Ideal)) (r : Cert.Spec.Rows)
    (h10 : ∀ (p : Fin 8192) (q : Fin 512),
      W (Proc.devRef .tc Cert.KernelIdeal.main_v10) (ValueIdx.ix2 p q) = ((r p q : ℝ) : EReal))
    (h11 : ∀ p : Fin 8192,
      W (Proc.devRef .tc Cert.KernelIdeal.main_v11) (ValueIdx.ix2 p (0 : Fin 1)) = ((Cert.Spec.rowSum r p : ℝ) : EReal)) :
    StableHlo.after (Cert.KernelIdeal.Gen.hostOps1 (F := Ideal)) W (Proc.devRef .tc Cert.KernelIdeal.main_v51)
      = Host.divf (F := Ideal) (s := S_) (φ := .f32)
          (Host.negf (F := Ideal) (Host.log (F := Ideal)
            (Host.divf (F := Ideal) (fun _ => ((Cert.Spec.nomK r : ℝ) : EReal)) (fun _ => ((Cert.Spec.denK r : ℝ) : EReal)))))
          (constant (F := Ideal) Cert.KernelIdeal.S_ .f32 0x46000000#32) := by
  after_results_simp
  exact congrArg₂
    (fun a b : FVec Ideal S_ .f32 =>
      Host.divf (F := Ideal) (Host.negf (F := Ideal) (Host.log (F := Ideal) (Host.divf (F := Ideal) a b)))
        (constant (F := Ideal) S_ .f32 0x46000000#32))
    (nomT_eq _ r h10) (denT_eq _ _ r h10 h11)

end Cert.KernelIdeal.Tail

end
-- ==== Proof.KerResult.lean ====
/-
  The first program's result.  When the stacked unit rows are real, and the region has left in its output array the
  real row sums of the exponential matrix, the host operations after the region turn these into the loss term at the
  real numerator and denominator of the first loss formula; the two inputs end as they began.
-/
import proofs.«150978_j66494683676972_1_alg».proof.Proof.KerEntry
import proofs.«150978_j66494683676972_1_alg».proof.Proof.KerTail
import proofs.«150978_j66494683676972_1_alg».proof.Proof.Spec

-- membership in a rectangle of these extents recurses once per coordinate of the long axes
set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo

/-- The result bypasses the region: it is unscoped and no window's array. -/
theorem v51_rest : main_v51 ∈ Pipeline.restRefsP sig Pipeline.Prefetch.none spec0 := by decide

/-- The result buffer at the end: the last four host operations applied to the real numerator and denominator. -/
theorem Wfin_v51 (m : (ℓ : Loc nD τ sig) → Buf (Elt Ideal) ℓ) (c : Dev nD) (R : Cert.Spec.Rows)
    (hR : ∀ (p : Fin 8192) (q : Fin 512),
      Cert.KernelIdeal.Rep.rep (F := Ideal) (m ((c : Thread nD τ).loc main_arg0)) (m ((c : Thread nD τ).loc main_arg1))
        (ValueIdx.ix2 p q) = ((R p q : ℝ) : EReal))
    (hrows : ∀ p : Fin 8192,
      (dats m 0 c).arrAt 2 cfg0.N (ValueIdx.ix2 p (0 : Fin 1)) = ((Cert.Spec.rowSum R p : ℝ) : EReal)) :
    Wfin m c (Proc.devRef .tc main_v51)
      = Host.divf (F := Ideal) (s := S_) (φ := .f32)
          (Host.negf (F := Ideal) (Host.log (F := Ideal)
            (Host.divf (F := Ideal) (fun _ => ((Cert.Spec.nomK R : ℝ) : EReal)) (fun _ => ((Cert.Spec.denK R : ℝ) : EReal)))))
          (constant (F := Ideal) S_ .f32 0x46000000#32) := by
  unfold Wfin
  exact Cert.KernelIdeal.Tail.tail_eq (Wexit m c) R
    (fun p q => by rw [Wexit_of_ne m c main_v10 (by decide), V_v10]; exact hR p q)
    (fun p => by rw [Wexit_v11]; exact hrows p)

/-- From any memory with zero counters whose stacked unit rows are the real matrices `r c`, every weakly fair execution
    of @main terminates, nothing faulting, with the result at the loss term of the first formula's real numerator and
    denominator and both inputs as they began. -/
theorem result (m : (ℓ : Loc nD τ sig) → Buf (Elt Ideal) ℓ) (ρ : Dev nD → PrngReg) (r : Dev nD → Cert.Spec.Rows)
    (hr : ∀ (c : Dev nD) (p : Fin 8192) (q : Fin 512),
      Cert.KernelIdeal.Rep.rep (F := Ideal) (m ((c : Thread nD τ).loc main_arg0)) (m ((c : Thread nD τ).loc main_arg1))
        (ValueIdx.ix2 p q) = ((r c p q : ℝ) : EReal))
    (hrows : ∀ (c : Dev nD) (p : Fin 8192),
      (dats m 0 c).arrAt 2 cfg0.N (ValueIdx.ix2 p (0 : Fin 1)) = ((Cert.Spec.rowSum (r c) p : ℝ) : EReal)) :
    θ_run defs (onTc (τ := τ) (main (F := Ideal))) ⟨m, fun _ => 0, ρ⟩ (fun res => ∀ c : Dev nD,
      res.2.mem ((c.tc : Thread nD τ).loc main_v51)
          = Host.divf (F := Ideal) (s := S_) (φ := .f32)
              (Host.negf (F := Ideal) (Host.log (F := Ideal)
                (Host.divf (F := Ideal) (fun _ => ((Cert.Spec.nomK (r c) : ℝ) : EReal))
                  (fun _ => ((Cert.Spec.denK (r c) : ℝ) : EReal)))))
              (constant (F := Ideal) S_ .f32 0x46000000#32)
      ∧ res.2.mem ((c.tc : Thread nD τ).loc main_arg0) = m ((c.tc : Thread nD τ).loc main_arg0)
      ∧ res.2.mem ((c.tc : Thread nD τ).loc main_arg1) = m ((c.tc : Thread nD τ).loc main_arg1)) :=
  (θ_run defs _ _).mono
    (fun _ h c => ⟨((h c).2 main_v51 v51_rest).trans (Wfin_v51 m c (r c) (hr c) (hrows c)),
      ((h c).2 main_arg0 arg0_rest).trans (Wfin_arg0 m c), ((h c).2 main_arg1 arg1_rest).trans (Wfin_arg1 m c)⟩)
    (run_main m ρ)

end Cert.KernelIdeal.Acc

end
-- ==== Proof.KerValue.lean ====
/-
  The row-sum kernel's buffers as values.  Each case of the body leaves in the scratch column the payload of its
  last store: the tile's row sums added to what the column held (the zero column when j = 0); at j = 7 the output
  block receives the finished column.  So after point t the scratch holds the running sum over the tiles 0 … j.
-/
import proofs.«150978_j66494683676972_1_alg».proof.Proof.KerLaunch
import Idealize.ShloMosaic.Lib.Pipeline.Value

-- membership in a rectangle of these extents recurses once per coordinate of the long axes
set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz : (![0, 0] : Fin 2 → Nat) = fun _ => 0 := funext fun a => by fin_cases a <;> rfl

/-- Away from j = 0 and j = 7: the scratch holding `xs0` ends at the payload over the two blocks and `xs0`. -/
theorem soutB_eq (c : Dev nD) (t : Fin cfg0.N) (hc0 : ¬cond0_0 (grid0.coords t)) (hc1 : ¬cond0_1 (grid0.coords t))
    (x0 x1 : Vec F S1024x512 .f32) (xs0 : Vec F S1024x1 .f32) :
    soutB c t hc0 hc1 x0 x1 xs0 = k0_pay2 x0 x1 xs0 := by
  unfold soutB
  rw [View.read_writes_eq_canon _ _ _ (scoverB c t hc0 hc1 x0 x1 xs0)]
  unfold kernelRun0_B
  dsimp only
  rw [View.canon_unit_zero hz]
  simp only [View.readAt_eq_ld, (hs0_0 t).read_unread, (hs0_1 t).read_unread, (hs0_2 t).read_unread, (Memref.isWhole_whole cc0_scratch0).read_unread, View.ld_unit_zero (S := S1024x512) hz, View.ld_unit_zero (S := S1024x1) hz]

/-- At j = 7 the scratch ends the same way, -/
theorem soutC_eq (c : Dev nD) (t : Fin cfg0.N) (hc0 : ¬cond0_0 (grid0.coords t)) (hc1 : cond0_1 (grid0.coords t))
    (x0 x1 : Vec F S1024x512 .f32) (xs0 : Vec F S1024x1 .f32) :
    soutC c t hc0 hc1 x0 x1 xs0 = k0_pay2 x0 x1 xs0 := by
  unfold soutC
  rw [View.read_writes_eq_canon _ _ _ (scoverC c t hc0 hc1 x0 x1 xs0)]
  unfold kernelRun0_C
  dsimp only
  sl_unfold_words
  rw [View.canon_unit_zero hz]
  simp only [View.readAt_eq_ld, (hs0_0 t).read_unread, (hs0_1 t).read_unread, (hs0_2 t).read_unread, (Memref.isWhole_whole cc0_scratch0).read_unread, View.ld_unit_zero (S := S1024x512) hz, View.ld_unit_zero (S := S1024x1) hz]

/-- and the output block receives that column. -/
theorem outC_eq (c : Dev nD) (t : Fin cfg0.N) (hc0 : ¬cond0_0 (grid0.coords t)) (hc1 : cond0_1 (grid0.coords t))
    (x0 x1 : Vec F S1024x512 .f32) (xs0 : Vec F S1024x1 .f32) :
    outC c t hc0 hc1 x0 x1 xs0 = k0_pay2 x0 x1 xs0 := by
  unfold outC
  rw [View.read_writes_eq_canon _ _ _ (coverC c t hc0 hc1 x0 x1 xs0)]
  unfold kernelRun0_C
  dsimp only
  sl_unfold_words
  rw [View.canon_unit_zero hz]
  simp only [View.readAt_eq_ld, (hs0_0 t).read_unread, (hs0_1 t).read_unread, (hs0_2 t).read_unread, (Memref.isWhole_whole cc0_scratch0).read_unread, View.ld_unit_zero (S := S1024x512) hz, View.ld_unit_zero (S := S1024x1) hz]
  rw [View.readCov_unit_zero (S := S1024x1) _ hz]

/-- At j = 0 the scratch is zeroed first: it ends at the payload over the two blocks and the zero column. -/
theorem soutA_eq (c : Dev nD) (t : Fin cfg0.N) (hc0 : cond0_0 (grid0.coords t)) (hc1 : ¬cond0_1 (grid0.coords t))
    (x0 x1 : Vec F S1024x512 .f32) :
    soutA c t hc0 hc1 x0 x1 = k0_pay2 x0 x1 (k0_pay1 (F := F)) := by
  unfold soutA
  rw [View.read_writes_eq_canon _ _ _ (scoverA c t hc0 hc1 x0 x1)]
  unfold kernelRun0_A
  dsimp only
  sl_unfold_words
  rw [View.canon_cons_unit_zero (S := S1024x1) hz, View.readCov_unit_zero (S := S1024x1) _ hz]
  simp only [View.readAt_eq_ld, (hs0_0 t).read_unread, (hs0_1 t).read_unread, (hs0_2 t).read_unread, (Memref.isWhole_whole cc0_scratch0).read_unread, View.ld_unit_zero (S := S1024x512) hz, View.ld_unit_zero (S := S1024x1) hz]

/-! ## The running sum -/

/-- The scratch column after position `n`: the payload over the point's two blocks and what the column held —
    the zero column at the start of each row of the grid. -/
def acc (c : Dev nD) : (n : ℕ) → n < cfg0.N → Vec F S1024x1 .f32
  | 0, h => k0_pay2 (iblk m c 0 ⟨0, h⟩) (iblk m c 1 ⟨0, h⟩) (k0_pay1 (F := F))
  | n + 1, h => k0_pay2 (iblk m c 0 ⟨n + 1, h⟩) (iblk m c 1 ⟨n + 1, h⟩)
      (if (n + 1) % 8 = 0 then (k0_pay1 (F := F)) else acc c n (Nat.lt_of_succ_lt h))

set_option maxHeartbeats 2000000 in
/-- The scratch is the running sum, by induction on the point. -/
theorem outsAt_snd (c : Dev nD) : ∀ (n : ℕ) (h : n < cfg0.N), (outsAt0 m c n h).2 = acc m c n h
  | 0, h => by
    rw [outsAt0_A m c ⟨0, h⟩ rfl (by dsimp only; omega)]
    dsimp only
    rw [soutA_eq, acc]
  | n + 1, h => by
    by_cases h0 : (n + 1) % 8 = 0
    · rw [outsAt0_A m c ⟨n + 1, h⟩ h0 (by dsimp only; omega)]
      dsimp only
      rw [soutA_eq, acc, if_pos h0]
    · by_cases h1 : (n + 1) % 8 = 7
      · rw [outsAt0_C m c ⟨n + 1, h⟩ h0 h1]
        dsimp only
        rw [soutC_eq, acc, if_neg h0]
        exact congrArg _ (outsAt_snd c n _)
      · rw [outsAt0_B m c ⟨n + 1, h⟩ h0 h1]
        dsimp only
        rw [soutB_eq, acc, if_neg h0]
        exact congrArg _ (outsAt_snd c n _)

set_option maxHeartbeats 2000000 in
/-- At j = 7 the output block holds the running sum. -/
theorem outsAt_fst (c : Dev nD) (t : Fin cfg0.N) (h1 : t.val % 8 = 7) : (outsAt0 m c t.val t.isLt).1 = acc m c t.val t.isLt := by
  have h0 : ¬t.val % 8 = 0 := by omega
  rw [outsAt0_C m c t h0 h1]
  dsimp only
  rw [outC_eq]
  obtain ⟨n, hn⟩ := t
  cases n with
  | zero => exact absurd h1 (by dsimp only; omega)
  | succ n =>
    rw [acc, if_neg h0]
    exact congrArg _ (outsAt_snd m c n _)

end Cert.KernelIdeal.Acc

end
-- ==== Proof.RefLib.lean ====
/-
  General lemmas for reading a host program at an index: the two-coordinate gather that takes a diagonal of a matrix,
  32-bit index words that never wrap, rank-1 index sets as coordinate ranges, finite sums of reals inside the extended
  reals, and three bit patterns as reals.
-/
import Idealize.ShloMosaic.Lib.ValueIdx
import Idealize.ShloMosaic.Lib.Pipeline.Value
import Idealize.ShloMosaic.PureOps.Ideal.Laws

noncomputable section

open scoped BigOperators

namespace Cert.ReferenceIdeal.RefValue

open Idealize.ShloMosaic Idealize.ShloMosaic.ValueIdx

/-! ## A gather whose start indices are rows of two coordinates -/

section Gather
variable {α : Type}

/-- A rank-1 index's coordinate is below the extent. -/
theorem idx1_lt {n : Nat} (j : (⟨1, ![n]⟩ : Shape).Idx) : (j 0).val < n := (j 0).isLt

/-- The dimension numbers of a gather of single elements of an N × M matrix at R start indices of two coordinates. -/
abbrev diagDims (N M R : Nat)
    (wf : GatherDims.WF ⟨2, ![N, M]⟩ ⟨2, ![R, 2]⟩ ⟨1, ![R]⟩ [] [0, 1] [] [0, 1] [] 1 ![1, 1]) :
    GatherDims ⟨2, ![N, M]⟩ ⟨2, ![R, 2]⟩ ⟨1, ![R]⟩ where
  offsetDims := []
  collapsedSliceDims := [0, 1]
  operandBatchingDims := []
  startIndicesBatchingDims := []
  startIndexMap := [0, 1]
  indexVectorDim := 1
  sliceSizes := ![1, 1]
  wf := wf

/-- Row y of the start indices, column c. -/
abbrev rowIdx {R : Nat} (y : (⟨1, ![R]⟩ : Shape).Idx) (c : Fin 2) : (⟨2, ![R, 2]⟩ : Shape).Idx :=
  ix2 ⟨(y 0).val, idx1_lt y⟩ c

/-- The gather at y is the matrix at (row, column) = the two start coordinates of row y, each read signed and
    clamped into the matrix. -/
theorem gather_diag_apply {N M R w : Nat} (hN : 0 < N) (hM : 0 < M)
    (wf : GatherDims.WF ⟨2, ![N, M]⟩ ⟨2, ![R, 2]⟩ ⟨1, ![R]⟩ [] [0, 1] [] [0, 1] [] 1 ![1, 1])
    (x : (⟨2, ![N, M]⟩ : Shape).Idx → α) (idx : IVec ⟨2, ![R, 2]⟩ w) (y : (⟨1, ![R]⟩ : Shape).Idx) :
    Host.gather (diagDims N M R wf) x idx y
      = x (ix2 ⟨min (idx (rowIdx y 0)).toInt.toNat (N - 1), by omega⟩
               ⟨min (idx (rowIdx y 1)).toInt.toNat (M - 1), by omega⟩) := by
  unfold Host.gather
  congr 1
  funext a
  refine Fin.ext ?_
  match a with
  | ⟨0, _⟩ =>
    show (diagDims N M R wf).start y idx 0 + (diagDims N M R wf).batchCoord y 0 + (diagDims N M R wf).offCoord y 0 = _
    rw [GatherDims.batchCoord_eq_zero _ _ _ List.not_mem_nil,
      GatherDims.offCoord_eq_zero _ _ _ (fun h => ((GatherDims.mem_sKept _ _).mp h).1 (by show (0 : Fin 2) ∈ [(0 : Fin 2), 1]; simp))]
    simp only [Nat.add_zero]
    unfold GatherDims.start
    rw [dif_pos (show (0 : Fin 2) ∈ (diagDims N M R wf).startIndexMap from by show (0 : Fin 2) ∈ [(0 : Fin 2), 1]; simp)]
    have hsi : (diagDims N M R wf).siIdx y ⟨List.idxOf (0 : Fin 2) (diagDims N M R wf).startIndexMap,
        List.idxOf_lt_length_iff.2 (by show (0 : Fin 2) ∈ [(0 : Fin 2), 1]; simp)⟩ = rowIdx y 0 := by
      funext b; refine Fin.ext ?_
      match b with
      | ⟨0, _⟩ => rfl
      | ⟨1, _⟩ => rfl
    rw [hsi]
    rfl
  | ⟨1, _⟩ =>
    show (diagDims N M R wf).start y idx 1 + (diagDims N M R wf).batchCoord y 1 + (diagDims N M R wf).offCoord y 1 = _
    rw [GatherDims.batchCoord_eq_zero _ _ _ List.not_mem_nil,
      GatherDims.offCoord_eq_zero _ _ _ (fun h => ((GatherDims.mem_sKept _ _).mp h).1 (by show (1 : Fin 2) ∈ [(0 : Fin 2), 1]; simp))]
    simp only [Nat.add_zero]
    unfold GatherDims.start
    rw [dif_pos (show (1 : Fin 2) ∈ (diagDims N M R wf).startIndexMap from by show (1 : Fin 2) ∈ [(0 : Fin 2), 1]; simp)]
    have hsi : (diagDims N M R wf).siIdx y ⟨List.idxOf (1 : Fin 2) (diagDims N M R wf).startIndexMap,
        List.idxOf_lt_length_iff.2 (by show (1 : Fin 2) ∈ [(0 : Fin 2), 1]; simp)⟩ = rowIdx y 1 := by
      funext b; refine Fin.ext ?_
      match b with
      | ⟨0, _⟩ => rfl
      | ⟨1, _⟩ => rfl
    rw [hsi]
    rfl

end Gather

/-! ## Index words: small naturals as 32-bit words -/

section Words

/-- A natural below 2^31 read back signed off its 32-bit word. -/
theorem toInt_toNat_ofNat (n : Nat) (h : n < 2147483648) : (BitVec.ofNat 32 n).toInt.toNat = n := by
  have h1 : (BitVec.ofNat 32 n).toNat = n := by rw [BitVec.toNat_ofNat]; omega
  rw [BitVec.toInt_eq_toNat_of_lt (by rw [h1]; omega), h1]
  rfl

/-- Such a word clamped into a range that holds it. -/
theorem clamp_ofNat (n b : Nat) (h : n ≤ b) (hb : b < 2147483648) : min (BitVec.ofNat 32 n).toInt.toNat b = n := by
  rw [toInt_toNat_ofNat n (by omega)]; omega

/-- Two such words add without wrapping. -/
theorem addi_ofNat (k i : Nat) : IntOp.addi (BitVec.ofNat 32 k) (BitVec.ofNat 32 i) = BitVec.ofNat 32 (k + i) := by
  unfold IntOp.addi
  apply BitVec.eq_of_toNat_eq
  simp [BitVec.toNat_add, BitVec.toNat_ofNat]

/-- Such a word is not below zero. -/
theorem slt_zero_ofNat (n : Nat) (h : n < 2147483648) : IntOp.cmpi .slt (BitVec.ofNat 32 n) 0#32 = 0#1 := by
  unfold IntOp.cmpi
  have : (BitVec.ofNat 32 n).slt 0#32 = false := by
    rw [BitVec.slt_eq_decide]
    have h0 : (BitVec.ofNat 32 n).toNat = n := by rw [BitVec.toNat_ofNat]; omega
    have h1 : (BitVec.ofNat 32 n).toInt = n := by
      rw [BitVec.toInt_eq_toNat_of_lt (by rw [h0]; omega), h0]
    rw [h1]
    simp
  simp [this]

/-- The negative-index wrap of a nonnegative index leaves it unchanged. -/
theorem select_wrap (n : Nat) (h : n < 2147483648) (A : BitVec 32) :
    Scalar.select (IntOp.cmpi .slt (BitVec.ofNat 32 n) 0#32) A (BitVec.ofNat 32 n) = BitVec.ofNat 32 n := by
  rw [slt_zero_ofNat n h]; exact select_zero _ _

/-- Equality of two small words is equality of the naturals. -/
theorem cmpi_eq_ofNat (i j : Nat) (hi : i < 4294967296) (hj : j < 4294967296) :
    IntOp.cmpi .eq (BitVec.ofNat 32 i) (BitVec.ofNat 32 j) = if i = j then 1#1 else 0#1 := by
  unfold IntOp.cmpi
  by_cases h : i = j
  · subst h; simp
  · have : (BitVec.ofNat 32 i == BitVec.ofNat 32 j) = false := by
      rw [beq_eq_false_iff_ne]
      intro e
      have := congrArg BitVec.toNat e
      simp only [BitVec.toNat_ofNat] at this
      omega
    simp [this, h]

end Words

/-! ## Rank-1 index sets -/

section Idx1

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

end Idx1

/-! ## Reals inside the extended reals -/

section Coe

/-- A finite sum of reals, read in the extended reals, is the sum of the readings. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The pattern of 0.5. -/
theorem ofBits_half : Ideal.ofBits .f32 0x3F000000#32 = (((1 : ℝ) / 2 : ℝ) : EReal) := by
  simp [Ideal.ofBits, Ideal.ieee, -EReal.coe_mul]
  norm_num

/-- The pattern of 1.0. -/
theorem ofBits_one : Ideal.ofBits .f32 0x3F800000#32 = ((1 : ℝ) : EReal) := by
  have := IdealRules.sign_bit.ideal_onePat .f32
  simpa [IdealRules.sign_bit.onePat] using this

/-- The exponential of a real divided by 0.5, as the two host operations compute it. -/
theorem exp_div_half (x : ℝ) :
    FloatOps.hostUnary (F := Ideal) (φ := .f32) .exp (FloatOps.hostDivf (F := Ideal) (φ := .f32) (x : EReal) (FloatOps.ofBits (F := Ideal) .f32 0x3F000000#32))
      = ((Real.exp (x / (1 / 2)) : ℝ) : EReal) := by
  rw [Ideal.ofBits_def, Ideal.hostDivf_def, Ideal.hostUnary_exp_def, ofBits_half, Ideal.div_coe (by norm_num), ← EReal.coe_mul, Ideal.exp_coe]
  congr 2
  ring

/-- The identity mask's entry: the one-bit "row index equals column index", converted to a float, is 1 on the diagonal
    and 0 off it. -/
theorem mask_word (i j : Nat) (hi : i < 4294967296) (hj : j < 4294967296) :
    FloatOps.uitofp (F := Ideal) .f32 (IntOp.cmpi .eq (IntOp.addi (BitVec.ofNat 32 i) 0#32) (BitVec.ofNat 32 j))
      = (((if i = j then (1 : ℝ) else 0) : ℝ) : EReal) := by
  rw [show (0#32 : BitVec 32) = BitVec.ofNat 32 0 from rfl, addi_ofNat, Nat.add_zero, cmpi_eq_ofNat _ _ hi hj]
  show ((((if i = j then 1#1 else 0#1) : BitVec 1).toNat : ℝ) : EReal) = _
  by_cases h : i = j
  · rw [if_pos h, if_pos h]; simp
  · rw [if_neg h, if_neg h]; simp

end Coe

end Cert.ReferenceIdeal.RefValue

end
-- ==== Proof.KerPay.lean ====
/-
  The first program's kernel body read at one index, at the extended reals. Its first stored value is the zero column.
  Its second adds, to the running column, the row sums of the exponential of twice the products of a block of rows with
  another block of rows: entry x is the old entry plus the sum over q of exp (2 ⟨row x, row q⟩).
-/
import proofs.«150978_j66494683676972_1_alg».proof.Proof.Gen.KernelIdeal.Skeleton
import proofs.«150978_j66494683676972_1_alg».proof.Proof.RefLib
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx
open Cert.ReferenceIdeal.RefValue (coe_sum)

/-- The pattern of 2.0. -/
theorem ofBits_two : Ideal.ofBits .f32 0x40000000#32 = ((2 : ℝ) : EReal) := by
  simp [Ideal.ofBits, Ideal.ieee, -EReal.coe_mul]
  norm_num

/-- A vector of 1024 entries viewed as a column reads, at (x, 0), its entry x. -/
theorem column_apply {α : Type} (v : S1024.Idx → α) (x : Fin 1024) :
    shapeCast S1024x1 v shapeCasts_S1024_S1024x1 (ix2 x (0 : Fin 1)) = v (ix1 x) :=
  shapeCast_apply v shapeCasts_S1024_S1024x1 _ _ (by
    rw [Shape.rowMajor_val_one, Shape.rowMajor_val_two]
    show x.val = x.val * 1 + 0
    omega)

/-- The sum along the rows of a 1024 × 1024 array reads, at x, the sum of row x. -/
theorem rowsum_apply (src : FVec Ideal S1024x1024 .f32) (hacc : (0x00000000#32 : BitVec 32) = 0x00000000#32) (x : Fin 1024) :
    multiReduction (F := Ideal) .add [1] S1024 src 0x00000000#32 reduces_S1024x1024_S1024 (.inl rfl) hacc (ix1 x)
      = ∑ q : Fin 1024, src (ix2 x q) := by
  refine (Ideal.multiReduction_add_single src 0x00000000#32 reduces_S1024x1024_S1024 (.inl rfl) hacc (ix1 x)).trans ?_
  show ∑ q : Fin 1024, src (reduces_S1024x1024_S1024.lift (ix1 x) q) = ∑ q : Fin 1024, src (ix2 x q)
  refine Finset.sum_congr rfl fun q _ => congrArg src ?_
  funext a
  refine Fin.ext ?_
  match a with
  | ⟨0, _⟩ => rfl
  | ⟨1, _⟩ => rfl

theorem lhs_0 (i : S1024x1024.Idx) (q : dot_S1024x512_S1024x512_S1024x1024_1_1_0_0_n_n.contr.Idx) :
    (dot_S1024x512_S1024x512_S1024x1024_1_1_0_0_n_n.lhsIdx i q 0).val = (i 0).val := by
  unfold DotDims.lhsIdx
  rw [dif_neg (show ¬(0 : Fin S1024x512.rank) ∈ dot_S1024x512_S1024x512_S1024x1024_1_1_0_0_n_n.lhsBatch by decide),
    dif_pos (show (0 : Fin S1024x512.rank) ∈ dot_S1024x512_S1024x512_S1024x1024_1_1_0_0_n_n.lhsNonContracting by decide)]
  rfl

theorem rhs_0 (i : S1024x1024.Idx) (q : dot_S1024x512_S1024x512_S1024x1024_1_1_0_0_n_n.contr.Idx) :
    (dot_S1024x512_S1024x512_S1024x1024_1_1_0_0_n_n.rhsIdx i q 0).val = (i 1).val := by
  unfold DotDims.rhsIdx
  rw [dif_neg (show ¬(0 : Fin S1024x512.rank) ∈ dot_S1024x512_S1024x512_S1024x1024_1_1_0_0_n_n.rhsBatch by decide),
    dif_pos (show (0 : Fin S1024x512.rank) ∈ dot_S1024x512_S1024x512_S1024x1024_1_1_0_0_n_n.rhsNonContracting by decide)]
  rfl

/-- The product of a block of rows with the transpose of another, into zero, reads at (x, q) the inner product of
    row x of the first with row q of the second. -/
theorem product_apply (l r : FVec Ideal S1024x512 .f32) (x q : Fin 1024) :
    FloatOps.matmul dot_S1024x512_S1024x512_S1024x1024_1_1_0_0_n_n (some .fp32) l r (constant (F := Ideal) S1024x1024 .f32 0x00000000#32) (ix2 x q)
      = ∑ d : Fin 512, l (ix2 x d) * r (ix2 q d) := by
  rw [Ideal.matmul_constant_zero_apply,
    ← Equiv.sum_comp (contrEquiv1 dot_S1024x512_S1024x512_S1024x1024_1_1_0_0_n_n 512 rfl rfl).symm]
  refine Finset.sum_congr rfl fun k _ => ?_
  have hk := contrEquiv1_symm_val dot_S1024x512_S1024x512_S1024x1024_1_1_0_0_n_n 512 rfl rfl k
  have el : dot_S1024x512_S1024x512_S1024x1024_1_1_0_0_n_n.lhsIdx (ix2 x q)
      ((contrEquiv1 dot_S1024x512_S1024x512_S1024x1024_1_1_0_0_n_n 512 rfl rfl).symm k) = ix2 x k := funext fun a => Fin.ext (by
    match a with
    | ⟨0, _⟩ => exact lhs_0 _ _
    | ⟨1, _⟩ => exact (dot_S1024x512_S1024x512_S1024x1024_1_1_0_0_n_n.lhsIdx_val_of_single rfl _ _).trans hk)
  have er : dot_S1024x512_S1024x512_S1024x1024_1_1_0_0_n_n.rhsIdx (ix2 x q)
      ((contrEquiv1 dot_S1024x512_S1024x512_S1024x1024_1_1_0_0_n_n 512 rfl rfl).symm k) = ix2 q k := funext fun a => Fin.ext (by
    match a with
    | ⟨0, _⟩ => exact rhs_0 _ _
    | ⟨1, _⟩ => exact (dot_S1024x512_S1024x512_S1024x1024_1_1_0_0_n_n.rhsIdx_val_of_single rfl _ _).trans hk)
  rw [el, er]

/-- The kernel's first stored value: zero at every row. -/
theorem pay1_apply (x : Fin 1024) : k0_pay1 (F := Ideal) (ix2 x (0 : Fin 1)) = ((0 : ℝ) : EReal) := by
  unfold k0_pay1
  simp only [shapeCast_self]
  show Ideal.ofBits .f32 0x00000000#32 = _
  rw [Ideal.ofBits_zero_f32]
  rfl

/-- The kernel's second stored value at row x: the running entry plus the sum over q of the exponential of twice the
    inner product of row x of the first block with row q of the second. -/
theorem pay2_apply (A0 A1 : Fin 1024 → Fin 512 → ℝ) (s : Fin 1024 → ℝ)
    (v3 v5 : Vec Ideal S1024x512 .f32) (v11 : Vec Ideal S1024x1 .f32)
    (h3 : ∀ x d, v3 (ix2 x d) = ((A0 x d : ℝ) : EReal))
    (h5 : ∀ q d, v5 (ix2 q d) = ((A1 q d : ℝ) : EReal))
    (h11 : ∀ x, v11 (ix2 x (0 : Fin 1)) = ((s x : ℝ) : EReal)) (x : Fin 1024) :
    k0_pay2 (F := Ideal) v3 v5 v11 (ix2 x (0 : Fin 1))
      = ((s x + ∑ q : Fin 1024, Real.exp ((∑ d : Fin 512, A0 x d * A1 q d) * 2) : ℝ) : EReal) := by
  unfold k0_pay2
  simp only [shapeCast_self]
  rw [addf_apply, h11, column_apply, rowsum_apply, EReal.coe_add, coe_sum]
  refine congrArg (((s x : ℝ) : EReal) + ·) (Finset.sum_congr rfl fun q _ => ?_)
  show Ideal.exp (FloatOps.matmul dot_S1024x512_S1024x512_S1024x1024_1_1_0_0_n_n (some .fp32) v3 v5
      (constant (F := Ideal) S1024x1024 .f32 0x00000000#32) (ix2 x q) * Ideal.ofBits .f32 0x40000000#32) = _
  rw [product_apply, ofBits_two]
  have hs : (∑ d : Fin 512, v3 (ix2 x d) * v5 (ix2 q d)) = ((∑ d : Fin 512, A0 x d * A1 q d : ℝ) : EReal) := by
    rw [coe_sum]
    exact Finset.sum_congr rfl fun d _ => by rw [h3, h5, EReal.coe_mul]
  rw [hs, ← EReal.coe_mul, Ideal.exp_coe]

end Cert.KernelIdeal.Pay

end
-- ==== Proof.KerIdx.lean ====
/-
  Rows of the stacked matrix by block: row `x` of block `i` is row `1024 · i + x`.
-/
import proofs.«150978_j66494683676972_1_alg».proof.Proof.Spec

noncomputable section

namespace Cert.Spec

/-- Row `x` of the `i`-th block of 1024 rows (reduced mod 8192, so that it is a row for all `i`, `x`). -/
def rowAt (i x : ℕ) : Fin 8192 := ⟨(1024 * i + x) % 8192, Nat.mod_lt _ (by norm_num)⟩

theorem rowAt_val (i x : ℕ) (hi : i < 8) (hx : x < 1024) : (rowAt i x).val = 1024 * i + x := by
  unfold rowAt; exact Nat.mod_eq_of_lt (by omega)

/-- The row sums of one tile: rows of block `i` against the rows of block `j`. -/
def tile (r : Rows) (i j x : ℕ) : ℝ :=
  ∑ q : Fin 1024, Real.exp ((∑ d : Fin 512, r (rowAt i x) d * r (rowAt j q.val) d) * 2)

/-- The running sum over the tiles `0 … j`. -/
def partialSum (r : Rows) (i j x : ℕ) : ℝ := ∑ j' ∈ Finset.range (j + 1), tile r i j' x

end Cert.Spec

end
-- ==== Proof.KerBlocks.lean ====
/-
  The sum over all 8192 rows regrouped as eight blocks of 1024 rows: the running sum over the tiles of a block of rows,
  once the last tile is in, is the whole row sum.
-/
import proofs.«150978_j66494683676972_1_alg».proof.Proof.KerIdx

noncomputable section

namespace Cert.Spec

open Finset

/-- Row b of block a, as the pair (a, b) sits in the range of all rows. -/
theorem rowAt_eq_prod (a : Fin 8) (b : Fin 1024) :
    (finProdFinEquiv (m := 8) (n := 1024) (a, b) : Fin 8192) = rowAt a.val b.val := by
  refine Fin.ext ?_
  rw [rowAt_val a.val b.val a.isLt b.isLt]
  show b.val + 1024 * a.val = 1024 * a.val + b.val
  omega

/-- The running sum after the first tile. -/
theorem partialSum_zero (r : Rows) (i x : ℕ) : partialSum r i 0 x = 0 + tile r i 0 x := by
  unfold partialSum
  rw [Finset.sum_range_one, zero_add]

/-- One more tile. -/
theorem partialSum_succ (r : Rows) (i j x : ℕ) : partialSum r i (j + 1) x = partialSum r i j x + tile r i (j + 1) x := by
  unfold partialSum
  rw [Finset.sum_range_succ]

/-- After the eighth tile the running sum is the sum over every row. -/
theorem partialSum_last (r : Rows) (i x : ℕ) (hi : i < 8) (hx : x < 1024) :
    partialSum r i 7 x = rowSum r (rowAt i x) := by
  unfold partialSum rowSum tile dot
  symm
  calc ∑ j : Fin 8192, Real.exp ((∑ d : Fin 512, r (rowAt i x) d * r j d) * 2)
      = ∑ ab : Fin 8 × Fin 1024,
          Real.exp ((∑ d : Fin 512, r (rowAt i x) d * r (finProdFinEquiv (m := 8) (n := 1024) ab : Fin 8192) d) * 2) :=
        (Equiv.sum_comp (finProdFinEquiv (m := 8) (n := 1024))
          (fun j : Fin 8192 => Real.exp ((∑ d : Fin 512, r (rowAt i x) d * r j d) * 2))).symm
    _ = ∑ a : Fin 8, ∑ b : Fin 1024,
          Real.exp ((∑ d : Fin 512, r (rowAt i x) d * r (finProdFinEquiv (m := 8) (n := 1024) (a, b) : Fin 8192) d) * 2) :=
        Fintype.sum_prod_type _
    _ = ∑ j' ∈ Finset.range (7 + 1), ∑ q : Fin 1024,
          Real.exp ((∑ d : Fin 512, r (rowAt i x) d * r (rowAt j' q.val) d) * 2) := by
        rw [Finset.sum_range]
        refine Finset.sum_congr rfl fun a _ => Finset.sum_congr rfl fun b _ => ?_
        rw [rowAt_eq_prod]

end Cert.Spec

end
-- ==== Proof.KerReal.lean ====
/-
  The output array of the row-sum region over the extended reals.  When the stacked rows are real, the block of
  window 0 at point t = 8·i + j is rows 1024·i … of them and the block of window 1 rows 1024·j …; the scratch after
  point t is the real running sum over the tiles 0 … j; the block stored at j = 7 is the full row sums of
  exp (2 · ⟨row, row'⟩) over all 8192 rows; and the eight stored blocks tile the output array.
-/
import proofs.«150978_j66494683676972_1_alg».proof.Proof.KerValue
import proofs.«150978_j66494683676972_1_alg».proof.Proof.KerPay
import proofs.«150978_j66494683676972_1_alg».proof.Proof.KerBlocks

-- membership in a rectangle of these extents recurses once per coordinate of the long axes
set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Spec ValueIdx

variable (m : (ℓ : Loc nD τ sig) → Buf (Elt Ideal) ℓ) (c : Dev nD) (R : Cert.Spec.Rows)

/-! ## Where the blocks sit -/

theorem idx0 : ∀ t : Fin cfg0.N, win0_0.index t 0 = t.val / 8 ∧ win0_0.index t 1 = 0 :=
  (by decide +kernel : ∀ t : Fin grid0.N, win0_0.index t 0 = t.val / 8 ∧ win0_0.index t 1 = 0)
theorem idx1 : ∀ t : Fin cfg0.N, win0_1.index t 0 = t.val % 8 ∧ win0_1.index t 1 = 0 :=
  (by decide +kernel : ∀ t : Fin grid0.N, win0_1.index t 0 = t.val % 8 ∧ win0_1.index t 1 = 0)
theorem idx2 : ∀ t : Fin cfg0.N, win0_2.index t 0 = t.val / 8 ∧ win0_2.index t 1 = 0 :=
  (by decide +kernel : ∀ t : Fin grid0.N, win0_2.index t 0 = t.val / 8 ∧ win0_2.index t 1 = 0)

variable (hV : ∀ (p : Fin 8192) (q : Fin 512), V m c main_v10 (ix2 p q) = ((R p q : ℝ) : EReal))

include hV in
/-- Window 0's block at point t is rows 1024·(t / 8) … of the stacked rows. -/
theorem iblk0_apply (t : Fin cfg0.N) (x : Fin 1024) (d : Fin 512) :
    (iblk m c 0 t : Vec Ideal S1024x512 .f32) (ix2 x d) = ((R (rowAt (t.val / 8) x.val) d : ℝ) : EReal) := by
  have hN : t.val < 64 := lt_of_lt_of_eq t.isLt (show cfg0.N = 64 from N_0)
  have hi := idx0 t
  unfold iblk
  rw [View.read_apply]
  show V m c main_v10 _ = _
  rw [← hV]
  congr 1
  funext a
  apply Fin.ext
  match a with
  | ⟨0, _⟩ =>
    show win0_0.index t 0 * 1024 + 1 * x.val = (rowAt (t.val / 8) x.val).val
    rw [hi.1, rowAt_val _ _ (by omega) x.isLt]; omega
  | ⟨1, _⟩ =>
    show win0_0.index t 1 * 512 + 1 * d.val = d.val
    rw [hi.2]; omega

include hV in
/-- Window 1's block at point t is rows 1024·(t % 8) …. -/
theorem iblk1_apply (t : Fin cfg0.N) (x : Fin 1024) (d : Fin 512) :
    (iblk m c 1 t : Vec Ideal S1024x512 .f32) (ix2 x d) = ((R (rowAt (t.val % 8) x.val) d : ℝ) : EReal) := by
  have hi := idx1 t
  unfold iblk
  rw [View.read_apply]
  show V m c main_v10 _ = _
  rw [← hV]
  congr 1
  funext a
  apply Fin.ext
  match a with
  | ⟨0, _⟩ =>
    show win0_1.index t 0 * 1024 + 1 * x.val = (rowAt (t.val % 8) x.val).val
    rw [hi.1, rowAt_val _ _ (by omega) x.isLt]; omega
  | ⟨1, _⟩ =>
    show win0_1.index t 1 * 512 + 1 * d.val = d.val
    rw [hi.2]; omega

/-! ## The running sum is real -/

include hV in
/-- One step: a real column plus the point's tile of row sums. -/
theorem step_real (t : Fin cfg0.N) (s : Fin 1024 → ℝ) (v11 : Vec Ideal S1024x1 .f32)
    (h11 : ∀ x, v11 (ix2 x (0 : Fin 1)) = ((s x : ℝ) : EReal)) (x : Fin 1024) :
    k0_pay2 (F := Ideal) (iblk m c 0 t) (iblk m c 1 t) v11 (ix2 x (0 : Fin 1))
      = ((s x + tile R (t.val / 8) (t.val % 8) x.val : ℝ) : EReal) := by
  rw [Cert.KernelIdeal.Pay.pay2_apply (fun x d => R (rowAt (t.val / 8) x.val) d) (fun q d => R (rowAt (t.val % 8) q.val) d) s _ _ _
    (fun x d => iblk0_apply m c R hV t x d) (fun q d => iblk1_apply m c R hV t q d) h11 x]
  rfl

include hV in
/-- After point n the scratch column holds the real running sum over the tiles 0 … n % 8 of block row n / 8. -/
theorem acc_real : ∀ (n : ℕ) (h : n < cfg0.N) (x : Fin 1024),
    acc m c n h (ix2 x (0 : Fin 1)) = ((partialSum R (n / 8) (n % 8) x.val : ℝ) : EReal)
  | 0, h, x => by
    rw [acc, step_real m c R hV ⟨0, h⟩ (fun _ => 0) _ (fun x => Cert.KernelIdeal.Pay.pay1_apply x) x]
    show ((0 + tile R (0 / 8) (0 % 8) x.val : ℝ) : EReal) = _
    rw [show (0 : ℕ) / 8 = 0 from rfl, show (0 : ℕ) % 8 = 0 from rfl, partialSum_zero]
  | n + 1, h, x => by
    have hN : n + 1 < 64 := lt_of_lt_of_eq h (show cfg0.N = 64 from N_0)
    rw [acc]
    by_cases h0 : (n + 1) % 8 = 0
    · rw [if_pos h0, step_real m c R hV ⟨n + 1, h⟩ (fun _ => 0) _ (fun x => Cert.KernelIdeal.Pay.pay1_apply x) x]
      show ((0 + tile R ((n + 1) / 8) ((n + 1) % 8) x.val : ℝ) : EReal) = _
      rw [h0, partialSum_zero]
    · rw [if_neg h0, step_real m c R hV ⟨n + 1, h⟩ (fun x => partialSum R (n / 8) (n % 8) x.val) _ (fun x => acc_real n _ x) x]
      show ((partialSum R (n / 8) (n % 8) x.val + tile R ((n + 1) / 8) ((n + 1) % 8) x.val : ℝ) : EReal) = _
      have e1 : (n + 1) / 8 = n / 8 := by omega
      have e2 : (n + 1) % 8 = n % 8 + 1 := by omega
      rw [e1, e2, partialSum_succ]

/-! ## The output array -/

/-- The output array as one function of the rows: entry p is the full row sum of row p. -/
def G : Buf (Elt Ideal) ((cfg0.win 2).arr.view.loc (c : Thread nD τ)) :=
  fun i => ((rowSum R ⟨(i 0).val, (i 0).isLt⟩ : ℝ) : EReal)

include hV in
/-- What a point with j = 7 writes back is its block of that function. -/
theorem flushed_eq (t : Fin cfg0.N) (hf : (cfg0.win 2).flush t = true) :
    (dats m 0 c).flushed 2 t = ((cfg0.win 2).blk t).view.read (Elt Ideal) (G c R) := by
  have h7 : t.val % 8 = 7 := (flush0_2 t).mp hf
  have hN : t.val < 64 := lt_of_lt_of_eq t.isLt (show cfg0.N = 64 from N_0)
  show (cfg0.win 2).cut (grid0.coords t) ((dats m 0 c).after 2 t) = _
  rw [after0_2, outsAt_fst m c t h7]
  funext y
  obtain ⟨x, z, rfl⟩ : ∃ (x : Fin 1024) (z : Fin 1), y = ix2 x z := ⟨y 0, y 1, eq_ix2 y⟩
  obtain rfl : z = 0 := Subsingleton.elim _ _
  rw [View.read_apply]
  show acc m c t.val t.isLt (ix2 x (0 : Fin 1)) = G c R _
  rw [acc_real m c R hV, h7, partialSum_last R _ _ (by omega) x.isLt]
  unfold G
  congr 2
  apply Fin.ext
  show (rowAt (t.val / 8) x.val).val = win0_2.index t 0 * 1024 + 1 * x.val
  rw [(idx2 t).1, rowAt_val _ _ (by omega) x.isLt]; omega

theorem mem_blk (t : Fin cfg0.N) (i : S8192x1.Idx) :
    i ∈ ((cfg0.win 2).blk t).view.set ↔ ∀ a : Fin 2, win0_2.index t a * S1024x1.size a ≤ (i a).val ∧ (i a).val < win0_2.index t a * S1024x1.size a + S1024x1.size a := by
  show i ∈ ((View.whole main_v11).slice (win0_2.rect t)).set ↔ _
  rw [View.set_slice_whole, Rect.mem_set_unit]
  exact Iff.rfl

include hV in
/-- The eight stored blocks tile the output array: it ends holding the full row sums. -/
theorem final_o : (dats m 0 c).arrAt 2 cfg0.N = G c R :=
  (dats m 0 c).arrAt_eq_of_cover 2 (G c R) (flushed_eq m c R hV) fun i => by
    have hi0 : (i 0).val < 8192 := (i 0).isLt
    have hi1 : (i 1).val < 1 := (i 1).isLt
    have hN : cfg0.N = 64 := N_0
    refine ⟨⟨8 * ((i 0).val / 1024) + 7, by omega⟩, (flush0_2 _).mpr (by dsimp only; omega), ?_⟩
    rw [mem_blk]
    have hi := idx2 ⟨8 * ((i 0).val / 1024) + 7, by omega⟩
    intro a
    match a with
    | ⟨0, _⟩ =>
      show win0_2.index _ 0 * 1024 ≤ (i 0).val ∧ (i 0).val < win0_2.index _ 0 * 1024 + 1024
      rw [hi.1]; dsimp only; omega
    | ⟨1, _⟩ =>
      show win0_2.index _ 1 * 1 ≤ (i 1).val ∧ (i 1).val < win0_2.index _ 1 * 1 + 1
      rw [hi.2]; omega

include hV in
/-- Entry p of the output array is the full row sum of row p. -/
theorem rowsums (p : Fin 8192) :
    (dats m 0 c).arrAt 2 cfg0.N (ix2 p (0 : Fin 1)) = ((rowSum R p : ℝ) : EReal) := by
  rw [final_o m c R hV]
  rfl

end Cert.KernelIdeal.Acc

end
-- ==== Proof.KerWRuns.lean ====
/-
  What the three cases of the row-sum kernel's body share.  The kernel walks an 8 × 8 grid: at point (i, j) it
  holds rows 1024·i … of the stacked unit rows (window 0) and rows 1024·j … (window 1), adds to a scratch column
  the row sums of exp (2 · A Bᵀ) of the two blocks, having zeroed the scratch when j = 0, and when j = 7 copies
  the scratch into the output block i.  Here: the contents of the buffers when the region is entered, the two
  branch conditions in closed form over the grid, where the output window is idle, and the names of the staging
  and scratch buffers.
-/
import proofs.«150978_j66494683676972_1_alg».proof.Proof.Gen.Kernel.Launch
import proofs.«150978_j66494683676972_1_alg».proof.Proof.Gen.Kernel.Skeleton
import proofs.«150978_j66494683676972_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the region -/

/-- The buffers of core `c` when the region is entered: after the twenty-one host operations before it. -/
abbrev V0 (c : Dev nD) : Valuation τ sig (Elt F) :=
  StableHlo.after (List.flatten [hostOps0, hostOps0_1, hostOps0_2, hostOps0_3]) (fun b => m (c, b))
/-- The same read at a TensorCore reference. -/
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor

/-- @main is the host operations before the region, the region, the host operations after it: it reduces to the
    region continued by the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3] [hostOps1]
    ⟨hostOps0_sub, hostOps0_1_sub, hostOps0_2_sub, hostOps0_3_sub⟩
    (by simp only [List.Forall]; repeat' constructor) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not: unfetched, the block
    index has not moved. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- "j = 0", as the body computes it from the grid coordinates. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "j = 7". -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from j = 7 the body stores nothing into the output block and the block is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The staging and scratch buffers -/

/-- One staging buffer of the output window, through which its contents are stated. -/
abbrev VO0_2 : View sig .tc .vmem S1024x1 .f32 := (Memref.whole cc0_stg2_0 : Memref sig .tc .vmem S1024x1 .f32).view
abbrev ms0_0 (t : Fin cfg0.N) : Memref sig .tc .vmem S1024x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
/-- The scratch column the running row sums live in. -/
abbrev scM0_0 : Memref sig .tc .vmem S1024x1 .f32 := Memref.whole cc0_scratch0
abbrev VS0_0 : View sig .tc .vmem S1024x1 .f32 := scM0_0.view

/-- What the region hands the body besides the windows: the scratch at some contents and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Acc

end
-- ==== Proof.KerWRunA.lean ====
/-
  The body at a point with j = 0 (and j ≠ 7): it zeroes the scratch column, adds the tile's row sums to it, and
  leaves the output block untouched.  The pieces the scratch ends with are found by running the body.
-/
import proofs.«150978_j66494683676972_1_alg».proof.Proof.KerWRuns

-- membership in a rectangle of these extents recurses once per coordinate of the long axes
set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole buffers — the two input blocks at `x0`, `x1`, the output block at `xi2` (handed back untouched), the
    scratch at anything — the body runs, and leaves the scratch with the pieces `LS0` written. -/
noncomputable def kernelRun0_A (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i)
    (x0 : Vec F S1024x512 .f32) (x1 : Vec F S1024x512 .f32) :
    Σ' (L2 : List (View.Piece (Elt F) S1024x1 .f32)), { LS0 : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__rowsum_exp_kernel i arg2 harg2 arg3 harg3 arg4 harg4 arg5 harg5) K } := by
  refine ⟨[], ?_, fun xi2 E K => ?run⟩
  case run =>
    simp only [cc0__rowsum_exp_kernel_eq_skeleton]; unfold cc0__rowsum_exp_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Acc

end
-- ==== Proof.KerWRunB.lean ====
/-
  The body at a point with 0 < j < 7: it adds the tile's row sums to the scratch column, which holds what the
  point before left, and leaves the output block untouched.
-/
import proofs.«150978_j66494683676972_1_alg».proof.Proof.KerWRunA

-- membership in a rectangle of these extents recurses once per coordinate of the long axes
set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole buffers — the input blocks at `x0`, `x1`, the output block at `xi2` (handed back untouched), the
    scratch at `xs0` — the body runs, and leaves the scratch with the pieces `LS0` written. -/
noncomputable def kernelRun0_B (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i)
    (x0 : Vec F S1024x512 .f32) (x1 : Vec F S1024x512 .f32) (xs0 : Vec F S1024x1 .f32) :
    Σ' (L2 : List (View.Piece (Elt F) S1024x1 .f32)), { LS0 : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__rowsum_exp_kernel i arg2 harg2 arg3 harg3 arg4 harg4 arg5 harg5) K } := by
  refine ⟨[], ?_, fun xi2 E K => ?run⟩
  case run =>
    simp only [cc0__rowsum_exp_kernel_eq_skeleton]; unfold cc0__rowsum_exp_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Acc

end
-- ==== Proof.KerWRunC.lean ====
/-
  The body at a point with j = 7: it adds the tile's row sums to the scratch column, which holds what the point
  before left, and stores the finished column into the output block.
-/
import proofs.«150978_j66494683676972_1_alg».proof.Proof.KerWRunB

-- membership in a rectangle of these extents recurses once per coordinate of the long axes
set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole buffers — the input blocks at `x0`, `x1`, the output block at anything, the scratch at `xs0` — the
    body runs, and leaves the output block with the pieces `L2` and the scratch with the pieces `LS0` written. -/
noncomputable def kernelRun0_C (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 : Vec F S1024x512 .f32) (x1 : Vec F S1024x512 .f32) (xs0 : Vec F S1024x1 .f32) :
    Σ' (L2 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__rowsum_exp_kernel i arg2 harg2 arg3 harg3 arg4 harg4 arg5 harg5) K } := by
  refine ⟨?_, ?_, fun E K => ?run⟩
  case run =>
    simp only [cc0__rowsum_exp_kernel_eq_skeleton]; unfold cc0__rowsum_exp_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Acc

end
-- ==== Proof.KerWFrame.lean ====
/-
  The row-sum kernel point by point: what the scratch column and the output block hold after each grid point, the
  region's proof data, and the body's obligation at every point.  At point t = 8·i + j the scratch holds the sum
  over the tiles 0 … j of the tile's row sums of exp (2 · A Bᵀ); the output block i is stored at j = 7.
-/
import proofs.«150978_j66494683676972_1_alg».proof.Proof.KerWRunC

-- membership in a rectangle of these extents recurses once per coordinate of the long axes
set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

theorem scoverA (c : Dev nD) (t : Fin cfg0.N) (hc0 : cond0_0 (grid0.coords t)) (hc1 : ¬cond0_1 (grid0.coords t))
    (x0 x1 : Vec F S1024x512 .f32) (y : S1024x1.Idx) : ∃ pc ∈ (kernelRun0_A c (grid0.coords t) (ms0_0 t) (hs0_0 t) (ms0_1 t) (hs0_1 t) (ms0_2 t) (hs0_2 t) scM0_0 (Memref.isWhole_whole _) hc0 hc1 x0 x1).2.1, y ∈ pc.1.set :=
  View.cover_of_tiledL (kernelRun0_A c (grid0.coords t) (ms0_0 t) (hs0_0 t) (ms0_1 t) (hs0_1 t) (ms0_2 t) (hs0_2 t) scM0_0 (Memref.isWhole_whole _) hc0 hc1 x0 x1).2.1 S1024x1.size (by sl_kernel_rfl) y

/-- The scratch after a point with j = 0: its pieces read back. -/
def soutA (c : Dev nD) (t : Fin cfg0.N) (hc0 : cond0_0 (grid0.coords t)) (hc1 : ¬cond0_1 (grid0.coords t))
    (x0 x1 : Vec F S1024x512 .f32) : Vec F S1024x1 .f32 :=
  VS0_0.read (Elt F) (VS0_0.writes (Elt F) VS0_0.junk (kernelRun0_A c (grid0.coords t) (ms0_0 t) (hs0_0 t) (ms0_1 t) (hs0_1 t) (ms0_2 t) (hs0_2 t) scM0_0 (Memref.isWhole_whole _) hc0 hc1 x0 x1).2.1)

theorem scoverB (c : Dev nD) (t : Fin cfg0.N) (hc0 : ¬cond0_0 (grid0.coords t)) (hc1 : ¬cond0_1 (grid0.coords t))
    (x0 x1 : Vec F S1024x512 .f32) (xs0 : Vec F S1024x1 .f32) (y : S1024x1.Idx) : ∃ pc ∈ (kernelRun0_B c (grid0.coords t) (ms0_0 t) (hs0_0 t) (ms0_1 t) (hs0_1 t) (ms0_2 t) (hs0_2 t) scM0_0 (Memref.isWhole_whole _) hc0 hc1 x0 x1 xs0).2.1, y ∈ pc.1.set :=
  View.cover_of_tiledL (kernelRun0_B c (grid0.coords t) (ms0_0 t) (hs0_0 t) (ms0_1 t) (hs0_1 t) (ms0_2 t) (hs0_2 t) scM0_0 (Memref.isWhole_whole _) hc0 hc1 x0 x1 xs0).2.1 S1024x1.size (by sl_kernel_rfl) y

/-- The scratch after a point with 0 < j < 7. -/
def soutB (c : Dev nD) (t : Fin cfg0.N) (hc0 : ¬cond0_0 (grid0.coords t)) (hc1 : ¬cond0_1 (grid0.coords t))
    (x0 x1 : Vec F S1024x512 .f32) (xs0 : Vec F S1024x1 .f32) : Vec F S1024x1 .f32 :=
  VS0_0.read (Elt F) (VS0_0.writes (Elt F) VS0_0.junk (kernelRun0_B c (grid0.coords t) (ms0_0 t) (hs0_0 t) (ms0_1 t) (hs0_1 t) (ms0_2 t) (hs0_2 t) scM0_0 (Memref.isWhole_whole _) hc0 hc1 x0 x1 xs0).2.1)

theorem scoverC (c : Dev nD) (t : Fin cfg0.N) (hc0 : ¬cond0_0 (grid0.coords t)) (hc1 : cond0_1 (grid0.coords t))
    (x0 x1 : Vec F S1024x512 .f32) (xs0 : Vec F S1024x1 .f32) (y : S1024x1.Idx) : ∃ pc ∈ (kernelRun0_C c (grid0.coords t) (ms0_0 t) (hs0_0 t) (ms0_1 t) (hs0_1 t) (ms0_2 t) (hs0_2 t) scM0_0 (Memref.isWhole_whole _) hc0 hc1 x0 x1 xs0).2.1, y ∈ pc.1.set :=
  View.cover_of_tiledL (kernelRun0_C c (grid0.coords t) (ms0_0 t) (hs0_0 t) (ms0_1 t) (hs0_1 t) (ms0_2 t) (hs0_2 t) scM0_0 (Memref.isWhole_whole _) hc0 hc1 x0 x1 xs0).2.1 S1024x1.size (by sl_kernel_rfl) y

/-- The scratch after a point with j = 7. -/
def soutC (c : Dev nD) (t : Fin cfg0.N) (hc0 : ¬cond0_0 (grid0.coords t)) (hc1 : cond0_1 (grid0.coords t))
    (x0 x1 : Vec F S1024x512 .f32) (xs0 : Vec F S1024x1 .f32) : Vec F S1024x1 .f32 :=
  VS0_0.read (Elt F) (VS0_0.writes (Elt F) VS0_0.junk (kernelRun0_C c (grid0.coords t) (ms0_0 t) (hs0_0 t) (ms0_1 t) (hs0_1 t) (ms0_2 t) (hs0_2 t) scM0_0 (Memref.isWhole_whole _) hc0 hc1 x0 x1 xs0).2.1)

theorem coverC (c : Dev nD) (t : Fin cfg0.N) (hc0 : ¬cond0_0 (grid0.coords t)) (hc1 : cond0_1 (grid0.coords t))
    (x0 x1 : Vec F S1024x512 .f32) (xs0 : Vec F S1024x1 .f32) (y : S1024x1.Idx) : ∃ pc ∈ (kernelRun0_C c (grid0.coords t) (ms0_0 t) (hs0_0 t) (ms0_1 t) (hs0_1 t) (ms0_2 t) (hs0_2 t) scM0_0 (Memref.isWhole_whole _) hc0 hc1 x0 x1 xs0).1, y ∈ pc.1.set :=
  View.cover_of_tiledL (kernelRun0_C c (grid0.coords t) (ms0_0 t) (hs0_0 t) (ms0_1 t) (hs0_1 t) (ms0_2 t) (hs0_2 t) scM0_0 (Memref.isWhole_whole _) hc0 hc1 x0 x1 xs0).1 S1024x1.size (by sl_kernel_rfl) y

/-- The output block after a point with j = 7. -/
def outC (c : Dev nD) (t : Fin cfg0.N) (hc0 : ¬cond0_0 (grid0.coords t)) (hc1 : cond0_1 (grid0.coords t))
    (x0 x1 : Vec F S1024x512 .f32) (xs0 : Vec F S1024x1 .f32) : Vec F S1024x1 .f32 :=
  VO0_2.read (Elt F) (VO0_2.writes (Elt F) VO0_2.junk (kernelRun0_C c (grid0.coords t) (ms0_0 t) (hs0_0 t) (ms0_1 t) (hs0_1 t) (ms0_2 t) (hs0_2 t) scM0_0 (Memref.isWhole_whole _) hc0 hc1 x0 x1 xs0).1)

/-! ## Point by point -/

/-- What the output block's staging buffer and the scratch hold after the body at position `n` (a pair; away from
    j = 7 the first component is a placeholder nothing consults: the window is idle there). -/
def outsAt0 (c : Dev nD) : (n : ℕ) → n < cfg0.N → Vec F S1024x1 .f32 × Vec F S1024x1 .f32
  | 0, hn =>
    (soutA c ⟨0, hn⟩ ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩),
     soutA c ⟨0, hn⟩ ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 8 = 0 then
      if h1 : (n + 1) % 8 = 7 then False.elim (by omega)
      else
        (soutA c ⟨n + 1, hn⟩ ((hcond0_0 ⟨n + 1, hn⟩).mpr h0) (fun h => h1 ((hcond0_1 ⟨n + 1, hn⟩).mp h)) (iblk m c 0 ⟨n + 1, hn⟩) (iblk m c 1 ⟨n + 1, hn⟩),
         soutA c ⟨n + 1, hn⟩ ((hcond0_0 ⟨n + 1, hn⟩).mpr h0) (fun h => h1 ((hcond0_1 ⟨n + 1, hn⟩).mp h)) (iblk m c 0 ⟨n + 1, hn⟩) (iblk m c 1 ⟨n + 1, hn⟩))
    else
      if h1 : (n + 1) % 8 = 7 then
        (outC c ⟨n + 1, hn⟩ (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2,
         soutC c ⟨n + 1, hn⟩ (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2)
      else
        (soutB c ⟨n + 1, hn⟩ (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2,
         soutB c ⟨n + 1, hn⟩ (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2)

theorem outsAt0_A (c : Dev nD) (t : Fin cfg0.N) (h0 : t.val % 8 = 0) (h1 : ¬t.val % 8 = 7) :
    outsAt0 m c t.val t.isLt =
      (soutA c t ((hcond0_0 t).mpr h0) (fun h => h1 ((hcond0_1 t).mp h)) (iblk m c 0 t) (iblk m c 1 t),
       soutA c t ((hcond0_0 t).mpr h0) (fun h => h1 ((hcond0_1 t).mp h)) (iblk m c 0 t) (iblk m c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 m c t.val t.isLt =
      (soutB c t (fun h => h0 ((hcond0_0 t).mp h)) (fun h => h1 ((hcond0_1 t).mp h)) (iblk m c 0 t) (iblk m c 1 t) (outsAt0 m c (t.val - 1) (Nat.lt_of_le_of_lt (Nat.sub_le _ _) t.isLt)).2,
       soutB c t (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt =
      (outC c t (fun h => h0 ((hcond0_0 t).mp h)) ((hcond0_1 t).mpr h1) (iblk m c 0 t) (iblk m c 1 t) (outsAt0 m c (t.val - 1) (Nat.lt_of_le_of_lt (Nat.sub_le _ _) t.isLt)).2,
       soutC c t (fun h => h0 ((hcond0_0 t).mp h)) ((hcond0_1 t).mpr h1) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the scratch at anything; afterwards the
    scratch at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The proof data -/

/-- The two windows on the stacked rows hold half of that array each; the output array is held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the inputs' buffers hold their blocks; the closed forms say which case the point is in;
    the invariant hands the body the scratch at what the point before left (at anything at the first point) and
    takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h0 : t.val % 8 = 0
  · have h1 : ¬t.val % 8 = 7 := by omega
    have hc1 : ¬cond0_1 (grid0.coords t) := fun h => h1 ((hcond0_1 t).mp h)
    rw [Dat.leavesExact_idle (dats m 0 c) 2 t (idleAt0_2 t hc1) (noFlush0_2 t hc1)]
    rw [outsAt0_A m c t h0 h1]
    unfold soutA; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩⟩
      iapply ((kernelRun0_A c (grid0.coords t) _ _ _ _ _ _ _ _ ((hcond0_0 t).mpr h0) hc1 (iblk m c 0 t) (iblk m c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scoverA c t _ _ _ _)
        iexact Hg
      isplitl [Ho]; · iexact Ho
      isplitl [H0]; · iexact H0
      isplitl [H1]; · iexact H1
      iexists _; iexact H2
    · rw [PhiS_castSucc m c t, PhiS_pos m c _ _ hz]
      iintro ⟨⟨HS0, Hg⟩, Ho, ⟨%d0, H0⟩, ⟨%d1, H1⟩, ⟨%d2, H2⟩⟩
      iapply ((kernelRun0_A c (grid0.coords t) _ _ _ _ _ _ _ _ ((hcond0_0 t).mpr h0) hc1 (iblk m c 0 t) (iblk m c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scoverA c t _ _ _ _)
        iexact Hg
      isplitl [Ho]; · iexact Ho
      isplitl [H0]; · iexact H0
      isplitl [H1]; · iexact H1
      iexists _; iexact H2
  · have hc0 : ¬cond0_0 (grid0.coords t) := fun h => h0 ((hcond0_0 t).mp h)
    have hz : t.val ≠ 0 := fun e => h0 (by rw [e])
    by_cases h1 : t.val % 8 = 7
    · rw [show (dats m 0 c).leavesExact 2 t = owns (c : Thread nD τ) (ms0_2 t) fullShare ((dats m 0 c).after 2 t) from by
        unfold Dat.leavesExact; rw [liveAt0_2 t ((hcond0_1 t).mpr h1)], after0_2]
      rw [outsAt0_C m c t h0 h1]
      unfold outC soutC; (try dsimp only)
      rw [PhiS_castSucc m c t, PhiS_pos m c _ _ hz]
      iintro ⟨⟨HS0, Hg⟩, Ho, ⟨%d0, H0⟩, ⟨%d1, H1⟩, ⟨%d2, H2⟩⟩
      iapply ((kernelRun0_C c (grid0.coords t) _ _ _ _ _ _ _ _ hc0 ((hcond0_1 t).mpr h1) (iblk m c 0 t) (iblk m c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg]
      · isplitl [HS0]
        · unfold owns; iexists _; isplitr
          swap; · iexact HS0
          ipureintro; exact View.read_writes_of_cover _ _ _ _ _ (scoverC c t _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (coverC c t _ _ _ _ _)
    · have hc1 : ¬cond0_1 (grid0.coords t) := fun h => h1 ((hcond0_1 t).mp h)
      rw [Dat.leavesExact_idle (dats m 0 c) 2 t (idleAt0_2 t hc1) (noFlush0_2 t hc1)]
      rw [outsAt0_B m c t h0 h1]
      unfold soutB; (try dsimp only)
      rw [PhiS_castSucc m c t, PhiS_pos m c _ _ hz]
      iintro ⟨⟨HS0, Hg⟩, Ho, ⟨%d0, H0⟩, ⟨%d1, H1⟩, ⟨%d2, H2⟩⟩
      iapply ((kernelRun0_B c (grid0.coords t) _ _ _ _ _ _ _ _ hc0 hc1 (iblk m c 0 t) (iblk m c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scoverB c t _ _ _ _ _)
        iexact Hg
      isplitl [Ho]; · iexact Ho
      isplitl [H0]; · iexact H0
      isplitl [H1]; · iexact H1
      iexists _; iexact H2

/-- The body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 64 := N_0; omega)

end Cert.Kernel.Acc

end
-- ==== Proof.KerWLaunch.lean ====
/-
  The launch of the row-sum region inside @main.  The two input windows read ONE array, the stacked unit rows:
  each is given half of it for the region's duration, and the halves are put together again for the host
  operations that follow.  The output array comes back holding, block by block, what the body stored at the
  points with j = 7; every other buffer is what the host operations after the region make of it.
-/
import proofs.«150978_j66494683676972_1_alg».proof.Proof.KerWFrame

-- membership in a rectangle of these extents recurses once per coordinate of the long axes
set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays behind the windows -/

theorem arrImg : Finset.univ.image (Pipeline.arrRef spec0) = [main_v10, main_v11].toFinset := by decide

/-- The two distinct buffers behind the three windows. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v10) ↦{fullShare} W main_v10) ∗ (((c : Thread nD τ).loc main_v11) ↦{fullShare} W main_v11)) := by
  unfold Pipeline.arrBufs
  exact bigSep_eq_bigSepL_of_eq [main_v10, main_v11] arrImg (by decide) _

theorem share0 (c : Dev nD) : (dats m 0 c).share 0 = fullShare.left := by unfold Dat.share; dsimp only [dats]; rfl
theorem share1 (c : Dev nD) : (dats m 0 c).share 1 = fullShare.right := by unfold Dat.share; dsimp only [dats]; rfl
theorem share2 (c : Dev nD) : (dats m 0 c).share 2 = fullShare := by unfold Dat.share; rfl

/-- The windows' arrays at contents `G`, one by one: the stacked rows in two halves, the output array whole. -/
theorem arrays_eq3 (c : Dev nD) (G : (w : Fin cfg0.W) → Buf (Elt F) ((cfg0.win w).arr.view.loc (c : Thread nD τ))) :
    ((dats m 0 c).arrays G : sProp 𝕄)
      = iprop((((c : Thread nD τ).loc main_v10) ↦{fullShare.left} G 0) ∗ (((c : Thread nD τ).loc main_v10) ↦{fullShare.right} G 1)
          ∗ (((c : Thread nD τ).loc main_v11) ↦{fullShare} G 2)) := by
  unfold Dat.arrays
  rw [bigSep_W0, share0, share1, share2, (arr_whole0 0).set_eq_univ, (arr_whole0 2).set_eq_univ]

/-- At entry: each half of the stacked rows to its window. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq, arrays_eq3]
  iintro ⟨H10, H11⟩
  ihave H := (pointsTo_share (PosShare.mem_left_op_right fullShare)).1 $$ H10
  icases H with ⟨Hl, Hr⟩
  isplitl [Hl]; · iexact Hl
  isplitl [Hr]; · iexact Hr
  iexact H11

/-! ## The buffers after the region -/

open Classical in
/-- The buffers when the region is left: as entered, but the output array at what the region stored. -/
def Wexit (c : Dev nD) : Valuation τ sig (Elt F) :=
  Function.update (V0 m c) (Proc.devRef .tc main_v11) ((dats m 0 c).arrAt 2 cfg0.N)

/-- The buffers at the end: after the host operations that follow the region. -/
def Wfin (c : Dev nD) : Valuation τ sig (Elt F) := StableHlo.after hostOps1 (Wexit m c)

theorem Wexit_v11 (c : Dev nD) : Wexit m c (Proc.devRef .tc main_v11) = (dats m 0 c).arrAt 2 cfg0.N := by
  unfold Wexit; exact Function.update_self ..

theorem Wexit_of_ne (c : Dev nD) (b : Ref sig .tc) (h : b ≠ main_v11) : Wexit m c (Proc.devRef .tc b) = V m c b := by
  unfold Wexit; exact Function.update_of_ne (StableHlo.devRef_ne_of_ne h) ..

/-- The later host operations write neither array of the region. -/
theorem hostOps1_keeps (b : Ref sig .tc) (hb : b = main_v10 ∨ b = main_v11) :
    ∀ op ∈ (hostOps1 : List (HloOp τ sig (Elt F))), Proc.devRef .tc b ∉ op.writes := by
  intro op hop
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals
    rcases hb with rfl | rfl <;>
    simp only [StableHlo.nullary_writes, StableHlo.unary_writes, StableHlo.binary_writes, Finset.mem_singleton] <;>
    exact StableHlo.devRef_ne_of_ne (by decide)

theorem Wfin_v10 (c : Dev nD) : Wfin m c (Proc.devRef .tc main_v10) = V m c main_v10 := by
  unfold Wfin
  rw [StableHlo.after_of_forall_not_mem hostOps1 _ (hostOps1_keeps main_v10 (.inl rfl)), Wexit_of_ne m c main_v10 (by decide)]

theorem Wfin_v11 (c : Dev nD) : Wfin m c (Proc.devRef .tc main_v11) = (dats m 0 c).arrAt 2 cfg0.N := by
  unfold Wfin
  rw [StableHlo.after_of_forall_not_mem hostOps1 _ (hostOps1_keeps main_v11 (.inr rfl)), Wexit_v11]

/-- The unscoped buffers held at a valuation: the two arrays of the region and the rest. -/
theorem held_out (c : Dev nD) (W : Valuation τ sig (Elt F)) :
    (StableHlo.held (c : Thread nD τ) (Pipeline.ucRefs τ sig) W : sProp 𝕄)
      ⊢ iprop((((c : Thread nD τ).loc main_v10) ↦{fullShare} W (Proc.devRef .tc main_v10)) ∗ (((c : Thread nD τ).loc main_v11) ↦{fullShare} W (Proc.devRef .tc main_v11))
          ∗ Pipeline.unscopedRestP (Ix := Unit) (Name := ℕ) (U := UR sig nD τ) (Lvl := ℕ) Pipeline.Prefetch.none spec0 c (fun b => W (Proc.devRef .tc b))) := by
  rw [← Pipeline.unscopedBufs_held (Ix := Unit) (Name := ℕ) (U := UR sig nD τ) (Lvl := ℕ) c W,
    Pipeline.unscopedBufs_split₀ cfgs 0 winFacts₀0.arr_unscoped c _, arrBufs_eq, Pipeline.unscopedRestP_none]
  iintro ⟨⟨Ha, Hb⟩, Hr⟩
  isplitl [Ha]; · iexact Ha
  isplitl [Hb]; · iexact Hb
  iexact Hr

theorem held_in (c : Dev nD) (W : Valuation τ sig (Elt F)) :
    iprop((((c : Thread nD τ).loc main_v10) ↦{fullShare} W (Proc.devRef .tc main_v10)) ∗ (((c : Thread nD τ).loc main_v11) ↦{fullShare} W (Proc.devRef .tc main_v11))
          ∗ Pipeline.unscopedRestP (Ix := Unit) (Name := ℕ) (U := UR sig nD τ) (Lvl := ℕ) Pipeline.Prefetch.none spec0 c (fun b => W (Proc.devRef .tc b)))
      ⊢ (StableHlo.held (c : Thread nD τ) (Pipeline.ucRefs τ sig) W : sProp 𝕄) := by
  rw [← Pipeline.unscopedBufs_held (Ix := Unit) (Name := ℕ) (U := UR sig nD τ) (Lvl := ℕ) c W,
    Pipeline.unscopedBufs_split₀ cfgs 0 winFacts₀0.arr_unscoped c _, arrBufs_eq, Pipeline.unscopedRestP_none]
  iintro ⟨Ha, Hb, Hr⟩
  isplitr [Hr]
  · isplitl [Ha]; · iexact Ha
    iexact Hb
  iexact Hr

/-- Away from the output array the exit valuation is the entry one. -/
theorem rest_exit (c : Dev nD) :
    (Pipeline.unscopedRestP (Ix := Unit) (Name := ℕ) (U := UR sig nD τ) (Lvl := ℕ) Pipeline.Prefetch.none spec0 c (fun b => Wexit m c (Proc.devRef .tc b)) : sProp 𝕄)
      = Pipeline.unscopedRestP Pipeline.Prefetch.none spec0 c (V m c) := by
  unfold Pipeline.unscopedRestP
  refine bigSep_congr fun b hb => ?_
  dsimp only
  rw [Wexit_of_ne m c b fun e => ?_]
  subst e
  exact (Finset.mem_sdiff.mp (Finset.mem_sdiff.mp hb).1).2 (Finset.mem_image.mpr ⟨2, Finset.mem_univ _, rfl⟩)

theorem sfx_sub : ∀ ops ∈ ([hostOps1] : List (List (HloOp τ sig (Elt F)))), ∀ op ∈ ops, op.bufs ⊆ Pipeline.ucRefs τ sig := by
  intro ops hops op hop
  simp only [List.mem_cons, List.mem_nil_iff, or_false] at hops
  rcases hops with rfl
  exact Pipeline.sub_ucRefs op ((List.forall_iff_forall_mem.mp hostOps1_sub) op hop)

theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

theorem arrAt0_N (c : Dev nD) : (dats m 0 c).arrAt 0 cfg0.N = V m c main_v10 :=
  ((dats m 0 c).arrAt_in 0 rfl _).trans (A_eq m c 0)
theorem arrAt1_N (c : Dev nD) : (dats m 0 c).arrAt 1 cfg0.N = V m c main_v10 :=
  ((dats m 0 c).arrAt_in 1 rfl _).trans (A_eq m c 1)

-- a rule stated for any thread, applied at the TensorCore thread, unifies only when unification may unfold plain
-- definitions in a metavariable's type
set_option maxHeartbeats 8000000 in
set_option backward.isDefEq.respectTransparency.types false in
/-- The host operations after the region: the halves of the stacked rows put together, the operations run over all
    the unscoped buffers, the halves dealt out again. -/
theorem htail (c : Dev nD) (Q' : PUnit → sProp 𝕄) :
    iprop((iprop((dats m 0 c).arrays ((dats m 0 c).arrAt · cfg0.N)
              ∗ Pipeline.unscopedRestP (Ix := Unit) (Name := ℕ) (U := UR sig nD τ) (Lvl := ℕ) Pipeline.Prefetch.none spec0 c (fun b => Wfin m c (Proc.devRef .tc b))) -∗ Q' ⟨⟩)
        ∗ boundary (c : Thread nD τ) ∗ (dats m 0 c).arrays ((dats m 0 c).arrAt · cfg0.N)
        ∗ Pipeline.unscopedRestP (Ix := Unit) (Name := ℕ) (U := UR sig nD τ) (Lvl := ℕ) Pipeline.Prefetch.none spec0 c (V m c))
      ⊢ wp frame (wpE (defs (F := F)) (Variants.lift Variants.none) (c : Thread nD τ) none) Set.univ (Pipeline.chain [StableHlo.seq hostOps1]) Q' := by
  rw [arrays_eq3, arrAt0_N, arrAt1_N, ← rest_exit m c, ← Wexit_v11 m c]
  iintro ⟨Hk, Hb, ⟨Hl, Hr, H11⟩, HZ⟩
  ihave H10 := (pointsTo_share (PosShare.mem_left_op_right fullShare)).2 $$ [Hl Hr]
  · isplitl [Hl] <;> iassumption
  ihave Hheld := (held_in c (Wexit m c)) $$ [H10 H11 HZ]
  · isplitl [H10]; · rw [Wexit_of_ne m c main_v10 (by decide)]; iexact H10
    isplitl [H11] <;> iassumption
  rw [show (Pipeline.chain [StableHlo.seq (hostOps1 (F := F))] : Prog _ PUnit) = Pipeline.chain (([hostOps1].map StableHlo.seq) ++ []) from rfl]
  iapply (Pipeline.wp_seqs_then (fun q => (cfgs q).toPCfg (Val := Elt F)) defs₀ Variants.none c (Pipeline.ucRefs τ sig) [] [hostOps1] sfx_sub sfx_fresh (Wexit m c)) $$ [Hb Hheld]
  · isplitl [Hb] <;> iassumption
  iintro ⟨Hb, Hheld⟩
  rw [Pipeline.chain_nil, wp_pure]
  imodintro
  iapply Hk
  rw [List.flatten_singleton]
  ihave Hp := (held_out c (StableHlo.after hostOps1 (Wexit m c))) $$ Hheld
  icases Hp with ⟨H10, H11, HZ⟩
  rw [show StableHlo.after hostOps1 (Wexit m c) = Wfin m c from rfl, Wfin_v10, Wfin_v11, Wexit_v11]
  ihave H := (pointsTo_share (PosShare.mem_left_op_right fullShare)).1 $$ H10
  icases H with ⟨Hl, Hr⟩
  isplitr [HZ]
  · isplitl [Hl]; · iexact Hl
    isplitl [Hr]; · iexact Hr
    iexact H11
  iexact HZ

/-! ## The run -/

/-- What every final memory satisfies: the region's arrays at what the proof data computes, every other unscoped
    buffer at what the later host operations make of it. -/
def Post (r : PUnit × MemSt nD τ sig (Elt F)) : Prop :=
  ∀ c : Dev nD, (∀ w, r.2.mem (((cfgs 0).spec w).arr.view.loc (c : Thread nD τ)) = (dats m 0 c).arrAt w cfg0.N)
    ∧ ∀ b ∈ Pipeline.restRefsP sig Pipeline.Prefetch.none spec0, r.2.mem ((c : Thread nD τ).loc b) = Wfin m c (Proc.devRef .tc b)

set_option maxHeartbeats 8000000 in
set_option backward.isDefEq.respectTransparency.types false in
/-- From any memory with zero counters every weakly fair execution of @main terminates, nothing faulting, in a
    memory satisfying `Post`. -/
theorem run_main : θ_run defs (onTc (τ := τ) (main (F := F))) (s₀ m ρ) (Post m) := by
  classical
  exact Pipeline.θ_run_region_pf_tail (fun q => (cfgs q).toPCfg (Val := Elt F)) (fun q => (cfgs q).toPCfg_adm) (dats m) () cellOf_inj 0
    winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none) (hsplit := hsplit m) (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (fun b => Wfin m c (Proc.devRef .tc b)))
    (hX := fun c => by
      iintro ⟨HU, -, -, -, Hp, -⟩; imodintro
      isplitl [Hp]; · iexists _; iexact Hp
      iexact HU)
    (hin := fun c => (show _ ⊢ Pipeline.ΦA spec0 c from by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := fun c Q' => htail m c Q')
    (QY := fun c s => ∀ b ∈ Pipeline.restRefsP sig Pipeline.Prefetch.none spec0, s.mem ((c : Thread nD τ).loc b) = Wfin m c (Proc.devRef .tc b))
    (hY := fun c s' => by
      iintro ⟨-, HU, HSI⟩
      unfold Pipeline.unscopedRestP
      imodintro
      iapply (pointsTo_read_all (Pipeline.restRefsP sig Pipeline.Prefetch.none spec0) (fun b => (c : Thread nD τ).loc b) (fun b => Wfin m c (Proc.devRef .tc b)) s')
      isplitl [HU] <;> iassumption)
    (hQ := fun s h c => ⟨(h c).1, (h c).2.2⟩)

end Cert.Kernel.Acc

end
-- ==== Proof.KerWEntry.lean ====
/-
  The first program, as printed over machine words, around its kernel region: the two inputs come through the whole
  program unchanged.

  No host operation, before or after the region, writes an input, and the region writes only its output array, so
  both inputs end as they began.
-/
import proofs.«150978_j66494683676972_1_alg».proof.Proof.KerWLaunch

-- membership in a rectangle of these extents recurses once per coordinate of the long axes
set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- No host operation before the region writes the first input. -/
theorem V_arg0 (c : Dev nD) : V m c main_arg0 = m ((c : Thread nD τ).loc main_arg0) := by
  dsimp only [V, V0]
  simp only [hostOps0, hostOps0_1, hostOps0_2, hostOps0_3, List.flatten_cons, List.flatten_nil, List.append_nil,
    List.cons_append, List.nil_append]
  after_results_simp

/-- Nor the second. -/
theorem V_arg1 (c : Dev nD) : V m c main_arg1 = m ((c : Thread nD τ).loc main_arg1) := by
  dsimp only [V, V0]
  simp only [hostOps0, hostOps0_1, hostOps0_2, hostOps0_3, List.flatten_cons, List.flatten_nil, List.append_nil,
    List.cons_append, List.nil_append]
  after_results_simp

/-! ## The inputs at the end -/

/-- The host operations after the region write neither input. -/
theorem hostOps1_keeps_args (b : Ref sig .tc) (hb : b = main_arg0 ∨ b = main_arg1) :
    ∀ op ∈ (hostOps1 : List (HloOp τ sig (Elt F))), Proc.devRef .tc b ∉ op.writes := by
  intro op hop
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals
    rcases hb with rfl | rfl <;>
    simp only [StableHlo.nullary_writes, StableHlo.unary_writes, StableHlo.binary_writes, Finset.mem_singleton] <;>
    exact StableHlo.devRef_ne_of_ne (by decide)

theorem Wfin_arg0 (c : Dev nD) : Wfin m c (Proc.devRef .tc main_arg0) = m ((c : Thread nD τ).loc main_arg0) := by
  unfold Wfin
  rw [StableHlo.after_of_forall_not_mem hostOps1 _ (hostOps1_keeps_args main_arg0 (.inl rfl)),
    Wexit_of_ne m c main_arg0 (by decide), V_arg0]

theorem Wfin_arg1 (c : Dev nD) : Wfin m c (Proc.devRef .tc main_arg1) = m ((c : Thread nD τ).loc main_arg1) := by
  unfold Wfin
  rw [StableHlo.after_of_forall_not_mem hostOps1 _ (hostOps1_keeps_args main_arg1 (.inr rfl)),
    Wexit_of_ne m c main_arg1 (by decide), V_arg1]

/-- An input is unscoped and is no window's array: it bypasses the region. -/
theorem arg0_rest : main_arg0 ∈ Pipeline.restRefsP sig Pipeline.Prefetch.none spec0 := by decide
theorem arg1_rest : main_arg1 ∈ Pipeline.restRefsP sig Pipeline.Prefetch.none spec0 := by decide

/-! ## The frame -/

/-- From any memory with zero counters every weakly fair execution of @main terminates, nothing faulting, and both
    inputs end as they began. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono
    (fun _ h c => ⟨((h c).2 main_arg0 arg0_rest).trans (Wfin_arg0 m c), ((h c).2 main_arg1 arg1_rest).trans (Wfin_arg1 m c)⟩)
    (run_main m ρ)

end Cert.Kernel.Acc

end
-- ==== Proof.RefValue.lean ====
/-
  The second program read at the extended reals. Its stacked unit rows as one term of the two arguments; then, for any
  real matrix those rows equal entry by entry, the value of every later stage: the product matrix is the matrix of
  inner products, each of the six gathers reads one diagonal of it (the index arrays are small nonnegative numbers,
  so neither the wrap of negative indices nor the clamp changes them), the three pairs of diagonals feed three sums of
  exponentials, the masked sum runs over every off-diagonal pair, and so the quotient under the logarithm is the quotient
  of the two real sums.
-/
import proofs.«150978_j66494683676972_1_alg».proof.Proof.Gen.ReferenceIdeal.Read
import proofs.«150978_j66494683676972_1_alg».proof.Proof.Spec
import proofs.«150978_j66494683676972_1_alg».proof.Proof.RefLib

noncomputable section

open scoped BigOperators

namespace Cert.ReferenceIdeal.RefValue

open Cert.ReferenceIdeal Cert.ReferenceIdeal.Gen Cert.ReferenceIdeal.Read Idealize.ShloMosaic Idealize.ShloMosaic.ValueIdx

/-- An input array. -/
abbrev Arr : Type := FVec Ideal S4096x512 .f32

/-! ## The stacked unit rows -/

/-- The Euclidean norm of every row, as a column. -/
def refNorm (a : Arr) : FVec Ideal S4096x1 .f32 :=
  Host.sqrt (broadcastInDim S4096x1 ![0] bcast_S4096_S4096x1_0
    (Host.reduceAdd (mulf a a) (constant S_ .f32 0x00000000#32) reducesTo_S4096x512_S4096_d1 h_S_))

/-- Every row divided by the larger of its norm and the constant. -/
def refUnit (a : Arr) : Arr :=
  Host.divf a (broadcastInDim S4096x512 ![0, 1] bcast_S4096x1_S4096x512_0_1
    (maximumf (refNorm a) (broadcastInDim S4096x1 ![] bcast_S_S4096x1 (constant S_ .f32 0x2B8CBCCC#32))))

/-- The two sets of unit rows, stacked: the second program's tenth value as a function of its two arguments. -/
def refRep (a0 a1 : Arr) : FVec Ideal S8192x512 .f32 :=
  concatenate S8192x512 0 [⟨S4096x512, refUnit a0⟩, ⟨S4096x512, refUnit a1⟩] concatenates_S4096x512_S4096x512_S8192x512_d0

/-- It is the stage the program's reading names. -/
theorem refRep_eq (a0 a1 : Arr) : refRep a0 a1 = val_main_v10 (F := Ideal) a0 a1 := rfl

/-- The stacked rows are the real matrix r, entry by entry. -/
abbrev RepIs (a0 a1 : Arr) (r : Cert.Spec.Rows) : Prop :=
  ∀ (p : Fin 8192) (q : Fin 512), refRep a0 a1 (ix2 p q) = ((r p q : ℝ) : EReal)

/-! ## The product matrix -/

/-- Entry (i, j) of the product of the stacked rows with their transpose is the inner product of rows i and j. -/
theorem sim_eq (a0 a1 : Arr) (r : Cert.Spec.Rows) (hr : RepIs a0 a1 r) (i j : Fin 8192) :
    val_main_v12 (F := Ideal) a0 a1 (ix2 i j) = ((Cert.Spec.dot r i j : ℝ) : EReal) := by
  have hr' : ∀ (p : Fin 8192) (q : Fin 512), val_main_v10 (F := Ideal) a0 a1 (ix2 p q) = ((r p q : ℝ) : EReal) := hr
  rw [val_main_v12_apply]
  unfold Cert.Spec.dot
  rw [coe_sum]
  refine Finset.sum_congr rfl fun k _ => ?_
  rw [val_main_v11_apply, EReal.coe_mul]
  have e1 : lidx_main_v12 (ix2 i j) k = ix2 i k := funext fun a => match a with | ⟨0, _⟩ => rfl | ⟨1, _⟩ => rfl
  have e2 : idx_main_v11 (ridx_main_v12 (ix2 i j) k) = ix2 j k := funext fun a => match a with | ⟨0, _⟩ => rfl | ⟨1, _⟩ => rfl
  rw [e1, e2, hr', hr']

/-! ## The six index arrays and the six diagonals -/

/-- Column 0 of the start indices of the upper diagonal at distance 2048: the row number. -/
theorem idx_call2_0 (i : Fin 6144) : val_main_call2_v16 (F := Ideal) (ix2 i (0 : Fin 2)) = BitVec.ofNat 32 i.val := by
  unfold val_main_call2_v16
  rw [concatenate_pair_apply_left (t := S6144x2) (s₁ := S6144x1) (s₂ := S6144x1) 1 _ _ concatenates_S6144x1_S6144x1_S6144x2_d1 (ix2 i (0 : Fin 2)) rfl (ix2 i (0 : Fin 1))
    (fun b => match b with | ⟨0, _⟩ => rfl | ⟨1, _⟩ => rfl)]
  rw [val_main_call2_v14_apply]
  rw [val_main_call2_v8_apply, val_main_call2_v5_apply, val_main_call2_v0_apply, val_main_call2_v4_apply, val_main_call2_c_0_apply]
  exact select_wrap i.val (by have := i.isLt; omega) _

/-- Column 1: the row number plus 2048. -/
theorem idx_call2_1 (i : Fin 6144) : val_main_call2_v16 (F := Ideal) (ix2 i (1 : Fin 2)) = BitVec.ofNat 32 (2048 + i.val) := by
  unfold val_main_call2_v16
  rw [concatenate_pair_apply_right (t := S6144x2) (s₁ := S6144x1) (s₂ := S6144x1) 1 _ _ concatenates_S6144x1_S6144x1_S6144x2_d1 (ix2 i (1 : Fin 2)) rfl rfl (ix2 i (0 : Fin 1))
    (fun b hb => match b, hb with | ⟨0, _⟩, _ => rfl | ⟨1, _⟩, hb => absurd rfl hb) rfl]
  rw [val_main_call2_v15_apply]
  rw [val_main_call2_v13_apply, val_main_call2_v10_apply, val_main_call2_v3_apply, val_main_call2_v2_apply, val_main_call2_c_apply, val_main_call2_v1_apply, val_main_call2_v9_apply, val_main_call2_c_2_apply, addi_ofNat]
  exact select_wrap (2048 + i.val) (by have := i.isLt; omega) _

/-- Column 0 of the start indices of the lower diagonal at distance 2048: the column number plus 2048. -/
theorem idx_call3_0 (i : Fin 6144) : val_main_call3_v16 (F := Ideal) (ix2 i (0 : Fin 2)) = BitVec.ofNat 32 (2048 + i.val) := by
  unfold val_main_call3_v16
  rw [concatenate_pair_apply_left (t := S6144x2) (s₁ := S6144x1) (s₂ := S6144x1) 1 _ _ concatenates_S6144x1_S6144x1_S6144x2_d1 (ix2 i (0 : Fin 2)) rfl (ix2 i (0 : Fin 1))
    (fun b => match b with | ⟨0, _⟩ => rfl | ⟨1, _⟩ => rfl)]
  rw [val_main_call3_v14_apply]
  rw [val_main_call3_v8_apply, val_main_call3_v5_apply, val_main_call3_v3_apply, val_main_call3_v2_apply, val_main_call3_c_apply, val_main_call3_v1_apply, val_main_call3_v4_apply, val_main_call3_c_0_apply, addi_ofNat]
  exact select_wrap (2048 + i.val) (by have := i.isLt; omega) _

/-- Column 1: the column number. -/
theorem idx_call3_1 (i : Fin 6144) : val_main_call3_v16 (F := Ideal) (ix2 i (1 : Fin 2)) = BitVec.ofNat 32 i.val := by
  unfold val_main_call3_v16
  rw [concatenate_pair_apply_right (t := S6144x2) (s₁ := S6144x1) (s₂ := S6144x1) 1 _ _ concatenates_S6144x1_S6144x1_S6144x2_d1 (ix2 i (1 : Fin 2)) rfl rfl (ix2 i (0 : Fin 1))
    (fun b hb => match b, hb with | ⟨0, _⟩, _ => rfl | ⟨1, _⟩, hb => absurd rfl hb) rfl]
  rw [val_main_call3_v15_apply]
  rw [val_main_call3_v13_apply, val_main_call3_v10_apply, val_main_call3_v0_apply, val_main_call3_v9_apply, val_main_call3_c_2_apply]
  exact select_wrap i.val (by have := i.isLt; omega) _

/-- The upper diagonal at distance 2048, entry i: the product matrix at (i, i + 2048). -/
theorem v13_eq (a0 a1 : Arr) (i : Fin 6144) (p q : Fin 8192) (hp : p.val = i.val) (hq : q.val = 2048 + i.val) :
    val_main_v13 (F := Ideal) a0 a1 (ix1 i) = val_main_v12 (F := Ideal) a0 a1 (ix2 p q) := by
  unfold val_main_v13
  rw [show gather_S8192x8192_S6144x2_S6144_n_01_n_n_01_1_11 = diagDims 8192 8192 6144 gather_S8192x8192_S6144x2_S6144_n_01_n_n_01_1_11_wf from rfl,
    gather_diag_apply (by norm_num) (by norm_num)]
  refine congrArg (val_main_v12 (F := Ideal) a0 a1) ?_
  funext a
  refine Fin.ext ?_
  match a with
  | ⟨0, _⟩ =>
    show min (val_main_call2_v16 (F := Ideal) (ix2 i (0 : Fin 2))).toInt.toNat (8192 - 1) = p.val
    rw [idx_call2_0, clamp_ofNat _ _ (by have := i.isLt; omega) (by norm_num), hp]
  | ⟨1, _⟩ =>
    show min (val_main_call2_v16 (F := Ideal) (ix2 i (1 : Fin 2))).toInt.toNat (8192 - 1) = q.val
    rw [idx_call2_1, clamp_ofNat _ _ (by have := i.isLt; omega) (by norm_num), hq]

/-- The lower diagonal at distance 2048, entry i: the product matrix at (i + 2048, i). -/
theorem v14_eq (a0 a1 : Arr) (i : Fin 6144) (p q : Fin 8192) (hp : p.val = 2048 + i.val) (hq : q.val = i.val) :
    val_main_v14 (F := Ideal) a0 a1 (ix1 i) = val_main_v12 (F := Ideal) a0 a1 (ix2 p q) := by
  unfold val_main_v14
  rw [show gather_S8192x8192_S6144x2_S6144_n_01_n_n_01_1_11 = diagDims 8192 8192 6144 gather_S8192x8192_S6144x2_S6144_n_01_n_n_01_1_11_wf from rfl,
    gather_diag_apply (by norm_num) (by norm_num)]
  refine congrArg (val_main_v12 (F := Ideal) a0 a1) ?_
  funext a
  refine Fin.ext ?_
  match a with
  | ⟨0, _⟩ =>
    show min (val_main_call3_v16 (F := Ideal) (ix2 i (0 : Fin 2))).toInt.toNat (8192 - 1) = p.val
    rw [idx_call3_0, clamp_ofNat _ _ (by have := i.isLt; omega) (by norm_num), hp]
  | ⟨1, _⟩ =>
    show min (val_main_call3_v16 (F := Ideal) (ix2 i (1 : Fin 2))).toInt.toNat (8192 - 1) = q.val
    rw [idx_call3_1, clamp_ofNat _ _ (by have := i.isLt; omega) (by norm_num), hq]

/-- Column 0 of the start indices of the upper diagonal at distance 4096: the row number. -/
theorem idx_call4_0 (i : Fin 4096) : val_main_call4_v16 (F := Ideal) (ix2 i (0 : Fin 2)) = BitVec.ofNat 32 i.val := by
  unfold val_main_call4_v16
  rw [concatenate_pair_apply_left (t := S4096x2) (s₁ := S4096x1) (s₂ := S4096x1) 1 _ _ concatenates_S4096x1_S4096x1_S4096x2_d1 (ix2 i (0 : Fin 2)) rfl (ix2 i (0 : Fin 1))
    (fun b => match b with | ⟨0, _⟩ => rfl | ⟨1, _⟩ => rfl)]
  rw [val_main_call4_v14_apply]
  rw [val_main_call4_v8_apply, val_main_call4_v5_apply, val_main_call4_v0_apply, val_main_call4_v4_apply, val_main_call4_c_0_apply]
  exact select_wrap i.val (by have := i.isLt; omega) _

/-- Column 1: the row number plus 4096. -/
theorem idx_call4_1 (i : Fin 4096) : val_main_call4_v16 (F := Ideal) (ix2 i (1 : Fin 2)) = BitVec.ofNat 32 (4096 + i.val) := by
  unfold val_main_call4_v16
  rw [concatenate_pair_apply_right (t := S4096x2) (s₁ := S4096x1) (s₂ := S4096x1) 1 _ _ concatenates_S4096x1_S4096x1_S4096x2_d1 (ix2 i (1 : Fin 2)) rfl rfl (ix2 i (0 : Fin 1))
    (fun b hb => match b, hb with | ⟨0, _⟩, _ => rfl | ⟨1, _⟩, hb => absurd rfl hb) rfl]
  rw [val_main_call4_v15_apply]
  rw [val_main_call4_v13_apply, val_main_call4_v10_apply, val_main_call4_v3_apply, val_main_call4_v2_apply, val_main_call4_c_apply, val_main_call4_v1_apply, val_main_call4_v9_apply, val_main_call4_c_2_apply, addi_ofNat]
  exact select_wrap (4096 + i.val) (by have := i.isLt; omega) _

/-- Column 0 of the start indices of the lower diagonal at distance 4096: the column number plus 4096. -/
theorem idx_call5_0 (i : Fin 4096) : val_main_call5_v16 (F := Ideal) (ix2 i (0 : Fin 2)) = BitVec.ofNat 32 (4096 + i.val) := by
  unfold val_main_call5_v16
  rw [concatenate_pair_apply_left (t := S4096x2) (s₁ := S4096x1) (s₂ := S4096x1) 1 _ _ concatenates_S4096x1_S4096x1_S4096x2_d1 (ix2 i (0 : Fin 2)) rfl (ix2 i (0 : Fin 1))
    (fun b => match b with | ⟨0, _⟩ => rfl | ⟨1, _⟩ => rfl)]
  rw [val_main_call5_v14_apply]
  rw [val_main_call5_v8_apply, val_main_call5_v5_apply, val_main_call5_v3_apply, val_main_call5_v2_apply, val_main_call5_c_apply, val_main_call5_v1_apply, val_main_call5_v4_apply, val_main_call5_c_0_apply, addi_ofNat]
  exact select_wrap (4096 + i.val) (by have := i.isLt; omega) _

/-- Column 1: the column number. -/
theorem idx_call5_1 (i : Fin 4096) : val_main_call5_v16 (F := Ideal) (ix2 i (1 : Fin 2)) = BitVec.ofNat 32 i.val := by
  unfold val_main_call5_v16
  rw [concatenate_pair_apply_right (t := S4096x2) (s₁ := S4096x1) (s₂ := S4096x1) 1 _ _ concatenates_S4096x1_S4096x1_S4096x2_d1 (ix2 i (1 : Fin 2)) rfl rfl (ix2 i (0 : Fin 1))
    (fun b hb => match b, hb with | ⟨0, _⟩, _ => rfl | ⟨1, _⟩, hb => absurd rfl hb) rfl]
  rw [val_main_call5_v15_apply]
  rw [val_main_call5_v13_apply, val_main_call5_v10_apply, val_main_call5_v0_apply, val_main_call5_v9_apply, val_main_call5_c_2_apply]
  exact select_wrap i.val (by have := i.isLt; omega) _

/-- The upper diagonal at distance 4096, entry i: the product matrix at (i, i + 4096). -/
theorem v16_eq (a0 a1 : Arr) (i : Fin 4096) (p q : Fin 8192) (hp : p.val = i.val) (hq : q.val = 4096 + i.val) :
    val_main_v16 (F := Ideal) a0 a1 (ix1 i) = val_main_v12 (F := Ideal) a0 a1 (ix2 p q) := by
  unfold val_main_v16
  rw [show gather_S8192x8192_S4096x2_S4096_n_01_n_n_01_1_11 = diagDims 8192 8192 4096 gather_S8192x8192_S4096x2_S4096_n_01_n_n_01_1_11_wf from rfl,
    gather_diag_apply (by norm_num) (by norm_num)]
  refine congrArg (val_main_v12 (F := Ideal) a0 a1) ?_
  funext a
  refine Fin.ext ?_
  match a with
  | ⟨0, _⟩ =>
    show min (val_main_call4_v16 (F := Ideal) (ix2 i (0 : Fin 2))).toInt.toNat (8192 - 1) = p.val
    rw [idx_call4_0, clamp_ofNat _ _ (by have := i.isLt; omega) (by norm_num), hp]
  | ⟨1, _⟩ =>
    show min (val_main_call4_v16 (F := Ideal) (ix2 i (1 : Fin 2))).toInt.toNat (8192 - 1) = q.val
    rw [idx_call4_1, clamp_ofNat _ _ (by have := i.isLt; omega) (by norm_num), hq]

/-- The lower diagonal at distance 4096, entry i: the product matrix at (i + 4096, i). -/
theorem v17_eq (a0 a1 : Arr) (i : Fin 4096) (p q : Fin 8192) (hp : p.val = 4096 + i.val) (hq : q.val = i.val) :
    val_main_v17 (F := Ideal) a0 a1 (ix1 i) = val_main_v12 (F := Ideal) a0 a1 (ix2 p q) := by
  unfold val_main_v17
  rw [show gather_S8192x8192_S4096x2_S4096_n_01_n_n_01_1_11 = diagDims 8192 8192 4096 gather_S8192x8192_S4096x2_S4096_n_01_n_n_01_1_11_wf from rfl,
    gather_diag_apply (by norm_num) (by norm_num)]
  refine congrArg (val_main_v12 (F := Ideal) a0 a1) ?_
  funext a
  refine Fin.ext ?_
  match a with
  | ⟨0, _⟩ =>
    show min (val_main_call5_v16 (F := Ideal) (ix2 i (0 : Fin 2))).toInt.toNat (8192 - 1) = p.val
    rw [idx_call5_0, clamp_ofNat _ _ (by have := i.isLt; omega) (by norm_num), hp]
  | ⟨1, _⟩ =>
    show min (val_main_call5_v16 (F := Ideal) (ix2 i (1 : Fin 2))).toInt.toNat (8192 - 1) = q.val
    rw [idx_call5_1, clamp_ofNat _ _ (by have := i.isLt; omega) (by norm_num), hq]

/-- Column 0 of the start indices of the upper diagonal at distance 6144: the row number. -/
theorem idx_call6_0 (i : Fin 2048) : val_main_call6_v16 (F := Ideal) (ix2 i (0 : Fin 2)) = BitVec.ofNat 32 i.val := by
  unfold val_main_call6_v16
  rw [concatenate_pair_apply_left (t := S2048x2) (s₁ := S2048x1) (s₂ := S2048x1) 1 _ _ concatenates_S2048x1_S2048x1_S2048x2_d1 (ix2 i (0 : Fin 2)) rfl (ix2 i (0 : Fin 1))
    (fun b => match b with | ⟨0, _⟩ => rfl | ⟨1, _⟩ => rfl)]
  rw [val_main_call6_v14_apply]
  rw [val_main_call6_v8_apply, val_main_call6_v5_apply, val_main_call6_v0_apply, val_main_call6_v4_apply, val_main_call6_c_0_apply]
  exact select_wrap i.val (by have := i.isLt; omega) _

/-- Column 1: the row number plus 6144. -/
theorem idx_call6_1 (i : Fin 2048) : val_main_call6_v16 (F := Ideal) (ix2 i (1 : Fin 2)) = BitVec.ofNat 32 (6144 + i.val) := by
  unfold val_main_call6_v16
  rw [concatenate_pair_apply_right (t := S2048x2) (s₁ := S2048x1) (s₂ := S2048x1) 1 _ _ concatenates_S2048x1_S2048x1_S2048x2_d1 (ix2 i (1 : Fin 2)) rfl rfl (ix2 i (0 : Fin 1))
    (fun b hb => match b, hb with | ⟨0, _⟩, _ => rfl | ⟨1, _⟩, hb => absurd rfl hb) rfl]
  rw [val_main_call6_v15_apply]
  rw [val_main_call6_v13_apply, val_main_call6_v10_apply, val_main_call6_v3_apply, val_main_call6_v2_apply, val_main_call6_c_apply, val_main_call6_v1_apply, val_main_call6_v9_apply, val_main_call6_c_2_apply, addi_ofNat]
  exact select_wrap (6144 + i.val) (by have := i.isLt; omega) _

/-- Column 0 of the start indices of the lower diagonal at distance 6144: the column number plus 6144. -/
theorem idx_call7_0 (i : Fin 2048) : val_main_call7_v16 (F := Ideal) (ix2 i (0 : Fin 2)) = BitVec.ofNat 32 (6144 + i.val) := by
  unfold val_main_call7_v16
  rw [concatenate_pair_apply_left (t := S2048x2) (s₁ := S2048x1) (s₂ := S2048x1) 1 _ _ concatenates_S2048x1_S2048x1_S2048x2_d1 (ix2 i (0 : Fin 2)) rfl (ix2 i (0 : Fin 1))
    (fun b => match b with | ⟨0, _⟩ => rfl | ⟨1, _⟩ => rfl)]
  rw [val_main_call7_v14_apply]
  rw [val_main_call7_v8_apply, val_main_call7_v5_apply, val_main_call7_v3_apply, val_main_call7_v2_apply, val_main_call7_c_apply, val_main_call7_v1_apply, val_main_call7_v4_apply, val_main_call7_c_0_apply, addi_ofNat]
  exact select_wrap (6144 + i.val) (by have := i.isLt; omega) _

/-- Column 1: the column number. -/
theorem idx_call7_1 (i : Fin 2048) : val_main_call7_v16 (F := Ideal) (ix2 i (1 : Fin 2)) = BitVec.ofNat 32 i.val := by
  unfold val_main_call7_v16
  rw [concatenate_pair_apply_right (t := S2048x2) (s₁ := S2048x1) (s₂ := S2048x1) 1 _ _ concatenates_S2048x1_S2048x1_S2048x2_d1 (ix2 i (1 : Fin 2)) rfl rfl (ix2 i (0 : Fin 1))
    (fun b hb => match b, hb with | ⟨0, _⟩, _ => rfl | ⟨1, _⟩, hb => absurd rfl hb) rfl]
  rw [val_main_call7_v15_apply]
  rw [val_main_call7_v13_apply, val_main_call7_v10_apply, val_main_call7_v0_apply, val_main_call7_v9_apply, val_main_call7_c_2_apply]
  exact select_wrap i.val (by have := i.isLt; omega) _

/-- The upper diagonal at distance 6144, entry i: the product matrix at (i, i + 6144). -/
theorem v19_eq (a0 a1 : Arr) (i : Fin 2048) (p q : Fin 8192) (hp : p.val = i.val) (hq : q.val = 6144 + i.val) :
    val_main_v19 (F := Ideal) a0 a1 (ix1 i) = val_main_v12 (F := Ideal) a0 a1 (ix2 p q) := by
  unfold val_main_v19
  rw [show gather_S8192x8192_S2048x2_S2048_n_01_n_n_01_1_11 = diagDims 8192 8192 2048 gather_S8192x8192_S2048x2_S2048_n_01_n_n_01_1_11_wf from rfl,
    gather_diag_apply (by norm_num) (by norm_num)]
  refine congrArg (val_main_v12 (F := Ideal) a0 a1) ?_
  funext a
  refine Fin.ext ?_
  match a with
  | ⟨0, _⟩ =>
    show min (val_main_call6_v16 (F := Ideal) (ix2 i (0 : Fin 2))).toInt.toNat (8192 - 1) = p.val
    rw [idx_call6_0, clamp_ofNat _ _ (by have := i.isLt; omega) (by norm_num), hp]
  | ⟨1, _⟩ =>
    show min (val_main_call6_v16 (F := Ideal) (ix2 i (1 : Fin 2))).toInt.toNat (8192 - 1) = q.val
    rw [idx_call6_1, clamp_ofNat _ _ (by have := i.isLt; omega) (by norm_num), hq]

/-- The lower diagonal at distance 6144, entry i: the product matrix at (i + 6144, i). -/
theorem v20_eq (a0 a1 : Arr) (i : Fin 2048) (p q : Fin 8192) (hp : p.val = 6144 + i.val) (hq : q.val = i.val) :
    val_main_v20 (F := Ideal) a0 a1 (ix1 i) = val_main_v12 (F := Ideal) a0 a1 (ix2 p q) := by
  unfold val_main_v20
  rw [show gather_S8192x8192_S2048x2_S2048_n_01_n_n_01_1_11 = diagDims 8192 8192 2048 gather_S8192x8192_S2048x2_S2048_n_01_n_n_01_1_11_wf from rfl,
    gather_diag_apply (by norm_num) (by norm_num)]
  refine congrArg (val_main_v12 (F := Ideal) a0 a1) ?_
  funext a
  refine Fin.ext ?_
  match a with
  | ⟨0, _⟩ =>
    show min (val_main_call7_v16 (F := Ideal) (ix2 i (0 : Fin 2))).toInt.toNat (8192 - 1) = p.val
    rw [idx_call7_0, clamp_ofNat _ _ (by have := i.isLt; omega) (by norm_num), hp]
  | ⟨1, _⟩ =>
    show min (val_main_call7_v16 (F := Ideal) (ix2 i (1 : Fin 2))).toInt.toNat (8192 - 1) = q.val
    rw [idx_call7_1, clamp_ofNat _ _ (by have := i.isLt; omega) (by norm_num), hq]

/-! ## The three bands -/

/-- The two diagonals at distance 2048 laid end to end, entry i. -/
theorem v15_eq (a0 a1 : Arr) (r : Cert.Spec.Rows) (hr : RepIs a0 a1 r) (h : 6144 + 2048 ≤ 8192) (h2 : 12288 = 6144 + 6144) (i : Fin 12288) :
    val_main_v15 (F := Ideal) a0 a1 (ix1 i) = ((Cert.Spec.diagPair r 6144 2048 12288 h h2 i : ℝ) : EReal) := by
  unfold val_main_v15 Cert.Spec.diagPair
  by_cases hi : i.val < 6144
  · rw [dif_pos hi, concatenate_pair_apply_left (t := S12288) (s₁ := S6144) (s₂ := S6144) 0 _ _ concatenates_S6144_S6144_S12288_d0 (ix1 i) rfl (ix1 ⟨i.val, hi⟩)
      (fun b => match b with | ⟨0, _⟩ => rfl)]
    exact (v13_eq a0 a1 ⟨i.val, hi⟩ ⟨i.val, by omega⟩ ⟨i.val + 2048, by omega⟩ rfl (Nat.add_comm _ _)).trans (sim_eq a0 a1 r hr _ _)
  · have hlt := i.isLt
    rw [dif_neg hi, concatenate_pair_apply_right (t := S12288) (s₁ := S6144) (s₂ := S6144) 0 _ _ concatenates_S6144_S6144_S12288_d0 (ix1 i) rfl rfl (ix1 ⟨i.val - 6144, by omega⟩)
      (fun b hb => match b, hb with | ⟨0, _⟩, hb => absurd rfl hb) (by show i.val - 6144 + 6144 = i.val; omega)]
    exact (v14_eq a0 a1 ⟨i.val - 6144, by omega⟩ ⟨i.val - 6144 + 2048, by omega⟩ ⟨i.val - 6144, by omega⟩ (Nat.add_comm _ _) rfl).trans (sim_eq a0 a1 r hr _ _)

/-- Its exponential after the division by 0.5. -/
theorem v24_eq (a0 a1 : Arr) (r : Cert.Spec.Rows) (hr : RepIs a0 a1 r) (h : 6144 + 2048 ≤ 8192) (h2 : 12288 = 6144 + 6144) (i : Fin 12288) :
    val_main_v24 (F := Ideal) a0 a1 (ix1 i) = ((Real.exp (Cert.Spec.diagPair r 6144 2048 12288 h h2 i / (1 / 2)) : ℝ) : EReal) := by
  rw [val_main_v24_apply, val_main_v23_apply, val_main_v22_apply, val_main_cst_1_apply, v15_eq a0 a1 r hr h h2, exp_div_half]

/-- The sum of those: both sides of the band at distance 2048. -/
theorem v25_eq (a0 a1 : Arr) (r : Cert.Spec.Rows) (hr : RepIs a0 a1 r) (h : 6144 + 2048 ≤ 8192) (h2 : 12288 = 6144 + 6144) (i : S_.Idx) :
    val_main_v25 (F := Ideal) a0 a1 i = ((Cert.Spec.bandR r 6144 2048 12288 h h2 : ℝ) : EReal) := by
  rw [val_main_v25_apply, val_main_cst_2_apply, Ideal.ofBits_def, Ideal.ofBits_zero_f32, zero_add, sum_idx1]
  unfold Cert.Spec.bandR
  rw [coe_sum]
  exact Finset.sum_congr rfl fun i _ => v24_eq a0 a1 r hr h h2 i

/-- The two diagonals at distance 4096 laid end to end, entry i. -/
theorem v18_eq (a0 a1 : Arr) (r : Cert.Spec.Rows) (hr : RepIs a0 a1 r) (h : 4096 + 4096 ≤ 8192) (h2 : 8192 = 4096 + 4096) (i : Fin 8192) :
    val_main_v18 (F := Ideal) a0 a1 (ix1 i) = ((Cert.Spec.diagPair r 4096 4096 8192 h h2 i : ℝ) : EReal) := by
  unfold val_main_v18 Cert.Spec.diagPair
  by_cases hi : i.val < 4096
  · rw [dif_pos hi, concatenate_pair_apply_left (t := S8192) (s₁ := S4096) (s₂ := S4096) 0 _ _ concatenates_S4096_S4096_S8192_d0 (ix1 i) rfl (ix1 ⟨i.val, hi⟩)
      (fun b => match b with | ⟨0, _⟩ => rfl)]
    exact (v16_eq a0 a1 ⟨i.val, hi⟩ ⟨i.val, by omega⟩ ⟨i.val + 4096, by omega⟩ rfl (Nat.add_comm _ _)).trans (sim_eq a0 a1 r hr _ _)
  · have hlt := i.isLt
    rw [dif_neg hi, concatenate_pair_apply_right (t := S8192) (s₁ := S4096) (s₂ := S4096) 0 _ _ concatenates_S4096_S4096_S8192_d0 (ix1 i) rfl rfl (ix1 ⟨i.val - 4096, by omega⟩)
      (fun b hb => match b, hb with | ⟨0, _⟩, hb => absurd rfl hb) (by show i.val - 4096 + 4096 = i.val; omega)]
    exact (v17_eq a0 a1 ⟨i.val - 4096, by omega⟩ ⟨i.val - 4096 + 4096, by omega⟩ ⟨i.val - 4096, by omega⟩ (Nat.add_comm _ _) rfl).trans (sim_eq a0 a1 r hr _ _)

/-- Its exponential after the division by 0.5. -/
theorem v28_eq (a0 a1 : Arr) (r : Cert.Spec.Rows) (hr : RepIs a0 a1 r) (h : 4096 + 4096 ≤ 8192) (h2 : 8192 = 4096 + 4096) (i : Fin 8192) :
    val_main_v28 (F := Ideal) a0 a1 (ix1 i) = ((Real.exp (Cert.Spec.diagPair r 4096 4096 8192 h h2 i / (1 / 2)) : ℝ) : EReal) := by
  rw [val_main_v28_apply, val_main_v27_apply, val_main_v26_apply, val_main_cst_3_apply, v18_eq a0 a1 r hr h h2, exp_div_half]

/-- The sum of those: both sides of the band at distance 4096. -/
theorem v29_eq (a0 a1 : Arr) (r : Cert.Spec.Rows) (hr : RepIs a0 a1 r) (h : 4096 + 4096 ≤ 8192) (h2 : 8192 = 4096 + 4096) (i : S_.Idx) :
    val_main_v29 (F := Ideal) a0 a1 i = ((Cert.Spec.bandR r 4096 4096 8192 h h2 : ℝ) : EReal) := by
  rw [val_main_v29_apply, val_main_cst_4_apply, Ideal.ofBits_def, Ideal.ofBits_zero_f32, zero_add, sum_idx1]
  unfold Cert.Spec.bandR
  rw [coe_sum]
  exact Finset.sum_congr rfl fun i _ => v28_eq a0 a1 r hr h h2 i

/-- The two diagonals at distance 6144 laid end to end, entry i. -/
theorem v21_eq (a0 a1 : Arr) (r : Cert.Spec.Rows) (hr : RepIs a0 a1 r) (h : 2048 + 6144 ≤ 8192) (h2 : 4096 = 2048 + 2048) (i : Fin 4096) :
    val_main_v21 (F := Ideal) a0 a1 (ix1 i) = ((Cert.Spec.diagPair r 2048 6144 4096 h h2 i : ℝ) : EReal) := by
  unfold val_main_v21 Cert.Spec.diagPair
  by_cases hi : i.val < 2048
  · rw [dif_pos hi, concatenate_pair_apply_left (t := S4096) (s₁ := S2048) (s₂ := S2048) 0 _ _ concatenates_S2048_S2048_S4096_d0 (ix1 i) rfl (ix1 ⟨i.val, hi⟩)
      (fun b => match b with | ⟨0, _⟩ => rfl)]
    exact (v19_eq a0 a1 ⟨i.val, hi⟩ ⟨i.val, by omega⟩ ⟨i.val + 6144, by omega⟩ rfl (Nat.add_comm _ _)).trans (sim_eq a0 a1 r hr _ _)
  · have hlt := i.isLt
    rw [dif_neg hi, concatenate_pair_apply_right (t := S4096) (s₁ := S2048) (s₂ := S2048) 0 _ _ concatenates_S2048_S2048_S4096_d0 (ix1 i) rfl rfl (ix1 ⟨i.val - 2048, by omega⟩)
      (fun b hb => match b, hb with | ⟨0, _⟩, hb => absurd rfl hb) (by show i.val - 2048 + 2048 = i.val; omega)]
    exact (v20_eq a0 a1 ⟨i.val - 2048, by omega⟩ ⟨i.val - 2048 + 6144, by omega⟩ ⟨i.val - 2048, by omega⟩ (Nat.add_comm _ _) rfl).trans (sim_eq a0 a1 r hr _ _)

/-- Its exponential after the division by 0.5. -/
theorem v33_eq (a0 a1 : Arr) (r : Cert.Spec.Rows) (hr : RepIs a0 a1 r) (h : 2048 + 6144 ≤ 8192) (h2 : 4096 = 2048 + 2048) (i : Fin 4096) :
    val_main_v33 (F := Ideal) a0 a1 (ix1 i) = ((Real.exp (Cert.Spec.diagPair r 2048 6144 4096 h h2 i / (1 / 2)) : ℝ) : EReal) := by
  rw [val_main_v33_apply, val_main_v32_apply, val_main_v31_apply, val_main_cst_5_apply, v21_eq a0 a1 r hr h h2, exp_div_half]

/-- The sum of those: both sides of the band at distance 6144. -/
theorem v34_eq (a0 a1 : Arr) (r : Cert.Spec.Rows) (hr : RepIs a0 a1 r) (h : 2048 + 6144 ≤ 8192) (h2 : 4096 = 2048 + 2048) (i : S_.Idx) :
    val_main_v34 (F := Ideal) a0 a1 i = ((Cert.Spec.bandR r 2048 6144 4096 h h2 : ℝ) : EReal) := by
  rw [val_main_v34_apply, val_main_cst_6_apply, Ideal.ofBits_def, Ideal.ofBits_zero_f32, zero_add, sum_idx1]
  unfold Cert.Spec.bandR
  rw [coe_sum]
  exact Finset.sum_congr rfl fun i _ => v33_eq a0 a1 r hr h h2 i

/-! ## The numerator -/

/-- The numerator of the quotient under the logarithm is the real sum over the three bands. -/
theorem v35_eq (a0 a1 : Arr) (r : Cert.Spec.Rows) (hr : RepIs a0 a1 r) (i : S_.Idx) :
    val_main_v35 (F := Ideal) a0 a1 i = ((Cert.Spec.nomR r : ℝ) : EReal) := by
  rw [val_main_v35_apply, val_main_v30_apply, Ideal.addf_def, Ideal.addf_def,
    v25_eq a0 a1 r hr (by norm_num) (by norm_num), v29_eq a0 a1 r hr (by norm_num) (by norm_num),
    v34_eq a0 a1 r hr (by norm_num) (by norm_num), ← EReal.coe_add, ← EReal.coe_add]
  rfl

/-! ## The masked sum and the denominator -/

/-- One minus the identity matrix, entry (i, j). -/
theorem v43_eq (i j : Fin 8192) :
    val_main_v43 (F := Ideal) (ix2 i j) = (((1 - (if i = j then (1 : ℝ) else 0)) : ℝ) : EReal) := by
  rw [val_main_v43_apply, val_main_v42_apply, val_main_cst_7_apply, val_main_v41_apply, val_main_v40_apply,
    val_main_v39_apply, val_main_v36_apply, val_main_v38_apply, val_main_c_apply, val_main_v37_apply,
    Ideal.subf_def, Ideal.ofBits_def, ofBits_one]
  have hi := i.isLt
  have hj := j.isLt
  have hm := mask_word i.val j.val (by omega) (by omega)
  have hc : (if i.val = j.val then (1 : ℝ) else 0) = (if i = j then (1 : ℝ) else 0) := by
    by_cases h : i = j
    · rw [if_pos h, if_pos (congrArg Fin.val h)]
    · rw [if_neg h, if_neg (fun e => h (Fin.ext e))]
  rw [hc] at hm
  rw [EReal.coe_sub]
  exact congrArg (((1 : ℝ) : EReal) - ·) hm

/-- The exponential of the product matrix divided by 0.5, entry (i, j). -/
theorem v46_eq (a0 a1 : Arr) (r : Cert.Spec.Rows) (hr : RepIs a0 a1 r) (i j : Fin 8192) :
    val_main_v46 (F := Ideal) a0 a1 (ix2 i j) = ((Real.exp (Cert.Spec.dot r i j / (1 / 2)) : ℝ) : EReal) := by
  rw [val_main_v46_apply, val_main_v45_apply, val_main_v44_apply, val_main_cst_8_apply, sim_eq a0 a1 r hr, exp_div_half]

/-- The masked exponential, entry (i, j). -/
theorem v47_eq (a0 a1 : Arr) (r : Cert.Spec.Rows) (hr : RepIs a0 a1 r) (i j : Fin 8192) :
    val_main_v47 (F := Ideal) a0 a1 (ix2 i j)
      = (((1 - (if i = j then (1 : ℝ) else 0)) * Real.exp (Cert.Spec.dot r i j / (1 / 2)) : ℝ) : EReal) := by
  rw [val_main_v47_apply, Ideal.mulf_def, v43_eq, v46_eq a0 a1 r hr, ← EReal.coe_mul]

/-- Its sum over every pair. -/
theorem v48_eq (a0 a1 : Arr) (r : Cert.Spec.Rows) (hr : RepIs a0 a1 r) (i : S_.Idx) :
    val_main_v48 (F := Ideal) a0 a1 i
      = ((∑ i : Fin 8192, ∑ j : Fin 8192, (1 - (if i = j then (1 : ℝ) else 0)) * Real.exp (Cert.Spec.dot r i j / (1 / 2)) : ℝ) : EReal) := by
  rw [val_main_v48_apply, val_main_cst_9_apply, Ideal.ofBits_def, Ideal.ofBits_zero_f32, zero_add, sum_idx2, coe_sum]
  refine Finset.sum_congr rfl fun i _ => ?_
  rw [coe_sum]
  exact Finset.sum_congr rfl fun j _ => v47_eq a0 a1 r hr i j

/-- The denominator of the quotient under the logarithm is the real masked sum less the numerator. -/
theorem v49_eq (a0 a1 : Arr) (r : Cert.Spec.Rows) (hr : RepIs a0 a1 r) (i : S_.Idx) :
    val_main_v49 (F := Ideal) a0 a1 i = ((Cert.Spec.denR r : ℝ) : EReal) := by
  rw [val_main_v49_apply, Ideal.subf_def, v48_eq a0 a1 r hr, v35_eq a0 a1 r hr, ← EReal.coe_sub]
  rfl

/-! ## The result -/

/-- The program's result, with its last four operations kept as they are: minus the logarithm of the quotient of the
    two real sums, divided by 8192. -/
theorem result_eq (a0 a1 : Arr) (r : Cert.Spec.Rows)
    (hr : ∀ (p : Fin 8192) (q : Fin 512), refRep a0 a1 (ix2 p q) = ((r p q : ℝ) : EReal)) :
    val_main_v53 (F := Ideal) a0 a1
      = Host.divf (F := Ideal) (Host.negf (F := Ideal) (Host.log (F := Ideal) (Host.divf (F := Ideal)
          (fun _ => ((Cert.Spec.nomR r : ℝ) : EReal)) (fun _ => ((Cert.Spec.denR r : ℝ) : EReal)))))
          (constant (F := Ideal) S_ .f32 0x46000000#32) := by
  have h35 : val_main_v35 (F := Ideal) a0 a1 = fun _ => ((Cert.Spec.nomR r : ℝ) : EReal) := funext (v35_eq a0 a1 r hr)
  have h49 : val_main_v49 (F := Ideal) a0 a1 = fun _ => ((Cert.Spec.denR r : ℝ) : EReal) := funext (v49_eq a0 a1 r hr)
  unfold val_main_v53 val_main_v52 val_main_v51 val_main_v50 val_main_cst_10
  rw [h35, h49]

/-- The same about the term the program's run states for its result, the two arguments read off the launch memory. -/
theorem result_eq_run (m : (ℓ : Loc nD τ sig) → Buf (Elt Ideal) ℓ) (c : Dev nD) (r : Cert.Spec.Rows)
    (hr : ∀ (p : Fin 8192) (q : Fin 512),
      refRep (m ((c.tc : Thread nD τ).loc main_arg0)) (m ((c.tc : Thread nD τ).loc main_arg1)) (ix2 p q) = ((r p q : ℝ) : EReal)) :
    Cert.ReferenceIdeal.Value.res_main_v53 (F := Ideal) m c
      = Host.divf (F := Ideal) (Host.negf (F := Ideal) (Host.log (F := Ideal) (Host.divf (F := Ideal)
          (fun _ => ((Cert.Spec.nomR r : ℝ) : EReal)) (fun _ => ((Cert.Spec.denR r : ℝ) : EReal)))))
          (constant (F := Ideal) S_ .f32 0x46000000#32) :=
  (val_main_v53_eq (F := Ideal) m c).trans (result_eq _ _ r hr)

end Cert.ReferenceIdeal.RefValue

end
-- ==== Proof.RepReal.lean ====
/-
  The stacked unit rows of finite inputs are real numbers.

  The precondition says that every entry of both inputs has absolute value below plus infinity, so every entry
  is a real number.  Then a row's sum of squares is a real number that is not negative, its square root is one
  too, the larger of that and the positive floor is a positive real, every entry divided by it is a real number,
  and stacking the two results keeps that.  So the stacked matrix is a matrix of real numbers.
-/
import proofs.«150978_j66494683676972_1_alg».proof.Proof.KerRep
import proofs.«150978_j66494683676972_1_alg».proof.Proof.Spec
import proofs.«150978_j66494683676972_1_alg».proof.Proof.RowsReal
import proofs.«150978_j66494683676972_1_alg».proof.Pre_finite_inputs
import Idealize.ShloMosaic.Lib.ReduceAll

noncomputable section

namespace Cert.KernelIdeal.RepReal

open Idealize.ShloMosaic Idealize.ShloMosaic.ValueIdx Cert.KernelIdeal Cert.KernelIdeal.Gen Cert.RowsReal

/-- The scalar shape has one index. -/
instance : Subsingleton Cert.Pre_finite_inputs.S_.Idx := ⟨fun a b => funext fun d => d.elim0⟩

/-- Under the precondition every entry of both inputs is a real number. -/
theorem inputs_real [Cert.Pre_finite_inputs.Facts] (a0 a1 : FVec Ideal S4096x512 .f32)
    (h : Cert.Pre_finite_inputs.fn (F := Ideal) a0 a1 = fun _ => 1#1) :
    AllReal (s := S4096x512) a0 ∧ AllReal (s := S4096x512) a1 := by
  have h0 := congrFun h ValueIdx.ix0
  dsimp only [Cert.Pre_finite_inputs.fn] at h0
  obtain ⟨h1, h2⟩ := IntOp.andi_eq_one.1 h0
  exact ⟨fun i => real_of_abs_lt_inf _ (Host.reduce_andi_all _ _ _ _ _ h1 i),
    fun i => real_of_abs_lt_inf _ (Host.reduce_andi_all _ _ _ _ _ h2 i)⟩

/-- The Euclidean norm of every row of a real matrix is a real number that is not negative. -/
theorem norm_nonneg {a : FVec Ideal S4096x512 .f32} (ha : AllReal (s := S4096x512) a) :
    AllNonneg (s := S4096x1) (Rep.norm (F := Ideal) a) := by
  unfold Rep.norm
  refine allNonneg_hostSqrt (allNonneg_broadcastInDim _ _ (allNonneg_hostReduceAdd (allNonneg_mulf_self ha) _ _ _ ?_))
  exact Ideal.ofBits_zero_f32

/-- Every row of a real matrix divided by the larger of its norm and the positive floor is a row of real numbers. -/
theorem unit_real {a : FVec Ideal S4096x512 .f32} (ha : AllReal (s := S4096x512) a) :
    AllReal (s := S4096x512) (Rep.unit (F := Ideal) a) := by
  unfold Rep.unit
  exact allReal_hostDivf ha (allPos_broadcastInDim _ _ (allPos_maximumf (norm_nonneg ha).allReal
    (allPos_broadcastInDim _ _ (allPos_constant _ ofBits_tiny_pos))))

/-- Every entry of the two sets of unit rows stacked is a real number. -/
theorem rep_entry_real {a0 a1 : FVec Ideal S4096x512 .f32} (h0 : AllReal (s := S4096x512) a0)
    (h1 : AllReal (s := S4096x512) a1) (p : Fin 8192) (q : Fin 512) :
    ∃ r : ℝ, Rep.rep (F := Ideal) a0 a1 (ix2 p q) = (r : EReal) := by
  unfold Rep.rep
  exact concatenate_rows_all (Rep.unit (F := Ideal) a0) (Rep.unit (F := Ideal) a1) _ (by norm_num)
    (fun v => ∃ r : ℝ, v = (r : EReal)) (unit_real h0) (unit_real h1) p q

/-- The stacked unit rows of finite inputs are a matrix of real numbers. -/
theorem rep_real [Cert.Pre_finite_inputs.Facts] (a0 a1 : (⟨Cert.KernelIdeal.S4096x512, .f32⟩ : BufTy).Contents (Elt Ideal))
    (h : Cert.Pre_finite_inputs.fn (F := Ideal) a0 a1 = fun _ => 1#1) :
    ∃ r : Cert.Spec.Rows, ∀ (p : Fin 8192) (q : Fin 512),
      Cert.KernelIdeal.Rep.rep (F := Ideal) a0 a1 (ValueIdx.ix2 p q) = ((r p q : ℝ) : EReal) := by
  obtain ⟨h0, h1⟩ := inputs_real a0 a1 h
  choose r hr using fun (p : Fin 8192) (q : Fin 512) => rep_entry_real h0 h1 p q
  exact ⟨r, hr⟩

end Cert.KernelIdeal.RepReal

end
-- ==== Proof.Algebra.lean ====
/-
  The two loss formulas agree.  The inner product of two rows is symmetric, so the two diagonals at distance
  `k` laid end to end give the same sum twice: each two-sided band is twice the one-sided band.  Dividing by
  one half is doubling, and masking out the identity matrix removes exactly the diagonal terms of the sum over
  all pairs.
-/
import proofs.«150978_j66494683676972_1_alg».proof.Proof.Spec

noncomputable section

namespace Cert.Spec

open Finset

/-- The inner product of two rows is symmetric. -/
theorem dot_comm (r : Rows) (i j : Fin 8192) : dot r i j = dot r j i := by
  unfold dot
  exact Finset.sum_congr rfl (fun d _ => mul_comm _ _)

/-- The first half of the two diagonals laid end to end is the upper diagonal. -/
theorem diagPair_castAdd (r : Rows) (n k : ℕ) (h : n + k ≤ 8192) (i : Fin n) :
    diagPair r n k (n + n) h rfl (Fin.castAdd n i) = dot r (lo n (by omega) i) (up n k h i) := by
  have hi : (Fin.castAdd n i).val < n := by simp
  unfold diagPair
  rw [dif_pos hi]
  rfl

/-- The second half is the lower diagonal, which by symmetry carries the same inner products. -/
theorem diagPair_natAdd (r : Rows) (n k : ℕ) (h : n + k ≤ 8192) (i : Fin n) :
    diagPair r n k (n + n) h rfl (Fin.natAdd n i) = dot r (lo n (by omega) i) (up n k h i) := by
  have hi : ¬ (Fin.natAdd n i).val < n := by simp
  unfold diagPair
  rw [dif_neg hi, dot_comm]
  congr 1
  · apply Fin.ext; simp [lo]
  · apply Fin.ext; simp [up]

/-- Each two-sided band is twice the one-sided band. -/
theorem bandR_eq (r : Rows) (n k n2 : ℕ) (h : n + k ≤ 8192) (h2 : n2 = n + n) :
    bandR r n k n2 h h2 = 2 * bandK r n k h := by
  subst h2
  unfold bandR bandK
  rw [Fin.sum_univ_add]
  simp only [diagPair_castAdd, diagPair_natAdd]
  ring

/-- The two numerators agree. -/
theorem nomK_eq_nomR (r : Rows) : nomK r = nomR r := by
  unfold nomK nomR
  rw [bandR_eq, bandR_eq, bandR_eq]
  ring

/-- Masking out the identity matrix removes exactly the diagonal terms. -/
theorem masked_sum {ι : Type*} [Fintype ι] [DecidableEq ι] (e : ι → ι → ℝ) :
    (∑ i : ι, ∑ j : ι, (1 - (if i = j then (1 : ℝ) else 0)) * e i j)
      = (∑ i : ι, ∑ j : ι, e i j) - ∑ i : ι, e i i := by
  rw [← Finset.sum_sub_distrib]
  refine Finset.sum_congr rfl (fun i _ => ?_)
  simp only [sub_mul, one_mul, ite_mul, zero_mul, Finset.sum_sub_distrib, Finset.sum_ite_eq,
    Finset.mem_univ, if_true]

/-- The sum over all pairs, with every exponent written as a division by one half. -/
theorem total_eq (r : Rows) :
    total r = ∑ i : Fin 8192, ∑ j : Fin 8192, Real.exp (dot r i j / (1 / 2)) := by
  unfold total rowSum
  refine Finset.sum_congr rfl (fun i _ => Finset.sum_congr rfl (fun j _ => ?_))
  congr 1
  ring

/-- The two denominators agree. -/
theorem denK_eq_denR (r : Rows) : denK r = denR r := by
  have hm := masked_sum (fun i j : Fin 8192 => Real.exp (dot r i j / (1 / 2)))
  beta_reduce at hm
  unfold denK denR
  rw [total_eq, nomK_eq_nomR, hm]
  rfl

end Cert.Spec

end
-- ==== Proof.lean ====
/-
  Both programs compute one contrastive loss of two matrices of 4096 rows of length 512.

  Each first divides every row of the two inputs by the larger of its Euclidean norm and a tiny constant and stacks the
  results into one matrix of 8192 unit rows.  Finite inputs make every entry of that matrix a real number, so all later
  quantities are finite sums of real exponentials of inner products of rows, each inner product divided by one half.

  The first program adds up, tile by tile, the row sums of the whole exponential matrix, then takes the sum over all
  pairs, the diagonal's share of it, and the three bands at distances 2048, 4096 and 6144 from the diagonal, one side
  each, doubled: its numerator is twice the bands and its denominator all pairs less the diagonal less the numerator.
  The second program forms the whole product matrix, gathers both sides of each band and lays them end to end, and
  masks the identity out of the exponential matrix before summing.  The inner product is symmetric, so both sides of a
  band carry the same terms and the two numerators agree; masking the identity removes exactly the diagonal terms, so
  the two denominators agree.  Both programs then take minus the logarithm of numerator over denominator, divided by
  the number of rows.

  The inputs are never written by either program.
-/
import proofs.«150978_j66494683676972_1_alg».proof.Defs
import proofs.«150978_j66494683676972_1_alg».proof.Proof.Gen.Kernel
import proofs.«150978_j66494683676972_1_alg».proof.Proof.Gen.Kernel.Skeleton
import proofs.«150978_j66494683676972_1_alg».proof.Proof.Gen.Kernel.Launch
import proofs.«150978_j66494683676972_1_alg».proof.Proof.Gen.Kernel.Points
import proofs.«150978_j66494683676972_1_alg».proof.Proof.Gen.KernelIdeal
import proofs.«150978_j66494683676972_1_alg».proof.Proof.Gen.KernelIdeal.Skeleton
import proofs.«150978_j66494683676972_1_alg».proof.Proof.Gen.KernelIdeal.Launch
import proofs.«150978_j66494683676972_1_alg».proof.Proof.Gen.KernelIdeal.Points
import proofs.«150978_j66494683676972_1_alg».proof.Proof.Gen.ReferenceIdeal
import proofs.«150978_j66494683676972_1_alg».proof.Proof.Gen.ReferenceIdeal.Run
import proofs.«150978_j66494683676972_1_alg».proof.Proof.Gen.ReferenceIdeal.Read
import proofs.«150978_j66494683676972_1_alg».proof.Proof.Gen.Pre_finite_inputs
import proofs.«150978_j66494683676972_1_alg».proof.Proof.KerResult
import proofs.«150978_j66494683676972_1_alg».proof.Proof.KerReal
import proofs.«150978_j66494683676972_1_alg».proof.Proof.KerWEntry
import proofs.«150978_j66494683676972_1_alg».proof.Proof.RefValue
import proofs.«150978_j66494683676972_1_alg».proof.Proof.RepReal
import proofs.«150978_j66494683676972_1_alg».proof.Proof.Algebra
import Idealize.ShloMosaic.Adequacy
import Idealize.ShloMosaic.Init

noncomputable section

namespace Cert.Proof

open Idealize.ShloMosaic Idealize.SL.Sem

/-- The first program as printed over machine words runs and leaves its inputs unchanged. -/
theorem frame_k : Cert.frame_Kernel (hKernel := Cert.Kernel.Gen.facts) (hPre_finite_inputs := Cert.Pre_finite_inputs.Gen.facts) :=
  fun m ρ _ => Cert.Kernel.Acc.frame m ρ

/-- The first program over the extended reals runs and leaves its inputs unchanged. -/
theorem frame_ki : Cert.frame_KernelIdeal (hKernelIdeal := Cert.KernelIdeal.Gen.facts) (hPre_finite_inputs := Cert.Pre_finite_inputs.Gen.facts) :=
  fun m ρ _ => Cert.KernelIdeal.Acc.frame m ρ

/-- The second program runs and leaves its inputs unchanged. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the two finite inputs both programs run to the same result: the loss term at the
    real numerator and denominator, which the two formulas share. -/
theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' hpre hagree
  choose r hr using fun c => Cert.KernelIdeal.RepReal.rep_real _ _ (hpre c)
  refine ⟨fun c => Host.divf (F := Ideal) (s := Cert.KernelIdeal.S_) (φ := .f32)
      (Host.negf (F := Ideal) (Host.log (F := Ideal)
        (Host.divf (F := Ideal) (fun _ => ((Cert.Spec.nomK (r c) : ℝ) : EReal)) (fun _ => ((Cert.Spec.denK (r c) : ℝ) : EReal)))))
      (constant (F := Ideal) Cert.KernelIdeal.S_ .f32 0x46000000#32),
    Cert.KernelIdeal.Acc.result m ρ r hr
      (fun c p => Cert.KernelIdeal.Acc.rowsums m c (r c) (fun p q => by rw [Cert.KernelIdeal.Acc.V_v10]; exact hr c p q) p), ?_⟩
  refine (θ_run Cert.ReferenceIdeal.defs _ _).mono (fun _ h c => ⟨?_, (h c).2⟩) (Cert.ReferenceIdeal.Value.run (F := Ideal) m' ρ')
  refine (h c).1.trans ((Cert.ReferenceIdeal.RefValue.result_eq_run m' c (r c) (fun p q =>
    (congrArg₂ (fun a0 a1 => Cert.ReferenceIdeal.RefValue.refRep a0 a1 (ValueIdx.ix2 p q)) (hagree c).1 (hagree c).2).trans
      (hr c p q))).trans ?_)
  exact (congrArg₂ (fun n d : ℝ => Host.divf (F := Ideal) (s := Cert.KernelIdeal.S_) (φ := .f32)
      (Host.negf (F := Ideal) (Host.log (F := Ideal) (Host.divf (F := Ideal) (fun _ => ((n : ℝ) : EReal)) (fun _ => ((d : ℝ) : EReal)))))
      (constant (F := Ideal) Cert.KernelIdeal.S_ .f32 0x46000000#32))
    (Cert.Spec.nomK_eq_nomR (r c)) (Cert.Spec.denK_eq_denR (r c))).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
